-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S50000x256 : Shape := ⟨2, ![50000, 256]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S2x768x256 : Shape := ⟨3, ![2, 768, 256]⟩
abbrev S2x768 : Shape := ⟨2, ![2, 768]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x768x256 : S_.BroadcastsInDim S2x768x256 (![] : Fin 0 → Fin S2x768x256.rank)
  reducesTo_S2x768x256_S_d0_1_2 : S2x768x256.ReducesTo [0, 1, 2] S_
  bcast_S_S2x768 : S_.BroadcastsInDim S2x768 (![] : Fin 0 → Fin S2x768.rank)
  reducesTo_S2x768_S_d0_1 : S2x768.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S256x2 .f32) (main_arg14 : FVec F S2 .f32) (main_v48 : IVec S_ 1) (main_v49 : FVec F S2x768 .f32) (main_v50 : FVec F S2x768 .f32) : IVec S_ 1 :=
  let main_v51 : IVec S2x768 1 := cmpf .olt main_v49 main_v50
  let main_c_19 : IVec S_ 1 := constantI S_ 1 1#1
  let main_v52 : IVec S_ 1 := (fun x v => Host.reduce IntOp.andi x v reducesTo_S2x768_S_d0_1 h_S_) main_v51 main_c_19
  let main_v53 : IVec S_ 1 := andi main_v48 main_v52
  let main_v54 : FVec F S256x2 .f32 := Host.absf main_arg13
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S2x768x256 .f32) (main_arg10 : FVec F S2x768x256 .f32) (main_arg11 : FVec F S2x768 .f32) (main_arg12 : FVec F S2x768 .f32) (main_arg13 : FVec F S256x2 .f32) (main_arg14 : FVec F S2 .f32) (main_v33 : IVec S_ 1) : IVec S_ 1 :=
  let main_v34 : FVec F S2x768x256 .f32 := Host.absf main_arg9
  let main_cst_12 : FVec F S_ .f32 := constant S_ .f32 0x7F800000#32
  let main_v35 : FVec F S2x768x256 .f32 := broadcastInDim S2x768x256 ![] bcast_S_S2x768x256 main_cst_12
  let main_v36 : IVec S2x768x256 1 := cmpf .olt main_v34 main_v35
  let main_c_13 : IVec S_ 1 := constantI S_ 1 1#1
  let main_v37 : IVec S_ 1 := (fun x v => Host.reduce IntOp.andi x v reducesTo_S2x768x256_S_d0_1_2 h_S_) main_v36 main_c_13
  let main_v38 : IVec S_ 1 := andi main_v33 main_v37
  let main_v39 : FVec F S2x768x256 .f32 := Host.absf main_arg10
  let main_cst_14 : FVec F S_ .f32 := constant S_ .f32 0x7F800000#32
  let main_v40 : FVec F S2x768x256 .f32 := broadcastInDim S2x768x256 ![] bcast_S_S2x768x256 main_cst_14
  let main_v41 : IVec S2x768x256 1 := cmpf .olt main_v39 main_v40
  let main_c_15 : IVec S_ 1 := constantI S_ 1 1#1
  let main_v42 : IVec S_ 1 := (fun x v => Host.reduce IntOp.andi x v reducesTo_S2x768x256_S_d0_1_2 h_S_) main_v41 main_c_15
  let main_v43 : IVec S_ 1 := andi main_v38 main_v42
  let main_v44 : FVec F S2x768 .f32 := Host.absf main_arg11
  let main_cst_16 : FVec F S_ .f32 := constant S_ .f32 0x7F800000#32
  let main_v45 : FVec F S2x768 .f32 := broadcastInDim S2x768 ![] bcast_S_S2x768 main_cst_16
  let main_v46 : IVec S2x768 1 := cmpf .olt main_v44 main_v45
  let main_c_17 : IVec S_ 1 := constantI S_ 1 1#1
  let main_v47 : IVec S_ 1 := (fun x v => Host.reduce IntOp.andi x v reducesTo_S2x768_S_d0_1 h_S_) main_v46 main_c_17
  let main_v48 : IVec S_ 1 := andi main_v43 main_v47
  let main_v49 : FVec F S2x768 .f32 := Host.absf main_arg12
  let main_cst_18 : FVec F S_ .f32 := constant S_ .f32 0x7F800000#32
  let main_v50 : FVec F S2x768 .f32 := broadcastInDim S2x768 ![] bcast_S_S2x768 main_cst_18
  fn_part3 (F := F) main_arg13 main_arg14 main_v48 main_v49 main_v50

def fn_part1 {F : FTy → Type} [FloatOps F] (main_arg6 : FVec F S256 .f32) (main_arg7 : FVec F S2x256x256 .f32) (main_arg8 : FVec F S2x256 .f32) (main_arg9 : FVec F S2x768x256 .f32) (main_arg10 : FVec F S2x768x256 .f32) (main_arg11 : FVec F S2x768 .f32) (main_arg12 : FVec F S2x768 .f32) (main_arg13 : FVec F S256x2 .f32) (main_arg14 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S2x256x256 .f32 := Host.absf main_arg7
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg8
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S2x200000 32) (main_arg3 : FVec F S50000x256 .f32) (main_arg4 : FVec F S50000x256 .f32) (main_arg5 : FVec F S128x256 .f32) (main_arg6 : FVec F S256 .f32) (main_arg7 : FVec F S2x256x256 .f32) (main_arg8 : FVec F S2x256 .f32) (main_arg9 : FVec F S2x768x256 .f32) (main_arg10 : FVec F S2x768x256 .f32) (main_arg11 : FVec F S2x768 .f32) (main_arg12 : FVec F S2x768 .f32) (main_arg13 : FVec F S256x2 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x256 .f32 := Host.absf main_arg3
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S50000x256 : Shape := ⟨2, ![50000, 256]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S2x768x256 : Shape := ⟨3, ![2, 768, 256]⟩
abbrev S2x768 : Shape := ⟨2, ![2, 768]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S850000x256 : Shape := ⟨2, ![850000, 256]⟩
abbrev S1x768x256 : Shape := ⟨3, ![1, 768, 256]⟩
abbrev S768x256 : Shape := ⟨2, ![768, 256]⟩
abbrev S256x768 : Shape := ⟨2, ![256, 768]⟩
abbrev S1x256x256 : Shape := ⟨3, ![1, 256, 256]⟩
abbrev S256x256 : Shape := ⟨2, ![256, 256]⟩
abbrev S1x768 : Shape := ⟨2, ![1, 768]⟩
abbrev S768 : Shape := ⟨1, ![768]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S1x2 : Shape := ⟨2, ![1, 2]⟩
abbrev S2000x128 : Shape := ⟨2, ![2000, 128]⟩
abbrev S2000x256 : Shape := ⟨2, ![2000, 256]⟩
abbrev S1000x256 : Shape := ⟨2, ![1000, 256]⟩
abbrev S1000x768 : Shape := ⟨2, ![1000, 768]⟩
abbrev S2000x1 : Shape := ⟨2, ![2000, 1]⟩
abbrev S2000x2 : Shape := ⟨2, ![2000, 2]⟩
abbrev S2000 : Shape := ⟨1, ![2000]⟩

abbrev nBuf : Space → Nat
  | .hbm => 154
  | .vmem => 38
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S50000x256, .f32⟩
  | 4 => ⟨S50000x256, .f32⟩
  | 5 => ⟨S128x256, .f32⟩
  | 6 => ⟨S256, .f32⟩
  | 7 => ⟨S2x256x256, .f32⟩
  | 8 => ⟨S2x256, .f32⟩
  | 9 => ⟨S2x768x256, .f32⟩
  | 10 => ⟨S2x768x256, .f32⟩
  | 11 => ⟨S2x768, .f32⟩
  | 12 => ⟨S2x768, .f32⟩
  | 13 => ⟨S256x2, .f32⟩
  | 14 => ⟨S2, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S128x256, .bf16⟩
  | 52 => ⟨S1x256, .f32⟩
  | 53 => ⟨S50000x256, .f32⟩
  | 54 => ⟨S2x256x256, .bf16⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x768x256, .f32⟩
  | 72 => ⟨S768x256, .f32⟩
  | 73 => ⟨S256x768, .f32⟩
  | 74 => ⟨S256x768, .bf16⟩
  | 75 => ⟨S1x768x256, .f32⟩
  | 76 => ⟨S768x256, .f32⟩
  | 77 => ⟨S256x768, .f32⟩
  | 78 => ⟨S256x768, .bf16⟩
  | 79 => ⟨S1x256x256, .bf16⟩
  | 80 => ⟨S256x256, .bf16⟩
  | 81 => ⟨S1x256, .f32⟩
  | 82 => ⟨S256, .f32⟩
  | 83 => ⟨S1x768, .f32⟩
  | 84 => ⟨S768, .f32⟩
  | 85 => ⟨S1x768, .f32⟩
  | 86 => ⟨S768, .f32⟩
  | 87 => ⟨S1x256, .f32⟩
  | 88 => ⟨S1x768, .f32⟩
  | 89 => ⟨S1x768, .f32⟩
  | 90 => ⟨S50000x256, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x256, .f32⟩
  | 100 => ⟨S850000x1, .f32⟩
  | 101 => ⟨S850000x256, .f32⟩
  | 102 => ⟨S850000x256, .f32⟩
  | 103 => ⟨S_, .f32⟩
  | 104 => ⟨S50000x256, .f32⟩
  | 105 => ⟨S850000x1, .i32⟩
  | 106 => ⟨S50000x256, .f32⟩
  | 107 => ⟨S1x768x256, .f32⟩
  | 108 => ⟨S768x256, .f32⟩
  | 109 => ⟨S256x768, .f32⟩
  | 110 => ⟨S256x768, .bf16⟩
  | 111 => ⟨S1x768x256, .f32⟩
  | 112 => ⟨S768x256, .f32⟩
  | 113 => ⟨S256x768, .f32⟩
  | 114 => ⟨S256x768, .bf16⟩
  | 115 => ⟨S1x256x256, .bf16⟩
  | 116 => ⟨S256x256, .bf16⟩
  | 117 => ⟨S1x256, .f32⟩
  | 118 => ⟨S256, .f32⟩
  | 119 => ⟨S1x768, .f32⟩
  | 120 => ⟨S768, .f32⟩
  | 121 => ⟨S1x768, .f32⟩
  | 122 => ⟨S768, .f32⟩
  | 123 => ⟨S1x256, .f32⟩
  | 124 => ⟨S1x768, .f32⟩
  | 125 => ⟨S1x768, .f32⟩
  | 126 => ⟨S50000x256, .f32⟩
  | 127 => ⟨S50000x256, .bf16⟩
  | _ => ⟨S50000x128, .f32⟩

abbrev hbmTy0_1 (i : Nat) : BufTy := match i % 128 with
  | 0 => ⟨S1x200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x256, .bf16⟩
  | 11 => ⟨S1x200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x256, .bf16⟩
  | 22 => ⟨S256x2, .bf16⟩
  | 23 => ⟨S1x2, .f32⟩
  | 24 => ⟨S200000x1, .f32⟩
  | 25 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S1000x256, .f32⟩
  | .local _ .vmem, ⟨7, _⟩ => ⟨S1000x256, .f32⟩
  | .local _ .vmem, ⟨8, _⟩ => ⟨S256x256, .bf16⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S256x768, .bf16⟩
  | .local _ .vmem, ⟨13, _⟩ => ⟨S256x768, .bf16⟩
  | .local _ .vmem, ⟨14, _⟩ => ⟨S1x768, .f32⟩
  | .local _ .vmem, ⟨15, _⟩ => ⟨S1x768, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x256, .bf16⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S256x768, .bf16⟩
  | .local _ .vmem, ⟨25, _⟩ => ⟨S256x768, .bf16⟩
  | .local _ .vmem, ⟨26, _⟩ => ⟨S1x768, .f32⟩
  | .local _ .vmem, ⟨27, _⟩ => ⟨S1x768, .f32⟩
  | .local _ .vmem, ⟨28, _⟩ => ⟨S1000x256, .f32⟩
  | .local _ .vmem, ⟨29, _⟩ => ⟨S1000x256, .f32⟩
  | .local _ .vmem, ⟨30, _⟩ => ⟨S2000x256, .bf16⟩
  | .local _ .vmem, ⟨31, _⟩ => ⟨S2000x256, .bf16⟩
  | .local _ .vmem, ⟨32, _⟩ => ⟨S2000x256, .bf16⟩
  | .local _ .vmem, ⟨33, _⟩ => ⟨S2000x256, .bf16⟩
  | .local _ .vmem, ⟨34, _⟩ => ⟨S256x2, .bf16⟩
  | .local _ .vmem, ⟨35, _⟩ => ⟨S1x2, .f32⟩
  | .local _ .vmem, ⟨36, _⟩ => ⟨S2000x1, .f32⟩
  | .local _ .vmem, ⟨37, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst : Ref sig .tc := ⟨.hbm, 22, rfl⟩
abbrev main_call0_v7 : Ref sig .tc := ⟨.hbm, 23, rfl⟩
abbrev main_call0_cst_0 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_cst_1 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_c : Ref sig .tc := ⟨.hbm, 32, rfl⟩
abbrev main_call0_v14 : Ref sig .tc := ⟨.hbm, 33, rfl⟩
abbrev main_call0_v15 : Ref sig .tc := ⟨.hbm, 34, rfl⟩
abbrev main_call0_c_2 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_c_3 : Ref sig .tc := ⟨.hbm, 41, rfl⟩
abbrev main_call0_v21 : Ref sig .tc := ⟨.hbm, 42, rfl⟩
abbrev main_call0_v22 : Ref sig .tc := ⟨.hbm, 43, rfl⟩
abbrev main_call0_c_4 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_c_5 : Ref sig .tc := ⟨.hbm, 55, rfl⟩
abbrev main_call0_v33 : Ref sig .tc := ⟨.hbm, 56, rfl⟩
abbrev main_call0_v34 : Ref sig .tc := ⟨.hbm, 57, rfl⟩
abbrev main_call0_c_6 : Ref sig .tc := ⟨.hbm, 58, rfl⟩
abbrev main_call0_v35 : Ref sig .tc := ⟨.hbm, 59, rfl⟩
abbrev main_call0_v36 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_v41 : Ref sig .tc := ⟨.hbm, 65, rfl⟩
abbrev main_call0_v42 : Ref sig .tc := ⟨.hbm, 66, rfl⟩
abbrev main_call0_cst_7 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_c_8 : Ref sig .tc := ⟨.hbm, 91, rfl⟩
abbrev main_call0_v66 : Ref sig .tc := ⟨.hbm, 92, rfl⟩
abbrev main_call0_v67 : Ref sig .tc := ⟨.hbm, 93, rfl⟩
abbrev main_call0_c_9 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_v71 : Ref sig .tc := ⟨.hbm, 98, rfl⟩
abbrev main_call0_v72 : Ref sig .tc := ⟨.hbm, 99, rfl⟩
abbrev main_call0_v73 : Ref sig .tc := ⟨.hbm, 100, rfl⟩
abbrev main_call0_v74 : Ref sig .tc := ⟨.hbm, 101, rfl⟩
abbrev main_call0_v75 : Ref sig .tc := ⟨.hbm, 102, rfl⟩
abbrev main_call0_cst_10 : Ref sig .tc := ⟨.hbm, 103, rfl⟩
abbrev main_call0_v76 : Ref sig .tc := ⟨.hbm, 104, rfl⟩
abbrev main_call0_v77 : Ref sig .tc := ⟨.hbm, 105, rfl⟩
abbrev main_call0_v78 : Ref sig .tc := ⟨.hbm, 106, rfl⟩
abbrev main_call0_v79 : Ref sig .tc := ⟨.hbm, 107, rfl⟩
abbrev main_call0_v80 : Ref sig .tc := ⟨.hbm, 108, rfl⟩
abbrev main_call0_v81 : Ref sig .tc := ⟨.hbm, 109, rfl⟩
abbrev main_call0_v82 : Ref sig .tc := ⟨.hbm, 110, rfl⟩
abbrev main_call0_v83 : Ref sig .tc := ⟨.hbm, 111, rfl⟩
abbrev main_call0_v84 : Ref sig .tc := ⟨.hbm, 112, rfl⟩
abbrev main_call0_v85 : Ref sig .tc := ⟨.hbm, 113, rfl⟩
abbrev main_call0_v86 : Ref sig .tc := ⟨.hbm, 114, rfl⟩
abbrev main_call0_v87 : Ref sig .tc := ⟨.hbm, 115, rfl⟩
abbrev main_call0_v88 : Ref sig .tc := ⟨.hbm, 116, rfl⟩
abbrev main_call0_v89 : Ref sig .tc := ⟨.hbm, 117, rfl⟩
abbrev main_call0_v90 : Ref sig .tc := ⟨.hbm, 118, rfl⟩
abbrev main_call0_v91 : Ref sig .tc := ⟨.hbm, 119, rfl⟩
abbrev main_call0_v92 : Ref sig .tc := ⟨.hbm, 120, rfl⟩
abbrev main_call0_v93 : Ref sig .tc := ⟨.hbm, 121, rfl⟩
abbrev main_call0_v94 : Ref sig .tc := ⟨.hbm, 122, rfl⟩
abbrev main_call0_v95 : Ref sig .tc := ⟨.hbm, 123, rfl⟩
abbrev main_call0_v96 : Ref sig .tc := ⟨.hbm, 124, rfl⟩
abbrev main_call0_v97 : Ref sig .tc := ⟨.hbm, 125, rfl⟩
abbrev main_call0_v98 : Ref sig .tc := ⟨.hbm, 126, rfl⟩
abbrev main_call0_v99 : Ref sig .tc := ⟨.hbm, 127, rfl⟩
abbrev main_call0_v100 : Ref sig .tc := ⟨.hbm, 128, rfl⟩
abbrev main_call0_v101 : Ref sig .tc := ⟨.hbm, 129, rfl⟩
abbrev main_call0_c_11 : Ref sig .tc := ⟨.hbm, 130, rfl⟩
abbrev main_call0_v102 : Ref sig .tc := ⟨.hbm, 131, rfl⟩
abbrev main_call0_v103 : Ref sig .tc := ⟨.hbm, 132, rfl⟩
abbrev main_call0_c_12 : Ref sig .tc := ⟨.hbm, 133, rfl⟩
abbrev main_call0_v104 : Ref sig .tc := ⟨.hbm, 134, rfl⟩
abbrev main_call0_v105 : Ref sig .tc := ⟨.hbm, 135, rfl⟩
abbrev main_call0_v106 : Ref sig .tc := ⟨.hbm, 136, rfl⟩
abbrev main_call0_v107 : Ref sig .tc := ⟨.hbm, 137, rfl⟩
abbrev main_call0_v108 : Ref sig .tc := ⟨.hbm, 138, rfl⟩
abbrev main_call0_v109 : Ref sig .tc := ⟨.hbm, 139, rfl⟩
abbrev main_call0_v110 : Ref sig .tc := ⟨.hbm, 140, rfl⟩
abbrev main_call0_c_13 : Ref sig .tc := ⟨.hbm, 141, rfl⟩
abbrev main_call0_v111 : Ref sig .tc := ⟨.hbm, 142, rfl⟩
abbrev main_call0_v112 : Ref sig .tc := ⟨.hbm, 143, rfl⟩
abbrev main_call0_c_14 : Ref sig .tc := ⟨.hbm, 144, rfl⟩
abbrev main_call0_v113 : Ref sig .tc := ⟨.hbm, 145, rfl⟩
abbrev main_call0_v114 : Ref sig .tc := ⟨.hbm, 146, rfl⟩
abbrev main_call0_v115 : Ref sig .tc := ⟨.hbm, 147, rfl⟩
abbrev main_call0_v116 : Ref sig .tc := ⟨.hbm, 148, rfl⟩
abbrev main_call0_v117 : Ref sig .tc := ⟨.hbm, 149, rfl⟩
abbrev main_call0_v118 : Ref sig .tc := ⟨.hbm, 150, rfl⟩
abbrev main_call0_v119 : Ref sig .tc := ⟨.hbm, 151, rfl⟩
abbrev main_call0_v120 : Ref sig .tc := ⟨.hbm, 152, rfl⟩
abbrev main_v0 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x768 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x768 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x2 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S256_S1x256 : S256.ShapeCasts S1x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S2x768x256_S1x768x256_0_0_0 : S2x768x256.Slices ![0, 0, 0] S1x768x256
  shapeCasts_S1x768x256_S768x256 : S1x768x256.ShapeCasts S768x256
  transposes_S768x256_S256x768_1_0 : S768x256.Transposes [1, 0] S256x768
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x768_S1x768_0_0 : S2x768.Slices ![0, 0] S1x768
  shapeCasts_S1x768_S768 : S1x768.ShapeCasts S768
  shapeCasts_S768_S1x768 : S768.ShapeCasts S1x768
  slices_S2x768x256_S1x768x256_1_0_0 : S2x768x256.Slices ![1, 0, 0] S1x768x256
  slices_S2x256x256_S1x256x256_1_0_0 : S2x256x256.Slices ![1, 0, 0] S1x256x256
  slices_S2x256_S1x256_1_0 : S2x256.Slices ![1, 0] S1x256
  slices_S2x768_S1x768_1_0 : S2x768.Slices ![1, 0] S1x768
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  shapeCasts_S2_S1x2 : S2.ShapeCasts S1x2
  shapeCasts_S200000x1_S200000 : S200000x1.ShapeCasts S200000
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1000x256 : S1x256.Broadcasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  shapeCasts_S2000x256_S2000x256 : S2000x256.ShapeCasts S2000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S200000x1_S200000x256_1_0_n_n_0_1_1256_wf : GatherDims.WF S50000x256 S200000x1 S200000x256 [1] [0] [] [0] [] 1 ![1, 256]
  dot_S2000x128_S128x256_S2000x256_1_0_0_1_n_n_wf : DotDims.WF S2000x128 S128x256 S2000x256 [1] [0] [0] [1] [] []
  dot_S1000x256_S256x256_S1000x256_1_0_0_1_n_n_wf : DotDims.WF S1000x256 S256x256 S1000x256 [1] [0] [0] [1] [] []
  dot_S1000x256_S256x768_S1000x768_1_0_0_1_n_n_wf : DotDims.WF S1000x256 S256x768 S1000x768 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .bf16 = 32 ∨ (Rect.block (s := S256x768) S256x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x768.size a ≤ S256x768.size a
  hwx1_5 : ∀ i : grid1.Coords, EltTy.bits .bf16 = 32 ∨ (Rect.block (s := S256x768) S256x768.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x768.size a ≤ S1x768.size a
  hwx1_6 : ∀ i : grid1.Coords, EltTy.bits .f32 = 32 ∨ (Rect.block (s := S1x768) S1x768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x256.size a ≤ S50000x256.size a
  hwx1_8 : ∀ i : grid1.Coords, EltTy.bits .f32 = 32 ∨ (Rect.block (s := S50000x256) S1000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x768.size a ≤ S256x768.size a
  hwx2_4 : ∀ i : grid2.Coords, EltTy.bits .bf16 = 32 ∨ (Rect.block (s := S256x768) S256x768.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x768.size a ≤ S256x768.size a
  hwx2_5 : ∀ i : grid2.Coords, EltTy.bits .bf16 = 32 ∨ (Rect.block (s := S256x768) S256x768.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x768.size a ≤ S1x768.size a
  hwx2_6 : ∀ i : grid2.Coords, EltTy.bits .f32 = 32 ∨ (Rect.block (s := S1x768) S1x768.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x768.size a ≤ S1x768.size a
  hwx2_7 : ∀ i : grid2.Coords, EltTy.bits .f32 = 32 ∨ (Rect.block (s := S1x768) S1x768.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x256.size a ≤ S50000x256.size a
  hwx2_8 : ∀ i : grid2.Coords, EltTy.bits .f32 = 32 ∨ (Rect.block (s := S50000x256) S1000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .bf16 = 32 ∨ (Rect.block (s := S200000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .bf16 = 32 ∨ (Rect.block (s := S200000x256) S2000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x2.size a ≤ S256x2.size a
  hwx3_2 : ∀ i : grid3.Coords, EltTy.bits .bf16 = 32 ∨ (Rect.block (s := S256x2) S256x2.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S200000x1.size a
  hwx3_4 : ∀ i : grid3.Coords, EltTy.bits .f32 = 32 ∨ (Rect.block (s := S200000x1) S2000x1.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v29) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v31) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v45) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v55) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v62) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v49) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v53) S256x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v63) S1x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v64) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v65) S1000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_call0_v78) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v88) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v95) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v82) S256x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v86) S256x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v96) S1x768.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v97) S1x768.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v98) S1000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_call0_v108) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v117) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v118) S256x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v119) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v120) S2000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S50000x256 : Shape := ⟨2, ![50000, 256]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S2x768x256 : Shape := ⟨3, ![2, 768, 256]⟩
abbrev S2x768 : Shape := ⟨2, ![2, 768]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S1x256x256 : Shape := ⟨3, ![1, 256, 256]⟩
abbrev S256x256 : Shape := ⟨2, ![256, 256]⟩
abbrev S850000x256 : Shape := ⟨2, ![850000, 256]⟩
abbrev S1x768x256 : Shape := ⟨3, ![1, 768, 256]⟩
abbrev S768x256 : Shape := ⟨2, ![768, 256]⟩
abbrev S256x768 : Shape := ⟨2, ![256, 768]⟩
abbrev S50000x768 : Shape := ⟨2, ![50000, 768]⟩
abbrev S1x768 : Shape := ⟨2, ![1, 768]⟩
abbrev S768 : Shape := ⟨1, ![768]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S200000x2 : Shape := ⟨2, ![200000, 2]⟩
abbrev S1x2 : Shape := ⟨2, ![1, 2]⟩

abbrev nBuf : Space → Nat
  | .hbm => 243
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S50000x256, .f32⟩
  | 4 => ⟨S50000x256, .f32⟩
  | 5 => ⟨S128x256, .f32⟩
  | 6 => ⟨S256, .f32⟩
  | 7 => ⟨S2x256x256, .f32⟩
  | 8 => ⟨S2x256, .f32⟩
  | 9 => ⟨S2x768x256, .f32⟩
  | 10 => ⟨S2x768x256, .f32⟩
  | 11 => ⟨S2x768, .f32⟩
  | 12 => ⟨S2x768, .f32⟩
  | 13 => ⟨S256x2, .f32⟩
  | 14 => ⟨S2, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S1x256x256, .f32⟩
  | 59 => ⟨S256x256, .f32⟩
  | 60 => ⟨S50000x256, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x256, .f32⟩
  | 70 => ⟨S850000x1, .f32⟩
  | 71 => ⟨S850000x256, .f32⟩
  | 72 => ⟨S850000x256, .f32⟩
  | 73 => ⟨S_, .f32⟩
  | 74 => ⟨S50000x256, .f32⟩
  | 75 => ⟨S850000x1, .i32⟩
  | 76 => ⟨S50000x256, .f32⟩
  | 77 => ⟨S1x256, .f32⟩
  | 78 => ⟨S256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S1x768x256, .f32⟩
  | 86 => ⟨S768x256, .f32⟩
  | 87 => ⟨S256x768, .f32⟩
  | 88 => ⟨S50000x768, .f32⟩
  | 89 => ⟨S1x768, .f32⟩
  | 90 => ⟨S768, .f32⟩
  | 91 => ⟨S1x768, .f32⟩
  | 92 => ⟨S50000x768, .f32⟩
  | 93 => ⟨S50000x768, .f32⟩
  | 94 => ⟨S1x768x256, .f32⟩
  | 95 => ⟨S768x256, .f32⟩
  | 96 => ⟨S256x768, .f32⟩
  | 97 => ⟨S50000x768, .f32⟩
  | 98 => ⟨S1x768, .f32⟩
  | 99 => ⟨S768, .f32⟩
  | 100 => ⟨S1x768, .f32⟩
  | 101 => ⟨S50000x768, .f32⟩
  | 102 => ⟨S50000x768, .f32⟩
  | 103 => ⟨S50000x256, .f32⟩
  | 104 => ⟨S50000x256, .f32⟩
  | 105 => ⟨S50000x256, .f32⟩
  | 106 => ⟨S50000x256, .f32⟩
  | 107 => ⟨S50000x256, .f32⟩
  | 108 => ⟨S50000x256, .f32⟩
  | 109 => ⟨S50000x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S50000x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S50000x256, .f32⟩
  | 7 => ⟨S50000x256, .f32⟩
  | 8 => ⟨S1x256x256, .f32⟩
  | 9 => ⟨S256x256, .f32⟩
  | 10 => ⟨S50000x256, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x256, .f32⟩
  | 20 => ⟨S850000x1, .f32⟩
  | 21 => ⟨S850000x256, .f32⟩
  | 22 => ⟨S850000x256, .f32⟩
  | 23 => ⟨S_, .f32⟩
  | 24 => ⟨S50000x256, .f32⟩
  | 25 => ⟨S850000x1, .i32⟩
  | 26 => ⟨S50000x256, .f32⟩
  | 27 => ⟨S1x256, .f32⟩
  | 28 => ⟨S256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S1x768x256, .f32⟩
  | 36 => ⟨S768x256, .f32⟩
  | 37 => ⟨S256x768, .f32⟩
  | 38 => ⟨S50000x768, .f32⟩
  | 39 => ⟨S1x768, .f32⟩
  | 40 => ⟨S768, .f32⟩
  | 41 => ⟨S1x768, .f32⟩
  | 42 => ⟨S50000x768, .f32⟩
  | 43 => ⟨S50000x768, .f32⟩
  | 44 => ⟨S1x768x256, .f32⟩
  | 45 => ⟨S768x256, .f32⟩
  | 46 => ⟨S256x768, .f32⟩
  | 47 => ⟨S50000x768, .f32⟩
  | 48 => ⟨S1x768, .f32⟩
  | 49 => ⟨S768, .f32⟩
  | 50 => ⟨S1x768, .f32⟩
  | 51 => ⟨S50000x768, .f32⟩
  | 52 => ⟨S50000x768, .f32⟩
  | 53 => ⟨S50000x256, .f32⟩
  | 54 => ⟨S50000x256, .f32⟩
  | 55 => ⟨S50000x256, .f32⟩
  | 56 => ⟨S50000x256, .f32⟩
  | 57 => ⟨S50000x256, .f32⟩
  | 58 => ⟨S50000x256, .f32⟩
  | 59 => ⟨S50000x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S50000x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S50000x256, .f32⟩
  | 84 => ⟨S50000x256, .f32⟩
  | 85 => ⟨S50000x256, .f32⟩
  | 86 => ⟨S1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000x256, .f32⟩
  | 97 => ⟨S1x200000, .i32⟩
  | 98 => ⟨S200000, .i32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S200000x256, .f32⟩
  | 108 => ⟨S200000x256, .f32⟩
  | 109 => ⟨S200000x2, .f32⟩
  | 110 => ⟨S1x2, .f32⟩
  | 111 => ⟨S200000x2, .f32⟩
  | 112 => ⟨S200000x2, .f32⟩
  | 113 => ⟨S_, .f32⟩
  | 114 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_v83 : Ref sig .tc := ⟨.hbm, 113, rfl⟩
abbrev main_v84 : Ref sig .tc := ⟨.hbm, 114, rfl⟩
abbrev main_cst_9 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_10 : Ref sig .tc := ⟨.hbm, 121, rfl⟩
abbrev main_v90 : Ref sig .tc := ⟨.hbm, 122, rfl⟩
abbrev main_v91 : Ref sig .tc := ⟨.hbm, 123, rfl⟩
abbrev main_cst_11 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_12 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_13 : Ref sig .tc := ⟨.hbm, 139, rfl⟩
abbrev main_v105 : Ref sig .tc := ⟨.hbm, 140, rfl⟩
abbrev main_v106 : Ref sig .tc := ⟨.hbm, 141, rfl⟩
abbrev main_c_14 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_15 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_call2_cst : Ref sig .tc := ⟨.hbm, 160, rfl⟩
abbrev main_call2_v0 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_16 : Ref sig .tc := ⟨.hbm, 190, rfl⟩
abbrev main_v151 : Ref sig .tc := ⟨.hbm, 191, rfl⟩
abbrev main_v152 : Ref sig .tc := ⟨.hbm, 192, rfl⟩
abbrev main_cst_17 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_18 : Ref sig .tc := ⟨.hbm, 199, rfl⟩
abbrev main_v158 : Ref sig .tc := ⟨.hbm, 200, rfl⟩
abbrev main_v159 : Ref sig .tc := ⟨.hbm, 201, rfl⟩
abbrev main_cst_19 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_20 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_21 : Ref sig .tc := ⟨.hbm, 216, rfl⟩
abbrev main_v172 : Ref sig .tc := ⟨.hbm, 217, rfl⟩
abbrev main_v173 : Ref sig .tc := ⟨.hbm, 218, rfl⟩
abbrev main_c_22 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_c_23 : Ref sig .tc := ⟨.hbm, 227, rfl⟩
abbrev main_v181 : Ref sig .tc := ⟨.hbm, 228, rfl⟩
abbrev main_v182 : Ref sig .tc := ⟨.hbm, 229, rfl⟩
abbrev main_c_24 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_25 : Ref sig .tc := ⟨.hbm, 241, rfl⟩
abbrev main_v193 : Ref sig .tc := ⟨.hbm, 242, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  bcast_S850000x1_S850000x256_0_1 : S850000x1.BroadcastsInDim S850000x256 (![0, 1] : Fin 2 → Fin S850000x256.rank)
  slices_S2x256_S1x256_0_0 : S2x256.Slices ![0, 0] S1x256
  shapeCasts_S1x256_S256 : S1x256.ShapeCasts S256
  slices_S2x768x256_S1x768x256_0_0_0 : S2x768x256.Slices ![0, 0, 0] S1x768x256
  shapeCasts_S1x768x256_S768x256 : S1x768x256.ShapeCasts S768x256
  transposes_S768x256_S256x768_1_0 : S768x256.Transposes [1, 0] S256x768
  slices_S2x768_S1x768_0_0 : S2x768.Slices ![0, 0] S1x768
  shapeCasts_S1x768_S768 : S1x768.ShapeCasts S768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  slices_S2x256x256_S1x256x256_1_0_0 : S2x256x256.Slices ![1, 0, 0] S1x256x256
  slices_S2x256_S1x256_1_0 : S2x256.Slices ![1, 0] S1x256
  slices_S2x768x256_S1x768x256_1_0_0 : S2x768x256.Slices ![1, 0, 0] S1x768x256
  slices_S2x768_S1x768_1_0 : S2x768.Slices ![1, 0] S1x768
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x768_S50000x768_1_0_0_1_n_n_wf : DotDims.WF S50000x256 S256x768 S50000x768 [1] [0] [0] [1] [] []
  gather_S50000x256_S200000x1_S200000x256_1_0_n_n_0_1_1256_wf : GatherDims.WF S50000x256 S200000x1 S200000x256 [1] [0] [] [0] [] 1 ![1, 256]
  dot_S200000x256_S256x2_S200000x2_1_0_0_1_n_n_wf : DotDims.WF S200000x256 S256x2 S200000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x256_S256x2_S200000x2_1_0_0_1_n_n : DotDims S200000x256 S256x2 S200000x2 where
  lhsContracting := [1]
  rhsContracting := [0]
  lhsNonContracting := [0]
  rhsNonContracting := [1]
  lhsBatch := []
  rhsBatch := []
  wf := dot_S200000x256_S256x2_S200000x2_1_0_0_1_n_n_wf

class Facts : Prop extends Facts₀ where

variable [Facts]
-- ==== Proof.KWalk.lean ====
/-
  Reading a buffer at a later boundary of the idealized kernel's run back to an earlier one.

  The run's buffer contents are a fold through @main: a stretch of host operations changes only the buffers its
  operations write, and a kernel region changes only its own arrays. So a buffer that the stretches up to some
  boundary do not write, and that is no array of the regions before it, still holds what it held at launch (an
  argument) or at the boundary after the stretch that computed it (an index array, the edge weights, a converted
  weight matrix).
-/
import proofs.«169681_j33285996544265_2_alg».proof.Proof.Gen.KernelIdeal.Frame
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- No operation of a literal stretch writes the buffer: the operations' result buffers are compared one by one. -/
macro "not_written" : tactic =>
  `(tactic| (refine List.forall_iff_forall_mem.mp ?_
             simp only [hostOps0, hostOps1, hostOps2, hostOps3, hostOps4, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The first stretch keeps a buffer it does not write at its launch contents. -/
theorem W1_keep (b : Ref sig .tc)
    (h : ∀ op ∈ (hostOps0 : List (HloOp τ sig (Elt F))), (Proc.devRef .tc b : DevRef τ sig) ∉ op.writes) :
    W1 m ρ c (Proc.devRef .tc b) = m ((c : Thread nD τ).loc b) :=
  StableHlo.after_of_forall_not_mem _ _ h

theorem W3_keep (b : Ref sig .tc)
    (h : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem _ _ h

theorem W5_keep (b : Ref sig .tc)
    (h : ∀ op ∈ (hostOps2 : List (HloOp τ sig (Elt F))), (Proc.devRef .tc b : DevRef τ sig) ∉ op.writes) :
    W5 m ρ c (Proc.devRef .tc b) = W4 m ρ c (Proc.devRef .tc b) :=
  StableHlo.after_of_forall_not_mem _ _ h

theorem W7_keep (b : Ref sig .tc)
    (h : ∀ op ∈ (hostOps3 : List (HloOp τ sig (Elt F))), (Proc.devRef .tc b : DevRef τ sig) ∉ op.writes) :
    W7 m ρ c (Proc.devRef .tc b) = W6 m ρ c (Proc.devRef .tc b) :=
  StableHlo.after_of_forall_not_mem _ _ h

/-- From the boundary after region 0 back to the launch. -/
theorem W2_launch (b : Ref sig .tc)
    (h0 : ∀ op ∈ (hostOps0 : List (HloOp τ sig (Elt F))), (Proc.devRef .tc b : DevRef τ sig) ∉ op.writes)
    (h1 : ∀ w, Pipeline.arrRef spec0 w ≠ b) :
    W2 m ρ c (Proc.devRef .tc b) = m ((c : Thread nD τ).loc b) :=
  (W2_of_ne m ρ c b h1).trans (W1_keep m ρ c b h0)

/-- From the boundary after region 1 back to the one after the first stretch. -/
theorem W4_first (b : Ref sig .tc) (h1 : ∀ w, Pipeline.arrRef spec0 w ≠ b)
    (h2 : ∀ op ∈ (hostOps1 : List (HloOp τ sig (Elt F))), (Proc.devRef .tc b : DevRef τ sig) ∉ op.writes)
    (h3 : ∀ w, Pipeline.arrRef spec1 w ≠ b) :
    W4 m ρ c (Proc.devRef .tc b) = W1 m ρ c (Proc.devRef .tc b) :=
  (W4_of_ne m ρ c b h3).trans ((W3_keep m ρ c b h2).trans (W2_of_ne m ρ c b h1))

/-- From the boundary after region 1 back to the launch. -/
theorem W4_launch (b : Ref sig .tc)
    (h0 : ∀ op ∈ (hostOps0 : List (HloOp τ sig (Elt F))), (Proc.devRef .tc b : DevRef τ sig) ∉ op.writes)
    (h1 : ∀ w, Pipeline.arrRef spec0 w ≠ b)
    (h2 : ∀ op ∈ (hostOps1 : List (HloOp τ sig (Elt F))), (Proc.devRef .tc b : DevRef τ sig) ∉ op.writes)
    (h3 : ∀ w, Pipeline.arrRef spec1 w ≠ b) :
    W4 m ρ c (Proc.devRef .tc b) = m ((c : Thread nD τ).loc b) :=
  (W4_first m ρ c b h1 h2 h3).trans (W1_keep m ρ c b h0)

/-- From the boundary after region 2 back to the launch. -/
theorem W6_launch (b : Ref sig .tc)
    (h0 : ∀ op ∈ (hostOps0 : List (HloOp τ sig (Elt F))), (Proc.devRef .tc b : DevRef τ sig) ∉ op.writes)
    (h1 : ∀ w, Pipeline.arrRef spec0 w ≠ b)
    (h2 : ∀ op ∈ (hostOps1 : List (HloOp τ sig (Elt F))), (Proc.devRef .tc b : DevRef τ sig) ∉ op.writes)
    (h3 : ∀ w, Pipeline.arrRef spec1 w ≠ b)
    (h4 : ∀ op ∈ (hostOps2 : List (HloOp τ sig (Elt F))), (Proc.devRef .tc b : DevRef τ sig) ∉ op.writes)
    (h5 : ∀ w, Pipeline.arrRef spec2 w ≠ b) :
    W6 m ρ c (Proc.devRef .tc b) = m ((c : Thread nD τ).loc b) :=
  (W6_of_ne m ρ c b h5).trans ((W5_keep m ρ c b h4).trans (W4_launch m ρ c b h0 h1 h2 h3))

/-! ## The arguments, where a later stretch or region reads them -/

theorem W2_arg7 : W2 m ρ c (Proc.devRef .tc main_arg7) = m ((c : Thread nD τ).loc main_arg7) :=
  W2_launch m ρ c main_arg7 (by not_written) (by decide)

theorem W6_arg2 : W6 m ρ c (Proc.devRef .tc main_arg2) = m ((c : Thread nD τ).loc main_arg2) :=
  W6_launch m ρ c main_arg2 (by not_written) (by decide) (by not_written) (by decide) (by not_written) (by decide)

end Cert.KernelIdeal.KValue

end
-- ==== Proof.Spec.lean ====
/-
  The mathematics of the message-passing network, stated once over the extended reals, free of any program.

  Matrices are functions of two coordinates. A DENSE layer is a row-by-column sum plus a bias entry. The
  AGGREGATION over edges sends to node `p` the sum, over the edges whose target is `p`, of the source node's row scaled
  by the edge's weight; an edge whose target is no node contributes nothing. A GRU cell forms two gate pre-activations of
  `3·256` columns each — the new input against the rows of one weight matrix, the previous state against the rows of another —
  and blends: reset `r = σ(i_r + h_r)`, update `u = σ(i_z + h_z)`, candidate `n = tanh(i_n + r·h_n)`, result
  `(1 − u)·n + u·prev`. The SCORE of a labelled edge is the sum over two output columns of the projected Hadamard product of
  its two end rows plus a bias.

  One layer can be computed in two orders: aggregate the rows and then project them by a square matrix, or project
  every row first and aggregate the projections. `layerAP` and `layerPA` are the two orders.
-/
import Idealize.ShloMosaic.PureOps.Ideal
import Idealize.ShloMosaic.Lib.ValueIdx

noncomputable section

open scoped BigOperators
open Idealize.ShloMosaic

namespace Gnn

/-- The bit pattern of `+0.0` denotes zero. -/
theorem ofBits_zero : Ideal.ofBits .f32 0x00000000#32 = 0 := by
  simp [Ideal.ofBits, Ideal.ieee]

/-- The bit pattern of `1.0` denotes one. -/
theorem ofBits_one : Ideal.ofBits .f32 0x3F800000#32 = 1 := by
  simp [Ideal.ofBits, Ideal.ieee, -EReal.coe_mul]; norm_num

variable {N E M K H G : ℕ}

/-- Row `p` of `x` against column `q` of `w`, plus the bias entry `q`. -/
def dense (x : Fin M → Fin K → EReal) (w : Fin K → Fin H → EReal) (b : Fin H → EReal) (p : Fin M) (q : Fin H) : EReal :=
  (∑ k : Fin K, x p k * w k q) + b q

/-- Row `p` of `x` against column `q` of `w`: a projection with no bias. -/
def proj (x : Fin M → Fin K → EReal) (w : Fin K → Fin H → EReal) (p : Fin M) (q : Fin H) : EReal :=
  ∑ k : Fin K, x p k * w k q

/-- Clipping below at zero. -/
def relu (v : EReal) : EReal := max v 0

/-- What node `p` receives in column `q`: over the edges `e` whose target is `p`, the source row's entry scaled by the
    edge's weight. -/
def aggregate (tgt : Fin E → Option (Fin N)) (src : Fin E → Fin N) (nrm : Fin E → EReal) (h : Fin N → Fin H → EReal)
    (p : Fin N) (q : Fin H) : EReal :=
  ∑ e ∈ Finset.univ.filter (fun e => tgt e = some p), h (src e) q * nrm e

/-- The three gate blocks of a `768`-column pre-activation: columns `q`, `256 + q`, `512 + q`. -/
def gR (q : Fin 256) : Fin 768 := ⟨q.val, by omega⟩
def gZ (q : Fin 256) : Fin 768 := ⟨256 + q.val, by omega⟩
def gN (q : Fin 256) : Fin 768 := ⟨512 + q.val, by omega⟩

/-- Gate pre-activation `c` of row `p`: the row against ROW `c` of the weight matrix `[768, 256]`, plus the bias. -/
def gate (v : Fin M → Fin 256 → EReal) (w : Fin 768 → Fin 256 → EReal) (b : Fin 768 → EReal) (p : Fin M) (c : Fin 768) : EReal :=
  (∑ k : Fin 256, v p k * w c k) + b c

/-- The GRU cell at row `p`, column `q`. -/
def gruCell (x prev : Fin M → Fin 256 → EReal) (wih whh : Fin 768 → Fin 256 → EReal) (bih bhh : Fin 768 → EReal)
    (p : Fin M) (q : Fin 256) : EReal :=
  (1 - Ideal.logistic (gate x wih bih p (gZ q) + gate prev whh bhh p (gZ q)))
      * Ideal.tanh (gate x wih bih p (gN q)
          + Ideal.logistic (gate x wih bih p (gR q) + gate prev whh bhh p (gR q)) * gate prev whh bhh p (gN q))
    + Ideal.logistic (gate x wih bih p (gZ q) + gate prev whh bhh p (gZ q)) * prev p q

/-- One layer, AGGREGATE THEN PROJECT: the aggregated rows go through the dense layer, are clipped, and enter the cell. -/
def layerAP (tgt : Fin E → Option (Fin N)) (src : Fin E → Fin N) (nrm : Fin E → EReal) (h : Fin N → Fin 256 → EReal)
    (cw : Fin 256 → Fin 256 → EReal) (cb : Fin 256 → EReal) (prev : Fin N → Fin 256 → EReal)
    (wih whh : Fin 768 → Fin 256 → EReal) (bih bhh : Fin 768 → EReal) : Fin N → Fin 256 → EReal :=
  gruCell (fun p k => relu (dense (aggregate tgt src nrm h) cw cb p k)) prev wih whh bih bhh

/-- One layer, PROJECT THEN AGGREGATE: every row is projected, the projections are aggregated, the bias is added, and the
    clipped result enters the cell. -/
def layerPA (tgt : Fin E → Option (Fin N)) (src : Fin E → Fin N) (nrm : Fin E → EReal) (h : Fin N → Fin 256 → EReal)
    (cw : Fin 256 → Fin 256 → EReal) (cb : Fin 256 → EReal) (prev : Fin N → Fin 256 → EReal)
    (wih whh : Fin 768 → Fin 256 → EReal) (bih bhh : Fin 768 → EReal) : Fin N → Fin 256 → EReal :=
  gruCell (fun p k => relu (aggregate tgt src nrm (proj h cw) p k + cb k)) prev wih whh bih bhh

/-- The score of labelled edge `e` with end rows `ia e`, `ib e`. -/
def score (h : Fin N → Fin 256 → EReal) (ia ib : Fin E → Fin N) (pw : Fin 256 → Fin 2 → EReal) (pb : Fin 2 → EReal)
    (e : Fin E) : EReal :=
  ∑ c : Fin 2, ((∑ k : Fin 256, (h (ia e) k * h (ib e) k) * pw k c) + pb c)

end Gnn

end
-- ==== Proof.LibGatherRows.lean ====
/-
  A gather of ROWS read at an index.

  Indexing a flat array `x : [N]` or a matrix `X : [N, H]` by an integer array, `x[idx]` and `X[idx, :]`, is a
  `stablehlo.gather` whose start indices have shape `[E, 1]` (the index vector on axis 1, one component), that one
  component mapped to operand axis 0, operand axis 0 collapsed (slice size 1 there), no batching axes; for the matrix
  the second operand axis is kept whole (slice size `H`) and is the result's one offset axis.

  StableHLO reads every start index as a SIGNED integer and CLAMPS it so that the slice fits: on axis 0 the slice has
  size 1, so the start `idx[e, 0]` is clamped into `[0, N - 1]`. That clamped number is `row N hN idx e`. The two
  theorems say that result element `e` of the vector gather is `x[row e]`, and result element `(e, h)` of the row
  gather is `X[row e, h]`: BOTH FORMS READ THE SAME ROW, so a matrix scaled row by row and then gathered is the
  gathered rows times the gathered scale.

  The statements take an arbitrary record of dimension numbers and the values of its fields as hypotheses (each is
  `rfl` at a record written as a literal). The proofs compute StableHLO's operand index axis by axis: on axis 0 it is
  the clamped start (no batching coordinate, and no offset coordinate since the axis is collapsed); on the matrix's
  axis 1 the start is 0 (the start index map does not name it) and the offset coordinate is the result's second
  coordinate.
-/
import Idealize.ShloMosaic.Lib.ValueIdx

noncomputable section

namespace GatherRows

open Idealize.ShloMosaic Idealize.ShloMosaic.ValueIdx

variable {α : Type}

/-- The row that result position `e` reads: the start index `idx[e, 0]` read as a signed integer and clamped into
    `[0, N - 1]`. -/
def row (N : Nat) (hN : 0 < N) {E w : Nat} (idx : IVec ⟨2, ![E, 1]⟩ w) (e : Fin E) : Fin N :=
  ⟨min (idx (ix2 e (0 : Fin 1))).toInt.toNat (N - 1), by omega⟩

/-- The row as a natural number. -/
theorem row_val (N : Nat) (hN : 0 < N) {E w : Nat} (idx : IVec ⟨2, ![E, 1]⟩ w) (e : Fin E) :
    (row N hN idx e).val = min (idx (ix2 e (0 : Fin 1))).toInt.toNat (N - 1) := rfl

/-- VECTOR form, as an operand index: result position `e` reads the operand at `row e`. -/
theorem operandIdx_vec {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (idx : IVec ⟨2, ![E, 1]⟩ w) (y : (⟨1, ![E]⟩ : Shape).Idx) :
    d.operandIdx y idx = ix1 (row N hN idx (y 0)) := by
  -- with the fields' values substituted the record is a literal, and its lists compute
  obtain ⟨od, cd, ob, sb, sm, iv, ss, wf⟩ := d
  simp only at hoff hcol hob hmap hiv hsl
  subst hoff hcol hob hmap hiv hsl
  funext a
  obtain rfl : a = 0 := Subsingleton.elim _ _
  refine Fin.ext ?_
  show GatherDims.start _ y idx 0 + GatherDims.batchCoord _ y 0 + GatherDims.offCoord _ y 0 = _
  -- no batching axis, and axis 0 is collapsed: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos hmem]
  -- the start index is read at `[e, 0]`
  have hsi : GatherDims.siIdx (s := ⟨1, ![N]⟩) (si := ⟨2, ![E, 1]⟩) (t := ⟨1, ![E]⟩)
      ⟨[], [0], [], sb, [0], 1, ![1], wf⟩ y
      ⟨List.idxOf (0 : Fin 1) [0], List.idxOf_lt_length_iff.2 hmem⟩ = ix2 (y 0) (0 : Fin 1) := by
    funext b; refine Fin.ext ?_
    match b with
    | ⟨0, _⟩ => rfl
    | ⟨1, _⟩ => rfl
  rw [hsi]
  rfl

/-- ROW form, as an operand index: result position `(e, h)` reads the operand at `(row e, h)`. -/
theorem operandIdx_rows {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (idx : IVec ⟨2, ![E, 1]⟩ w) (y : (⟨2, ![E, H]⟩ : Shape).Idx) :
    d.operandIdx y idx = ix2 (row N hN idx (y 0)) (y 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: collapsed, in the start index map — the clamped start, as in the vector form
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos hmem]
    have hsi : GatherDims.siIdx (s := ⟨2, ![N, H]⟩) (si := ⟨2, ![E, 1]⟩) (t := ⟨2, ![E, H]⟩)
        ⟨[1], [0], [], sb, [0], 1, ![1, H], wf⟩ y
        ⟨List.idxOf (0 : Fin 2) [0], List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, _⟩ =>
    -- axis 1: not in the start index map (start 0), kept whole — the result's offset coordinate
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(show (1 : Fin 2) ∉ ([0] : List (Fin 2)) by decide), List.not_mem_nil⟩)]
    simp only [Nat.zero_add]
    rfl

/-- THE VECTOR GATHER READ AT `e`: the operand at the start index `idx[e, 0]`, read signed and clamped into
    `[0, N - 1]`. -/
theorem gather_vec_apply {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (x : (⟨1, ![N]⟩ : Shape).Idx → α) (idx : IVec ⟨2, ![E, 1]⟩ w) (y : (⟨1, ![E]⟩ : Shape).Idx) :
    Host.gather d x idx y = x (ix1 (row N hN idx (y 0))) := by
  exact congrArg x (operandIdx_vec hN d hoff hcol hob hmap hiv hsl idx y)

/-- THE ROW GATHER READ AT `(e, h)`: the operand's row at the start index `idx[e, 0]`, read signed and clamped
    into `[0, N - 1]`, at column `h` — the same row as the vector gather reads. -/
theorem gather_rows_apply {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → α) (idx : IVec ⟨2, ![E, 1]⟩ w) (y : (⟨2, ![E, H]⟩ : Shape).Idx) :
    Host.gather d X idx y = X (ix2 (row N hN idx (y 0)) (y 1)) := by
  exact congrArg X (operandIdx_rows hN d hoff hcol hob hmap hiv hsl idx y)

end GatherRows

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDense.lean ====
/-
  The body of a dense layer read at an entry, over the extended reals: a plain product into the zero matrix plus a bias
  row `[1, N]` repeated down the rows is, at the entry `(p, q)`, `∑ k, x (p, k) * w (k, q) + b (0, q)`.
-/
import Idealize.ShloMosaic.PureOps.Ideal.Laws
import Idealize.ShloMosaic.Lib.ValueIdx
import Idealize.ShloMosaic.Lib.Pipeline.Value
import proofs.«169681_j33285996544265_2_alg».proof.Proof.LibMatmul

noncomputable section

open scoped BigOperators
open Idealize.ShloMosaic Idealize.ShloMosaic.ValueIdx

namespace DenseBody

variable {M K N : ℕ}

/-- A row `[1, N]` repeated down `M` rows has, at `(p, q)`, the row's entry `q`. -/
theorem row_apply {α : Type} (b : (⟨2, ![1, N]⟩ : Shape).Idx → α)
    (h : (⟨2, ![1, N]⟩ : Shape).Broadcasts (⟨2, ![M, N]⟩ : Shape)) (p : Fin M) (q : Fin N) :
    broadcastTo (⟨2, ![M, N]⟩ : Shape) b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- The product into the zero matrix plus the repeated bias row, at the entry `(p, q)`. -/
theorem apply {φ₁ φ₂ : FTy} {d : DotDims (⟨2, ![M, K]⟩ : Shape) (⟨2, ![K, N]⟩ : Shape) (⟨2, ![M, N]⟩ : Shape)}
    (hd : PlainMatmul.IsPlain d) (prec : Option ContractPrecision)
    (x : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![M, N]⟩ : Shape))
    (p : Fin M) (q : Fin N) :
    addf (matmul d prec x w (constant (⟨2, ![M, N]⟩ : Shape) .f32 0x00000000#32)) (broadcastTo (⟨2, ![M, N]⟩ : Shape) b hb) (ix2 p q)
      = (∑ k : Fin K, (x (ix2 p k) : EReal) * (w (ix2 k q) : EReal)) + (b (ix2 0 q) : EReal) := by
  show FloatOps.matmul d prec x w (constant (⟨2, ![M, N]⟩ : Shape) .f32 0x00000000#32) (ix2 p q)
      + broadcastTo (⟨2, ![M, N]⟩ : Shape) b hb (ix2 p q) = _
  rw [PlainMatmul.apply hd, row_apply]

end DenseBody

end
-- ==== Proof.KRegion3.lean ====
/-
  The edge-score region of the kernel, read in closed form.

  The region's body takes a block of 2000 labelled edges — the two end rows of each, gathered beforehand —, multiplies the two
  rows entry by entry, projects the product onto two output columns by a plain matrix product, adds the bias row, and sums the
  two columns. So the body's result for edge `p` of a block is `∑ c, (∑ k, (a (p, k) · b (p, k)) · w (k, c)) + bias c`
  (`score_payload`). The grid has 100 points; point `t` reads rows `2000 t … 2000 t + 1999` of both end-row arrays and writes
  the same rows of the one-column result, and reads the whole projection matrix and bias row. What point `t` writes back is
  therefore block `t` of ONE function of the region's input arrays, and since the 100 blocks tile the result array, the array
  ends holding that function (`final3`).
-/
import proofs.«169681_j33285996544265_2_alg».proof.Proof.Gen.KernelIdeal.Frame
import proofs.«169681_j33285996544265_2_alg».proof.Proof.Spec
import proofs.«169681_j33285996544265_2_alg».proof.Proof.LibDense
import Idealize.ShloMosaic.Lib.Pipeline.Value

noncomputable section

open scoped BigOperators

/-! ## The score of a row of two row arrays -/

namespace Gnn

/-- The score of row `e` of two row arrays `a`, `b`: the two rows multiplied entry by entry, projected onto the two output
    columns, the bias added, the two columns summed. -/
def pairScore {E : ℕ} (a b : Fin E → Fin 256 → EReal) (pw : Fin 256 → Fin 2 → EReal) (pb : Fin 2 → EReal) (e : Fin E) : EReal :=
  ∑ c : Fin 2, ((∑ k : Fin 256, (a e k * b e k) * pw k c) + pb c)

/-- The score of a labelled edge is the score of its row in the two arrays of gathered end rows. -/
theorem score_eq_pairScore {N E : ℕ} (h : Fin N → Fin 256 → EReal) (ia ib : Fin E → Fin N) (pw : Fin 256 → Fin 2 → EReal)
    (pb : Fin 2 → EReal) (e : Fin E) :
    score h ia ib pw pb e = pairScore (fun e k => h (ia e) k) (fun e k => h (ib e) k) pw pb e := rfl

end Gnn

namespace Cert.KernelIdeal.KRegion3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's result at an entry of a block -/

/-- A column of 2000 entries laid out as a one-column matrix reads, at row `p`, the column's entry `p`. -/
theorem column_apply {α : Type} (v : S2000.Idx → α) (p : Fin 2000) (z : Fin 1) :
    shapeCast S2000x1 v shapeCasts_S2000_S2000x1 (ix2 p z) = v (ix1 p) := by
  refine shapeCast_apply v shapeCasts_S2000_S2000x1 (ix2 p z) (ix1 p) ?_
  rw [Shape.rowMajor_val_one, Shape.rowMajor_val_two]
  show p.val = p.val * 1 + z.val
  omega

/-- The sum along the two columns, started from zero, of a two-column matrix: at row `p`, the sum of the row's two entries. -/
theorem lane_sum_apply (v : FVec Ideal S2000x2 .f32) (hφ : FKind.Formats .f32) (hacc : (0x00000000#32 : BitVec 32) = 0x00000000#32)
    (p : Fin 2000) :
    multiReduction (F := Ideal) .add [1] S2000 v 0x00000000#32 reduces_S2000x2_S2000 hφ hacc (ix1 p) = ∑ cc : Fin 2, v (ix2 p cc) := by
  refine (Ideal.multiReduction_add_single v 0x00000000#32 reduces_S2000x2_S2000 hφ hacc (ix1 p)).trans ?_
  refine Finset.sum_congr rfl fun cc _ => congrArg v (funext fun a => Fin.ext ?_)
  match a with
  | ⟨0, _⟩ => rfl
  | ⟨1, _⟩ => rfl

/-- The body's stored value for edge `p` of the block: the two end rows multiplied entry by entry, projected onto the two
    columns, the bias added, the two columns summed. -/
theorem score_payload (x0 x1 : Vec Ideal S2000x256 .bf16) (x2 : Vec Ideal S256x2 .bf16) (x3 : Vec Ideal S1x2 .f32)
    (p : Fin 2000) (z : Fin 1) :
    k3_pay1 (F := Ideal) x0 x1 x2 x3 (ix2 p z)
      = ∑ cc : Fin 2, ((∑ k : Fin 256, ((x0 (ix2 p k) : EReal) * (x1 (ix2 p k) : EReal)) * (x2 (ix2 k cc) : EReal)) + (x3 (ix2 0 cc) : EReal)) := by
  unfold k3_pay1
  simp only [shapeCast_self]
  refine (column_apply _ p z).trans ?_
  refine (lane_sum_apply _ (.inl rfl) rfl p).trans ?_
  refine Finset.sum_congr rfl fun cc _ => ?_
  refine (DenseBody.apply (φ₁ := .bf16) (φ₂ := .bf16) ⟨rfl, rfl, rfl, rfl, rfl, rfl⟩ none
    (truncf .bf16 (mulf (extf .f32 x0 bitsLt_bf16_f32) (extf .f32 x1 bitsLt_bf16_f32)) bitsLt_bf16_f32) x2 x3 broadcasts_S1x2_S2000x2 p cc).trans ?_
  rfl

/-! ## A block of the scores is the scores of the block's edges -/

/-- If block rows `x0`, `x1` are rows `T·2000 + p` of the two end-row arrays `A`, `E`, and the block's projection matrix and
    bias are `W` and `B`, then the score of edge `p` of the block is the score of the edge `i` whose row is `T·2000 + p`. -/
theorem score_block (A E : S200000x256.Idx → EReal) (W : S256x2.Idx → EReal) (B : S1x2.Idx → EReal)
    (x0 x1 : S2000x256.Idx → EReal) (x2 : S256x2.Idx → EReal) (x3 : S1x2.Idx → EReal)
    (T : ℕ) (p : Fin 2000) (i : S200000x1.Idx)
    (h0 : (i 0).val = T * 2000 + p.val)
    (hx0 : ∀ (k : Fin 256) (P : Fin 200000), P.val = T * 2000 + p.val → x0 (ix2 p k) = A (ix2 P k))
    (hx1 : ∀ (k : Fin 256) (P : Fin 200000), P.val = T * 2000 + p.val → x1 (ix2 p k) = E (ix2 P k))
    (hx2 : ∀ (k : Fin 256) (cc : Fin 2), x2 (ix2 k cc) = W (ix2 k cc))
    (hx3 : ∀ cc : Fin 2, x3 (ix2 0 cc) = B (ix2 0 cc)) :
    (∑ cc : Fin 2, ((∑ k : Fin 256, (x0 (ix2 p k) * x1 (ix2 p k)) * x2 (ix2 k cc)) + x3 (ix2 0 cc)))
      = ∑ cc : Fin 2, ((∑ k : Fin 256, (A (ix2 (i 0) k) * E (ix2 (i 0) k)) * W (ix2 k cc)) + B (ix2 0 cc)) := by
  obtain ⟨P, Z, rfl⟩ : ∃ (P : Fin 200000) (Z : Fin 1), i = ix2 P Z := ⟨i 0, i 1, eq_ix2 i⟩
  have h0' : P.val = T * 2000 + p.val := h0
  show _ = ∑ cc : Fin 2, ((∑ k : Fin 256, (A (ix2 P k) * E (ix2 P k)) * W (ix2 k cc)) + B (ix2 0 cc))
  simp only [hx0 _ P h0', hx1 _ P h0', hx2, hx3]

/-! ## The grid: which rows each point reads and writes -/

theorem zero_offsets : (![0, 0] : Fin 2 → Nat) = fun _ => 0 := funext fun a => by fin_cases a <;> rfl

/-- The index maps over the 100 points: the two end-row arrays' and the result's block index is the point, on rows, and zero
    on columns; the projection matrix's and the bias's block index is zero. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section Region
variable (V : (c : Dev nD) → (b : Ref sig .tc) → Buf (Elt Ideal) ((c : Thread nD τ).loc b))

/-- The region's result array as ONE function of its input arrays: the score of each labelled edge from its two end rows. -/
abbrev scoreOf (c : Dev nD) : S200000x1.Idx → EReal := fun i =>
  Gnn.pairScore (fun (e : Fin 200000) (k : Fin 256) => (V c main_call0_v108 (ix2 e k) : EReal))
    (fun (e : Fin 200000) (k : Fin 256) => (V c main_call0_v117 (ix2 e k) : EReal))
    (fun (k : Fin 256) (cc : Fin 2) => (V c main_call0_v118 (ix2 k cc) : EReal))
    (fun cc : Fin 2 => (V c main_call0_v119 (ix2 0 cc) : EReal)) (i 0)

/-- Row `p` of the first end rows' block at point `t` is row `2000 t + p` of the first end-row array. -/
theorem first_rows_block (c : Dev nD) (t : Fin cfg3.N) (p : Fin 2000) (k : Fin 256) (P : Fin 200000)
    (hP : P.val = t.val * 2000 + p.val) :
    (iblk3 V c 0 t : S2000x256.Idx → EReal) (ix2 p k) = V c main_call0_v108 (ix2 P k) := by
  obtain ⟨e0, e1, -⟩ := block_indices t
  unfold iblk3
  rw [View.read_apply]
  show V c main_call0_v108 _ = V c main_call0_v108 _
  refine congrArg (V c main_call0_v108) (funext fun a => Fin.ext ?_)
  match a with
  | ⟨0, _⟩ => show win3_0.index t (0 : Fin 2) * 2000 + 1 * p.val = P.val; omega
  | ⟨1, _⟩ => show win3_0.index t (1 : Fin 2) * 256 + 1 * k.val = k.val; omega

/-- Row `p` of the second end rows' block at point `t` is row `2000 t + p` of the second end-row array. -/
theorem second_rows_block (c : Dev nD) (t : Fin cfg3.N) (p : Fin 2000) (k : Fin 256) (P : Fin 200000)
    (hP : P.val = t.val * 2000 + p.val) :
    (iblk3 V c 1 t : S2000x256.Idx → EReal) (ix2 p k) = V c main_call0_v117 (ix2 P k) := by
  obtain ⟨-, -, e0, e1, -⟩ := block_indices t
  unfold iblk3
  rw [View.read_apply]
  show V c main_call0_v117 _ = V c main_call0_v117 _
  refine congrArg (V c main_call0_v117) (funext fun a => Fin.ext ?_)
  match a with
  | ⟨0, _⟩ => show win3_1.index t (0 : Fin 2) * 2000 + 1 * p.val = P.val; omega
  | ⟨1, _⟩ => show win3_1.index t (1 : Fin 2) * 256 + 1 * k.val = k.val; omega

/-- The projection matrix's block at every point is the projection matrix. -/
theorem projection_block (c : Dev nD) (t : Fin cfg3.N) (k : Fin 256) (cc : Fin 2) :
    (iblk3 V c 2 t : S256x2.Idx → EReal) (ix2 k cc) = V c main_call0_v118 (ix2 k cc) := by
  obtain ⟨-, -, -, -, e0, e1, -⟩ := block_indices t
  unfold iblk3
  rw [View.read_apply]
  show V c main_call0_v118 _ = V c main_call0_v118 _
  refine congrArg (V c main_call0_v118) (funext fun a => Fin.ext ?_)
  match a with
  | ⟨0, _⟩ => show win3_2.index t (0 : Fin 2) * 256 + 1 * k.val = k.val; omega
  | ⟨1, _⟩ => show win3_2.index t (1 : Fin 2) * 2 + 1 * cc.val = cc.val; omega

/-- The bias's block at every point is the bias row. -/
theorem bias_block (c : Dev nD) (t : Fin cfg3.N) (cc : Fin 2) :
    (iblk3 V c 3 t : S1x2.Idx → EReal) (ix2 0 cc) = V c main_call0_v119 (ix2 0 cc) := by
  obtain ⟨-, -, -, -, -, -, e0, e1, -⟩ := block_indices t
  unfold iblk3
  rw [View.read_apply]
  show V c main_call0_v119 _ = V c main_call0_v119 _
  refine congrArg (V c main_call0_v119) (funext fun a => Fin.ext ?_)
  match a with
  | ⟨0, _⟩ => show win3_3.index t (0 : Fin 2) * 1 + 1 * 0 = 0; omega
  | ⟨1, _⟩ => show win3_3.index t (1 : Fin 2) * 2 + 1 * cc.val = cc.val; omega

/-- What point `t` writes back is block `t` of the scores of the region's input arrays. -/
theorem flushed_eq (c : Dev nD) (t : Fin cfg3.N) :
    (dat3 (F := Ideal) V c).flushed 4 t = ((cfg3.win 4).blk t).view.read (Elt Ideal) (scoreOf V c) := by
  show (cfg3.win 4).cut (grid3.coords t) ((dat3 V c).after 4 t) = _
  rw [after3_4]
  unfold out3_4
  rw [View.canon_unit_zero zero_offsets]
  simp only [View.ld_unit_zero (S := S2000x256) zero_offsets, View.ld_unit_zero (S := S256x2) zero_offsets,
    View.ld_unit_zero (S := S1x2) zero_offsets]
  obtain ⟨-, -, -, -, -, -, -, -, e0, e1⟩ := block_indices t
  funext j
  obtain ⟨p, z, rfl⟩ : ∃ (p : Fin 2000) (z : Fin 1), j = ix2 p z := ⟨j 0, j 1, eq_ix2 j⟩
  show k3_pay1 (F := Ideal) (iblk3 V c 0 t) (iblk3 V c 1 t) (iblk3 V c 2 t) (iblk3 V c 3 t) (ix2 p z)
    = scoreOf V c (((cfg3.win 4).blk t).view.emb (ix2 p z))
  refine (score_payload (iblk3 V c 0 t) (iblk3 V c 1 t) (iblk3 V c 2 t) (iblk3 V c 3 t) p z).trans ?_
  refine score_block (V c main_call0_v108) (V c main_call0_v117) (V c main_call0_v118) (V c main_call0_v119)
    (iblk3 V c 0 t) (iblk3 V c 1 t) (iblk3 V c 2 t) (iblk3 V c 3 t)
    t.val p (((cfg3.win 4).blk t).view.emb (ix2 p z)) ?_ (fun k P hP => first_rows_block V c t p k P hP)
    (fun k P hP => second_rows_block V c t p k P hP) (fun k cc => projection_block V c t k cc) (fun cc => bias_block V c t cc)
  show win3_4.index t (0 : Fin 2) * 2000 + 1 * p.val = t.val * 2000 + p.val
  omega

/-- An entry of the result array is in point `t`'s block iff each coordinate is in the block's range on its axis. -/
theorem mem_block (t : Fin cfg3.N) (i : S200000x1.Idx) :
    i ∈ ((cfg3.win 4).blk t).view.set ↔ ∀ a : Fin 2, win3_4.index t a * S2000x1.size a ≤ (i a).val ∧ (i a).val < win3_4.index t a * S2000x1.size a + S2000x1.size a := by
  show i ∈ ((View.whole main_call0_v120).slice (win3_4.rect t)).set ↔ _
  rw [View.set_slice_whole, Rect.mem_set_unit]
  exact Iff.rfl

/-- Every entry of the result array is in the block of the point its row divided by 2000 names. -/
theorem covered (i : S200000x1.Idx) : ∃ t : Fin cfg3.N, (cfg3.win 4).flush t = true ∧ i ∈ ((cfg3.win 4).blk t).view.set := by
  have hi0 : (i 0).val < 200000 := (i 0).isLt
  have hi1 : (i 1).val < 1 := (i 1).isLt
  have hN : cfg3.N = 100 := N_3
  let t : Fin cfg3.N := ⟨(i 0).val / 2000, by rw [hN]; omega⟩
  have ht : t.val = (i 0).val / 2000 := rfl
  obtain ⟨-, -, -, -, -, -, -, -, e0, e1⟩ := block_indices t
  refine ⟨t, flush3_4 t, ?_⟩
  rw [mem_block]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 1 ≤ (i 1).val ∧ (i 1).val < win3_4.index t (1 : Fin 2) * 1 + 1; omega

/-- THE REGION'S RESULT ARRAY after its 100 points: the score of each labelled edge from the region's input arrays. -/
theorem final3 (c : Dev nD) :
    (dat3 (F := Ideal) V c).arrAt 4 cfg3.N = fun i =>
      Gnn.pairScore (fun (e : Fin 200000) (k : Fin 256) => (V c main_call0_v108 (ix2 e k) : EReal))
        (fun (e : Fin 200000) (k : Fin 256) => (V c main_call0_v117 (ix2 e k) : EReal))
        (fun (k : Fin 256) (cc : Fin 2) => (V c main_call0_v118 (ix2 k cc) : EReal))
        (fun cc : Fin 2 => (V c main_call0_v119 (ix2 0 cc) : EReal)) (i 0) :=
  (dat3 (F := Ideal) V c).arrAt_eq_of_cover 4 (scoreOf V c) (fun t _ => flushed_eq V c t) covered

end Region

end Cert.KernelIdeal.KRegion3

end
-- ==== Proof.KSplit.lean ====
/-
  A stretch of host operations run in parts.

  The buffer contents after a list of host operations are a fold of the operations over the contents before it, so
  running a list is running a first part and then the rest from where the first part ends, and likewise in three
  parts. A value computed in the middle of a long stretch can then be read with the contents before its operation kept
  as ONE unknown valuation, instead of through every operation before it.
-/
import Idealize.ShloMosaic.Lib.StableHlo.Run

noncomputable section

namespace HostStretch

open Idealize.ShloMosaic Idealize.ShloMosaic.StableHlo Idealize.SL.Sem

variable {τ : Topo} {sig : RefSig} {Val : EltTy → Type}

/-- Running a list of host operations is running its first part and then the rest. -/
theorem after_append (l1 l2 : List (HloOp τ sig Val)) (V : Valuation τ sig Val) :
    StableHlo.after (l1 ++ l2) V = StableHlo.after l2 (StableHlo.after l1 V) := by
  induction l1 generalizing V with
  | nil => rfl
  | cons op l1 ih => exact ih (op.result V)

/-- A stretch as its first `a` operations and then the rest. -/
theorem after_split2 (l : List (HloOp τ sig Val)) (a : ℕ) (V : Valuation τ sig Val) :
    StableHlo.after l V = StableHlo.after (l.drop a) (StableHlo.after (l.take a) V) := by
  rw [← after_append, List.take_append_drop]

/-- A stretch as its first `a` operations, the next `b`, and then the rest. -/
theorem after_split3 (l : List (HloOp τ sig Val)) (a b : ℕ) (V : Valuation τ sig Val) :
    StableHlo.after l V
      = StableHlo.after ((l.drop a).drop b) (StableHlo.after ((l.drop a).take b) (StableHlo.after (l.take a) V)) := by
  rw [← after_append, ← after_append, List.take_append_drop, List.take_append_drop]

end HostStretch

end
-- ==== Proof.KScore.lean ====
/-
  The score end of the idealized kernel's run: from the result buffer back to the rows that region 2 leaves.

  The result buffer is the last region's output column `[200000, 1]` read as a flat array, so its entry `e` is the
  column's entry `(e, 0)`. The last region's output is, by its closed form, the sum over the two output columns of the
  projected Hadamard product of two gathered rows plus a bias. Each of the two row arrays is a gather of the (format
  converted, which changes no value here) rows that region 2 leaves, so its row `e` is the row of region 2's output that
  the gather's index array names at `e`, read signed and clamped. Put together, entry `e` of the result is the score
  `Gnn.score` of labelled edge `e` over region 2's rows, with the two clamped index arrays as the edge's ends.
-/
import proofs.«169681_j33285996544265_2_alg».proof.Proof.KWalk
import proofs.«169681_j33285996544265_2_alg».proof.Proof.Spec
import proofs.«169681_j33285996544265_2_alg».proof.Proof.LibGatherRows
import proofs.«169681_j33285996544265_2_alg».proof.Proof.LibLayout
import proofs.«169681_j33285996544265_2_alg».proof.Proof.KRegion3
import proofs.«169681_j33285996544265_2_alg».proof.Proof.KSplit
import Idealize.ShloMosaic.Lib.Pipeline.Value

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The stretch before the last region, run in two parts -/

/-- The stretch before the last region, run as its first `n` operations and then the rest. -/
theorem W7_split (n : ℕ) :
    W7 m ρ c = StableHlo.after ((hostOps3 : List (HloOp τ sig (Elt Ideal))).drop n)
      (StableHlo.after ((hostOps3 : List (HloOp τ sig (Elt Ideal))).take n) (W6 m ρ c)) :=
  HostStretch.after_split2 hostOps3 n (W6 m ρ c)

/-- From the first gather on, whatever the buffers hold before it: the first gathered array is the gather of the
    converted rows by the first index array, … -/
theorem gather1_of (P : Valuation τ sig (Elt Ideal)) :
    StableHlo.after ((hostOps3 : List (HloOp τ sig (Elt Ideal))).drop 11) P (Proc.devRef .tc main_call0_v108)
      = Host.gather gather_S50000x256_S200000x1_S200000x256_1_0_n_n_0_1_1256
          (P (Proc.devRef .tc main_call0_v99) : FVec Ideal S50000x256 .bf16) (P (Proc.devRef .tc main_call0_v107)) := by
  simp only [hostOps3, List.drop_succ_cons, List.drop_zero]
  after_results_simp
  first | done | rfl

/-- … and the first index array is not written again. -/
theorem idx1_of (P : Valuation τ sig (Elt Ideal)) :
    StableHlo.after ((hostOps3 : List (HloOp τ sig (Elt Ideal))).drop 11) P (Proc.devRef .tc main_call0_v107)
      = P (Proc.devRef .tc main_call0_v107) := by
  simp only [hostOps3, List.drop_succ_cons, List.drop_zero]
  after_results_simp
  first | done | rfl

/-- Up to the first gather the converted rows are region 2's output rows, format converted. -/
theorem rows1_of :
    StableHlo.after ((hostOps3 : List (HloOp τ sig (Elt Ideal))).take 11) (W6 m ρ c) (Proc.devRef .tc main_call0_v99)
      = (truncf .bf16 (W6 m ρ c (Proc.devRef .tc main_call0_v98) : FVec Ideal S50000x256 .f32) bitsLt_bf16_f32
          : FVec Ideal S50000x256 .bf16) := by
  simp only [hostOps3, List.take_succ_cons, List.take_zero]
  after_results_simp
  first | done | rfl

/-- From the second gather on: the second gathered array is the gather of the converted rows by the second index
    array, … -/
theorem gather2_of (P : Valuation τ sig (Elt Ideal)) :
    StableHlo.after ((hostOps3 : List (HloOp τ sig (Elt Ideal))).drop 22) P (Proc.devRef .tc main_call0_v117)
      = Host.gather gather_S50000x256_S200000x1_S200000x256_1_0_n_n_0_1_1256
          (P (Proc.devRef .tc main_call0_v99) : FVec Ideal S50000x256 .bf16) (P (Proc.devRef .tc main_call0_v116)) := by
  simp only [hostOps3, List.drop_succ_cons, List.drop_zero]
  after_results_simp
  first | done | rfl

/-- … and the second index array is not written again. -/
theorem idx2_of (P : Valuation τ sig (Elt Ideal)) :
    StableHlo.after ((hostOps3 : List (HloOp τ sig (Elt Ideal))).drop 22) P (Proc.devRef .tc main_call0_v116)
      = P (Proc.devRef .tc main_call0_v116) := by
  simp only [hostOps3, List.drop_succ_cons, List.drop_zero]
  after_results_simp
  first | done | rfl

/-- Up to the second gather the converted rows are still region 2's output rows, format converted. -/
theorem rows2_of :
    StableHlo.after ((hostOps3 : List (HloOp τ sig (Elt Ideal))).take 22) (W6 m ρ c) (Proc.devRef .tc main_call0_v99)
      = (truncf .bf16 (W6 m ρ c (Proc.devRef .tc main_call0_v98) : FVec Ideal S50000x256 .f32) bitsLt_bf16_f32
          : FVec Ideal S50000x256 .bf16) := by
  simp only [hostOps3, List.take_succ_cons, List.take_zero]
  after_results_simp
  first | done | rfl

/-! ## The result buffer, read back -/

/-- The result buffer is the last region's output column read as a flat array. -/
theorem result_ops :
    (W9 m ρ c (Proc.devRef .tc main_v0) : S200000.Idx → EReal)
      = shapeCast S200000 (W8 m ρ c (Proc.devRef .tc main_call0_v120) : S200000x1.Idx → EReal)
          shapeCasts_S200000x1_S200000 := by
  show StableHlo.after hostOps4 (W8 m ρ c) (Proc.devRef .tc main_v0) = _
  after_results
  rfl

/-- Entry `e` of the result is entry `(e, 0)` of the column: both sit at row-major position `e`. -/
theorem result_apply (e : Fin 200000) :
    (W9 m ρ c (Proc.devRef .tc main_v0) : S200000.Idx → EReal) (ix1 e)
      = (W8 m ρ c (Proc.devRef .tc main_call0_v120) : S200000x1.Idx → EReal) (ix2 e (0 : Fin 1)) := by
  rw [result_ops]
  refine shapeCast_apply _ _ (ix1 e) (ix2 e (0 : Fin 1)) ?_
  rw [Shape.rowMajor_val_one, Shape.rowMajor_val_two]
  show e.val * 1 + 0 = e.val
  omega

/-- The column is the last region's output array. -/
theorem v120_arr :
    W8 m ρ c (Proc.devRef .tc main_call0_v120) = (dat3 (V7 m ρ) c).arrAt 4 cfg3.N :=
  W8_arr m ρ c 4

/-- The first gathered row array, from the stretch before the last region: the gather of region 2's output rows
    (format converted) by the first index array. -/
theorem v108_ops :
    (V7 m ρ c main_call0_v108 : S200000x256.Idx → EReal)
      = Host.gather gather_S50000x256_S200000x1_S200000x256_1_0_n_n_0_1_1256
          (truncf .bf16 (W6 m ρ c (Proc.devRef .tc main_call0_v98) : FVec Ideal S50000x256 .f32) bitsLt_bf16_f32
            : FVec Ideal S50000x256 .bf16)
          (V7 m ρ c main_call0_v107) := by
  show W7 m ρ c (Proc.devRef .tc main_call0_v108)
    = Host.gather gather_S50000x256_S200000x1_S200000x256_1_0_n_n_0_1_1256 _ (W7 m ρ c (Proc.devRef .tc main_call0_v107))
  rw [W7_split m ρ c 11, gather1_of, idx1_of, rows1_of]

/-- The second gathered row array, by the second index array. -/
theorem v117_ops :
    (V7 m ρ c main_call0_v117 : S200000x256.Idx → EReal)
      = Host.gather gather_S50000x256_S200000x1_S200000x256_1_0_n_n_0_1_1256
          (truncf .bf16 (W6 m ρ c (Proc.devRef .tc main_call0_v98) : FVec Ideal S50000x256 .f32) bitsLt_bf16_f32
            : FVec Ideal S50000x256 .bf16)
          (V7 m ρ c main_call0_v116) := by
  show W7 m ρ c (Proc.devRef .tc main_call0_v117)
    = Host.gather gather_S50000x256_S200000x1_S200000x256_1_0_n_n_0_1_1256 _ (W7 m ρ c (Proc.devRef .tc main_call0_v116))
  rw [W7_split m ρ c 22, gather2_of, idx2_of, rows2_of]

/-- Row `e` of the first gathered array is the row of region 2's output that its index array names at `e`. -/
theorem v108_apply (e : Fin 200000) (k : Fin 256) :
    (V7 m ρ c main_call0_v108 : S200000x256.Idx → EReal) (ix2 e k)
      = (W6 m ρ c (Proc.devRef .tc main_call0_v98) : S50000x256.Idx → EReal)
          (ix2 (GatherRows.row 50000 (by decide) (V7 m ρ c main_call0_v107) e) k) := by
  rw [v108_ops]
  exact GatherRows.gather_rows_apply (by decide) _ rfl rfl rfl rfl rfl rfl _ _ (ix2 e k)

/-- Row `e` of the second gathered array, likewise. -/
theorem v117_apply (e : Fin 200000) (k : Fin 256) :
    (V7 m ρ c main_call0_v117 : S200000x256.Idx → EReal) (ix2 e k)
      = (W6 m ρ c (Proc.devRef .tc main_call0_v98) : S50000x256.Idx → EReal)
          (ix2 (GatherRows.row 50000 (by decide) (V7 m ρ c main_call0_v116) e) k) := by
  rw [v117_ops]
  exact GatherRows.gather_rows_apply (by decide) _ rfl rfl rfl rfl rfl rfl _ _ (ix2 e k)

/-- THE SCORE END: entry `e` of the result buffer is the score of labelled edge `e` over the rows region 2 leaves, the
    edge's ends being the two index arrays read signed and clamped. The contents of the last region's weight and bias
    inputs are hypotheses. -/
theorem score_end
    (hw : ∀ k cc, V7 m ρ c main_call0_v118 (ix2 k cc) = m ((c : Thread nD τ).loc main_arg13) (ix2 k cc))
    (hb : ∀ cc, V7 m ρ c main_call0_v119 (ix2 (0 : Fin 1) cc) = m ((c : Thread nD τ).loc main_arg14) (ix1 cc))
    (e : Fin 200000) :
    W9 m ρ c (Proc.devRef .tc main_v0) (ix1 e)
      = Gnn.score (fun p k => W6 m ρ c (Proc.devRef .tc main_call0_v98) (ix2 p k))
          (GatherRows.row 50000 (by decide) (V7 m ρ c main_call0_v107))
          (GatherRows.row 50000 (by decide) (V7 m ρ c main_call0_v116))
          (fun k cc => m ((c : Thread nD τ).loc main_arg13) (ix2 k cc))
          (fun cc => m ((c : Thread nD τ).loc main_arg14) (ix1 cc)) e := by
  -- the four input arrays of the last region, as functions of coordinates
  have hA : (fun (e : Fin 200000) (k : Fin 256) => (V7 m ρ c main_call0_v108 (ix2 e k) : EReal))
      = fun e k => (W6 m ρ c (Proc.devRef .tc main_call0_v98) : S50000x256.Idx → EReal)
          (ix2 (GatherRows.row 50000 (by decide) (V7 m ρ c main_call0_v107) e) k) :=
    funext fun e => funext fun k => v108_apply m ρ c e k
  have hB : (fun (e : Fin 200000) (k : Fin 256) => (V7 m ρ c main_call0_v117 (ix2 e k) : EReal))
      = fun e k => (W6 m ρ c (Proc.devRef .tc main_call0_v98) : S50000x256.Idx → EReal)
          (ix2 (GatherRows.row 50000 (by decide) (V7 m ρ c main_call0_v116) e) k) :=
    funext fun e => funext fun k => v117_apply m ρ c e k
  have hW : (fun (k : Fin 256) (cc : Fin 2) => (V7 m ρ c main_call0_v118 (ix2 k cc) : EReal))
      = fun k cc => (m ((c : Thread nD τ).loc main_arg13) (ix2 k cc) : EReal) :=
    funext fun k => funext fun cc => hw k cc
  have hBias : (fun cc : Fin 2 => (V7 m ρ c main_call0_v119 (ix2 0 cc) : EReal))
      = fun cc => (m ((c : Thread nD τ).loc main_arg14) (ix1 cc) : EReal) :=
    funext fun cc => hb cc
  have key : Gnn.pairScore (fun (e : Fin 200000) (k : Fin 256) => (V7 m ρ c main_call0_v108 (ix2 e k) : EReal))
        (fun (e : Fin 200000) (k : Fin 256) => (V7 m ρ c main_call0_v117 (ix2 e k) : EReal))
        (fun (k : Fin 256) (cc : Fin 2) => (V7 m ρ c main_call0_v118 (ix2 k cc) : EReal))
        (fun cc : Fin 2 => (V7 m ρ c main_call0_v119 (ix2 0 cc) : EReal)) e
      = Gnn.score (fun p k => W6 m ρ c (Proc.devRef .tc main_call0_v98) (ix2 p k))
          (GatherRows.row 50000 (by decide) (V7 m ρ c main_call0_v107))
          (GatherRows.row 50000 (by decide) (V7 m ρ c main_call0_v116))
          (fun k cc => m ((c : Thread nD τ).loc main_arg13) (ix2 k cc))
          (fun cc => m ((c : Thread nD τ).loc main_arg14) (ix1 cc)) e := by
    rw [hA, hB, hW, hBias]
    rfl
  refine (result_apply m ρ c e).trans ?_
  refine (congrFun (v120_arr m ρ c) (ix2 e (0 : Fin 1))).trans ?_
  refine (congrFun (KRegion3.final3 (V7 m ρ) c) (ix2 e (0 : Fin 1))).trans ?_
  exact key

end Cert.KernelIdeal.KValue

end
-- ==== Proof.LibScatterRows.lean ====
/-
  An accumulating scatter of ROWS read at an entry, over the extended reals.

  `jax.ops.segment_sum(U, ids, num_segments = N)` of a matrix `U : [E, H]` into the zero matrix `[N, H]` is a
  `stablehlo.scatter` with an `add` body whose scatter indices have shape `[E, 1]` (the index vector on axis 1, one
  component, mapped to operand axis 0), operand axis 0 an inserted window axis, and the updates' axis 1 the one window axis.
  StableHLO reads the scatter index `ids[e, 0]` as a SIGNED integer and does NOT clamp it: update row `e` is added to
  operand row `ids[e, 0]` when that number names a row, and is dropped otherwise. `tgt N ids e` is that row, if any.
  The theorem says that entry `(p, q)` of the result is the operand's entry plus the sum, over the update rows `e` whose
  target is `p`, of the update's entry `(e, q)`.
-/
import Idealize.ShloMosaic.PureOps.Ideal
import Idealize.ShloMosaic.PureOps.Ideal.Laws
import Idealize.ShloMosaic.Lib.ValueIdx

noncomputable section

open scoped BigOperators

namespace ScatterRows

open Idealize.ShloMosaic Idealize.ShloMosaic.ValueIdx

/-- The operand row that update row `e` is added to: the scatter index `idx[e, 0]` read as a signed integer, when it
    names one of the `N` rows; no row otherwise. -/
def tgt (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Axis 0 of the operand is named by the scatter-dims-to-operand-dims map: the window of update index `j` starts at the
    scatter index `idx[j 0, 0]`, read signed. -/
theorem start_zero {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, H]⟩ : Shape).Idx) :
    d.start j idx 0 = (idx (ix2 (j 0) (0 : Fin 1))).toInt := by
  obtain ⟨uw, iw, sd, iv, wf⟩ := d
  simp only at huw hiw hsd hiv
  subst huw hiw hsd hiv
  unfold ScatterDims.start
  have hmem : (0 : Fin 2) ∈ ([0] : List (Fin 2)) := List.mem_singleton.mpr rfl
  rw [dif_pos hmem]
  have hsi : ScatterDims.siIdx (s := ⟨2, ![N, H]⟩) (si := ⟨2, ![E, 1]⟩) (u := ⟨2, ![E, H]⟩)
      ⟨[1], [0], [0], 1, wf⟩ j ⟨List.idxOf (0 : Fin 2) [0], List.idxOf_lt_length_iff.2 hmem⟩
        = ix2 (j 0) (0 : Fin 1) := by
    funext b; refine Fin.ext ?_
    match b with
    | ⟨0, _⟩ => rfl
    | ⟨1, _⟩ => rfl
  rw [hsi]
  rfl

/-- Axis 1 of the operand is not named by the map: every window starts at 0 there. -/
theorem start_one {N H E w : Nat}
    (d : ScatterDims ⟨2, ![N, H]⟩ ⟨2, ![E, 1]⟩ ⟨2, ![E, H]⟩)
    (hsd : d.scatterDimsToOperandDims = [0])
    (idx : IVec ⟨2, ![E, 1]⟩ w) (j : (⟨2, ![E, H]⟩ : Shape).Idx) :
    d.start j idx 1 = 0 := by
  unfold ScatterDims.start
  rw [dif_neg (by rw [hsd]; exact (show (1 : Fin 2) ∉ ([0] : List (Fin 2)) by decide))]

/-- Axis 0 of the operand is an inserted window axis: the window coordinate there is 0. -/
theorem window_zero {N H E : Nat}
    (d : ScatterDims ⟨2, ![N, H]⟩ ⟨2, ![E, 1]⟩ ⟨2, ![E, H]⟩)
    (hiw : d.insertedWindowDims = [0]) (j : (⟨2, ![E, H]⟩ : Shape).Idx) :
    d.window j 0 = 0 := by
  unfold ScatterDims.window
  rw [dif_neg (by
    rw [ScatterDims.sKept, hiw]
    exact (show (0 : Fin 2) ∉ (List.finRange 2).filter (fun a => a ∉ ([0] : List (Fin 2))) by decide))]

/-- Axis 1 of the operand is the one kept axis: the window coordinate there is the update index's coordinate on
    its one window axis, axis 1. -/
theorem window_one {N H E : Nat}
    (d : ScatterDims ⟨2, ![N, H]⟩ ⟨2, ![E, 1]⟩ ⟨2, ![E, H]⟩)
    (huw : d.updateWindowDims = [1]) (hiw : d.insertedWindowDims = [0]) (j : (⟨2, ![E, H]⟩ : Shape).Idx) :
    d.window j 1 = (j 1).val := by
  obtain ⟨uw, iw, sd, iv, wf⟩ := d
  simp only at huw hiw
  subst huw hiw
  unfold ScatterDims.window
  rw [dif_pos (by
    exact (show (1 : Fin 2) ∈ (List.finRange 2).filter (fun a => a ∉ ([0] : List (Fin 2))) by decide))]
  rfl

/-- WHERE UPDATE ENTRY `(e, c)` LANDS: at operand entry `(p, q)` exactly when the column is kept, `c = q`, and the
    scatter index of row `e` names row `p`. On axis 0 the landing coordinate is the scatter index itself (window
    coordinate 0), in range exactly when `tgt` is a row; on axis 1 it is `c` (start 0), always in range. -/
theorem resultIdx_rows {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (e : Fin E) (c : Fin H) (p : Fin N) (q : Fin H) :
    d.resultIdx? (ix2 e c) idx = some (ix2 p q) ↔ c = q ∧ tgt N idx e = some p := by
  have h0s : d.start (ix2 e c) idx 0 = (idx (ix2 e (0 : Fin 1))).toInt := start_zero d huw hiw hsd hiv idx (ix2 e c)
  have h1s : d.start (ix2 e c) idx 1 = 0 := start_one d hsd idx (ix2 e c)
  have h0w : d.window (ix2 e c) 0 = 0 := window_zero d hiw (ix2 e c)
  have h1w : d.window (ix2 e c) 1 = c.val := window_one d huw hiw (ix2 e c)
  have hc := c.isLt
  -- the landing index is inside the operand exactly when the scatter index names a row
  have hall : (∀ a, 0 ≤ d.start (ix2 e c) idx a + (d.window (ix2 e c) a : Int) ∧
        d.start (ix2 e c) idx a + (d.window (ix2 e c) a : Int) < ((⟨2, ![N, H]⟩ : Shape).size a : Nat))
      ↔ (0 ≤ (idx (ix2 e (0 : Fin 1))).toInt ∧ (idx (ix2 e (0 : Fin 1))).toInt < (N : Int)) := by
    constructor
    · intro h
      have h0 : 0 ≤ d.start (ix2 e c) idx 0 + (d.window (ix2 e c) 0 : Int) ∧
          d.start (ix2 e c) idx 0 + (d.window (ix2 e c) 0 : Int) < (N : Int) := h 0
      rw [h0s, h0w] at h0
      omega
    · intro h a
      match a with
      | ⟨0, _⟩ =>
        show 0 ≤ d.start (ix2 e c) idx 0 + (d.window (ix2 e c) 0 : Int) ∧
          d.start (ix2 e c) idx 0 + (d.window (ix2 e c) 0 : Int) < (N : Int)
        rw [h0s, h0w]; omega
      | ⟨1, _⟩ =>
        show 0 ≤ d.start (ix2 e c) idx 1 + (d.window (ix2 e c) 1 : Int) ∧
          d.start (ix2 e c) idx 1 + (d.window (ix2 e c) 1 : Int) < (H : Int)
        rw [h1s, h1w]; omega
  unfold ScatterDims.resultIdx? tgt
  by_cases hr : 0 ≤ (idx (ix2 e (0 : Fin 1))).toInt ∧ (idx (ix2 e (0 : Fin 1))).toInt < (N : Int)
  · rw [dif_pos (hall.mpr hr), dif_pos hr]
    constructor
    · intro h
      have hf := Option.some.inj h
      have e0 : (d.start (ix2 e c) idx 0 + (d.window (ix2 e c) 0 : Int)).toNat = p.val :=
        congrArg (fun f => (f 0).val) hf
      have e1 : (d.start (ix2 e c) idx 1 + (d.window (ix2 e c) 1 : Int)).toNat = q.val :=
        congrArg (fun f => (f 1).val) hf
      rw [h0s, h0w] at e0
      rw [h1s, h1w] at e1
      exact ⟨Fin.ext (by omega), congrArg some (Fin.ext (by show (idx (ix2 e (0 : Fin 1))).toInt.toNat = p.val; omega))⟩
    · rintro ⟨rfl, ht⟩
      have hp : (idx (ix2 e (0 : Fin 1))).toInt.toNat = p.val := congrArg Fin.val (Option.some.inj ht)
      refine congrArg some ?_
      funext a
      refine Fin.ext ?_
      match a with
      | ⟨0, _⟩ =>
        show (d.start (ix2 e c) idx 0 + (d.window (ix2 e c) 0 : Int)).toNat = p.val
        rw [h0s, h0w]; omega
      | ⟨1, _⟩ =>
        show (d.start (ix2 e c) idx 1 + (d.window (ix2 e c) 1 : Int)).toNat = c.val
        rw [h1s, h1w]; omega
  · rw [dif_neg (fun h => hr (hall.mp h)), dif_neg hr]
    constructor
    · intro h; cases h
    · rintro ⟨_, h⟩; cases h

/-- THE ROW SCATTER-ADD READ AT `(p, q)`: the operand's entry plus the update entries `(e, q)` of the rows `e` whose
    target is `p`. -/
theorem scatterAdd_rows_apply {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1)
    (x : FVec Ideal ⟨2, ![N, H]⟩ .f32) (idx : IVec ⟨2, ![E, 1]⟩ w) (upd : FVec Ideal ⟨2, ![E, H]⟩ .f32)
    (p : Fin N) (q : Fin H) :
    Host.scatterAdd d x idx upd (ix2 p q)
      = (x (ix2 p q) : EReal) + ∑ e ∈ Finset.univ.filter (fun e => tgt N idx e = some p), (upd (ix2 e q) : EReal) := by
  show x (ix2 p q) + ∑ j ∈ Finset.univ.filter (fun j => d.resultIdx? j idx = some (ix2 p q)), upd j = _
  refine congrArg (fun t => x (ix2 p q) + t) ?_
  -- the update entries landing at `(p, q)` are the entries `(e, q)` of the rows `e` whose target is `p`
  refine Finset.sum_nbij' (fun j => j 0) (fun e => ix2 e q) ?_ ?_ ?_ ?_ ?_
  · intro j hj
    obtain ⟨a, b, rfl⟩ : ∃ a b, j = ix2 a b := ⟨j 0, j 1, eq_ix2 j⟩
    exact Finset.mem_filter.mpr ⟨Finset.mem_univ _,
      ((resultIdx_rows d huw hiw hsd hiv idx a b p q).mp (Finset.mem_filter.mp hj).2).2⟩
  · intro e he
    exact Finset.mem_filter.mpr ⟨Finset.mem_univ _,
      (resultIdx_rows d huw hiw hsd hiv idx e q p q).mpr ⟨rfl, (Finset.mem_filter.mp he).2⟩⟩
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl
  · intro e _
    rfl
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl

end ScatterRows

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.KAgg.lean ====
/-
  The aggregated rows as the two GRU regions find them, and the gathered end rows as the scoring region finds them.

  Before each GRU region the host gathers the previous stage's rows at the edges' sources, scales row `e` by the edge
  weight, and adds it into the row named by the edge's target (an accumulating scatter into the zero matrix). Entry
  `(p, k)` of the result is therefore the sum, over the edges whose target is `p`, of the source row's entry `k` times the
  edge weight: `Gnn.aggregate`. Before the scoring region the host gathers, for each labelled edge, the rows of its two ends.
-/
import proofs.«169681_j33285996544265_2_alg».proof.Proof.KWalk
import proofs.«169681_j33285996544265_2_alg».proof.Proof.Spec
import proofs.«169681_j33285996544265_2_alg».proof.Proof.LibGatherRows
import proofs.«169681_j33285996544265_2_alg».proof.Proof.LibScatterRows
import proofs.«169681_j33285996544265_2_alg».proof.Proof.LibRowBroadcast
import Idealize.ShloMosaic.Lib.Pipeline.Value

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A scalar spread over a whole array reads the scalar everywhere. -/
theorem splat_apply {s : Shape} (h : S_.BroadcastsInDim s (![] : Fin 0 → Fin s.rank)) (x : S_.Idx → EReal) (i : s.Idx) :
    broadcastInDim s ![] h x i = x ix0 :=
  broadcastInDim_apply ![] h x i ix0 (fun a => a.elim0)

/-- The aggregation, from its host operations: scatter-add into zero of the gathered rows scaled by the edge weights. -/
theorem aggregate_of_ops (X : S50000x256.Idx → EReal) (src dst : IVec S850000x1 32) (wgt : S850000.Idx → EReal)
    (p : Fin 50000) (k : Fin 256) :
    Host.scatterAdd (F := Ideal) scatter_S50000x256_S850000x1_S850000x256_1_0_0_1
        (broadcastInDim S50000x256 ![] bcast_S_S50000x256 (constant (F := Ideal) S_ .f32 0x00000000#32)) dst
        (mulf (Host.gather gather_S50000x256_S850000x1_S850000x256_1_0_n_n_0_1_1256 X src)
          (broadcastInDim S850000x256 ![0, 1] bcast_S850000x1_S850000x256_0_1
            (broadcastInDim S850000x1 ![0] bcast_S850000_S850000x1_0 wgt))) (ix2 p k)
      = Gnn.aggregate (ScatterRows.tgt 50000 dst) (GatherRows.row 50000 (by decide) src) (fun e => wgt (ix1 e))
          (fun p k => X (ix2 p k)) p k := by
  rw [ScatterRows.scatterAdd_rows_apply _ rfl rfl rfl rfl]
  rw [splat_apply]
  show Ideal.ofBits .f32 0x00000000#32 + _ = _
  rw [Gnn.ofBits_zero, zero_add]
  unfold Gnn.aggregate
  refine Finset.sum_congr rfl fun e _ => ?_
  show Host.gather gather_S50000x256_S850000x1_S850000x256_1_0_n_n_0_1_1256 X src (ix2 e k)
      * broadcastInDim S850000x256 ![0, 1] bcast_S850000x1_S850000x256_0_1
          (broadcastInDim S850000x1 ![0] bcast_S850000_S850000x1_0 wgt) (ix2 e k) = _
  rw [GatherRows.gather_rows_apply (by decide) _ rfl rfl rfl rfl rfl rfl, RowBroadcast.rows_apply]

end Cert.KernelIdeal.KValue

end
-- ==== Proof.KLayer.lean ====
/-
  The aggregated rows that each GRU region of the idealized kernel's run finds at its entry.

  Before each GRU region the host gathers the previous stage's rows at the edges' sources, scales row `e` by the edge
  weight, and adds it into the row named by the edge's target: an accumulating scatter into the zero matrix. Read at an
  entry `(p, k)` this is `Gnn.aggregate`: the sum, over the edges whose target is `p`, of the source row's entry `k` times the
  edge weight.

  The host stretch that does this is long, and the two index columns (the gather's and the scatter's) are themselves
  computed inside it. The value is therefore read with the stretch run in three parts, the buffer contents between the
  parts kept as unknown valuations: the scattered array is then the scatter-add of whatever the index columns hold, and
  the columns never have to be opened.
-/
import proofs.«169681_j33285996544265_2_alg».proof.Proof.KAgg
import proofs.«169681_j33285996544265_2_alg».proof.Proof.KSplit

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Layer 0: the stretch before region 1, in three parts

The stretch computes the gather's index column (operations 1–9), then the gathered rows, the edge weights spread over
the columns, their product, the zero matrix and the scatter's index column (operations 10–16), then the accumulating
scatter (operation 17) and the layer's weights. `Q` stands for the buffer contents after the first part and `P` for the
contents after the second; the two index columns are read as `Q`'s and `P`'s entries, whatever they are. -/

/-- The stretch before region 1 in its three parts. -/
theorem W3_split :
    W3 m ρ c = StableHlo.after (((hostOps1 : List (HloOp τ sig (Elt Ideal))).drop 9).drop 7)
      (StableHlo.after (((hostOps1 : List (HloOp τ sig (Elt Ideal))).drop 9).take 7)
        (StableHlo.after ((hostOps1 : List (HloOp τ sig (Elt Ideal))).take 9) (W2 m ρ c))) :=
  HostStretch.after_split3 hostOps1 9 7 (W2 m ρ c)

/-- Third part: the aggregated rows are the accumulating scatter of what the second part leaves, … -/
theorem scatter0_of (P : Valuation τ sig (Elt Ideal)) :
    StableHlo.after (((hostOps1 : List (HloOp τ sig (Elt Ideal))).drop 9).drop 7) P (Proc.devRef .tc main_call0_v45)
      = Host.scatterAdd (F := Ideal) (φ := .f32) scatter_S50000x256_S850000x1_S850000x256_1_0_0_1
          (P (Proc.devRef .tc main_call0_v43) : FVec Ideal S50000x256 .f32) (P (Proc.devRef .tc main_call0_v44))
          (P (Proc.devRef .tc main_call0_v42) : FVec Ideal S850000x256 .f32) := by
  simp only [hostOps1, List.drop_succ_cons, List.drop_zero]
  after_results_simp
  first | done | rfl

/-- … and it writes neither index column. -/
theorem dst0_keep (P : Valuation τ sig (Elt Ideal)) :
    StableHlo.after (((hostOps1 : List (HloOp τ sig (Elt Ideal))).drop 9).drop 7) P (Proc.devRef .tc main_call0_v44)
      = P (Proc.devRef .tc main_call0_v44) := by
  simp only [hostOps1, List.drop_succ_cons, List.drop_zero]
  after_results_simp
  first | done | rfl

theorem src0_keep (P : Valuation τ sig (Elt Ideal)) :
    StableHlo.after (((hostOps1 : List (HloOp τ sig (Elt Ideal))).drop 9).drop 7) P (Proc.devRef .tc main_call0_v38)
      = P (Proc.devRef .tc main_call0_v38) := by
  simp only [hostOps1, List.drop_succ_cons, List.drop_zero]
  after_results_simp
  first | done | rfl

/-- Second part: the scattered updates are the gathered rows times the edge weights spread over the columns, … -/
theorem upd0_of (Q : Valuation τ sig (Elt Ideal)) :
    StableHlo.after (((hostOps1 : List (HloOp τ sig (Elt Ideal))).drop 9).take 7) Q (Proc.devRef .tc main_call0_v42)
      = (mulf (Host.gather gather_S50000x256_S850000x1_S850000x256_1_0_n_n_0_1_1256
            (Q (Proc.devRef .tc main_call0_v31) : S50000x256.Idx → EReal) (Q (Proc.devRef .tc main_call0_v38)))
          (broadcastInDim S850000x256 ![0, 1] bcast_S850000x1_S850000x256_0_1
            (broadcastInDim S850000x1 ![0] bcast_S850000_S850000x1_0
              (Q (Proc.devRef .tc main_call0_v28) : S850000.Idx → EReal))) : FVec Ideal S850000x256 .f32) := by
  simp only [hostOps1, List.drop_succ_cons, List.drop_zero, List.take_succ_cons, List.take_zero]
  after_results_simp
  first | done | rfl

/-- … the scatter's operand is the zero matrix, … -/
theorem zero0_of (Q : Valuation τ sig (Elt Ideal)) :
    StableHlo.after (((hostOps1 : List (HloOp τ sig (Elt Ideal))).drop 9).take 7) Q (Proc.devRef .tc main_call0_v43)
      = (broadcastInDim S50000x256 ![] bcast_S_S50000x256 (constant (F := Ideal) S_ .f32 0x00000000#32)
          : FVec Ideal S50000x256 .f32) := by
  simp only [hostOps1, List.drop_succ_cons, List.drop_zero, List.take_succ_cons, List.take_zero]
  after_results_simp
  first | done | rfl

/-- … and the gather's index column is not written again. -/
theorem src0_keep' (Q : Valuation τ sig (Elt Ideal)) :
    StableHlo.after (((hostOps1 : List (HloOp τ sig (Elt Ideal))).drop 9).take 7) Q (Proc.devRef .tc main_call0_v38)
      = Q (Proc.devRef .tc main_call0_v38) := by
  simp only [hostOps1, List.drop_succ_cons, List.drop_zero, List.take_succ_cons, List.take_zero]
  after_results_simp
  first | done | rfl

/-- First part: it writes neither region 0's output rows nor the edge weights. -/
theorem rows0_keep :
    StableHlo.after ((hostOps1 : List (HloOp τ sig (Elt Ideal))).take 9) (W2 m ρ c) (Proc.devRef .tc main_call0_v31)
      = W2 m ρ c (Proc.devRef .tc main_call0_v31) := by
  simp only [hostOps1, List.take_succ_cons, List.take_zero]
  after_results_simp
  first | done | rfl

theorem wgt0_keep :
    StableHlo.after ((hostOps1 : List (HloOp τ sig (Elt Ideal))).take 9) (W2 m ρ c) (Proc.devRef .tc main_call0_v28)
      = W2 m ρ c (Proc.devRef .tc main_call0_v28) := by
  simp only [hostOps1, List.take_succ_cons, List.take_zero]
  after_results_simp
  first | done | rfl

/-- Layer 0's aggregated rows, from the stretch before region 1: the scatter-add into the zero matrix, by the scatter's
    index column, of the rows of region 0's output gathered by the gather's index column and scaled by the edge weights. -/
theorem agg_ops_layer0 :
    (V3 m ρ c main_call0_v45 : S50000x256.Idx → EReal)
      = Host.scatterAdd (F := Ideal) scatter_S50000x256_S850000x1_S850000x256_1_0_0_1
          (broadcastInDim S50000x256 ![] bcast_S_S50000x256 (constant (F := Ideal) S_ .f32 0x00000000#32))
          (V3 m ρ c main_call0_v44)
          (mulf (Host.gather gather_S50000x256_S850000x1_S850000x256_1_0_n_n_0_1_1256
              (W2 m ρ c (Proc.devRef .tc main_call0_v31) : S50000x256.Idx → EReal) (V3 m ρ c main_call0_v38))
            (broadcastInDim S850000x256 ![0, 1] bcast_S850000x1_S850000x256_0_1
              (broadcastInDim S850000x1 ![0] bcast_S850000_S850000x1_0
                (W2 m ρ c (Proc.devRef .tc main_call0_v28) : S850000.Idx → EReal)))) := by
  show W3 m ρ c (Proc.devRef .tc main_call0_v45)
    = Host.scatterAdd (F := Ideal) scatter_S50000x256_S850000x1_S850000x256_1_0_0_1 _
        (W3 m ρ c (Proc.devRef .tc main_call0_v44))
        (mulf (Host.gather gather_S50000x256_S850000x1_S850000x256_1_0_n_n_0_1_1256 _
          (W3 m ρ c (Proc.devRef .tc main_call0_v38))) _)
  rw [W3_split m ρ c, scatter0_of, dst0_keep, src0_keep, upd0_of, zero0_of, src0_keep', rows0_keep, wgt0_keep]

/-! ## Layer 1: the stretch before region 2, in three parts

The same three parts: the gather's index column (operations 1–8), then the gathered rows, the spread edge weights,
their product, the zero matrix and the scatter's index column (operations 9–15), then the accumulating scatter
(operation 16) and the layer's weights. -/

/-- The stretch before region 2 in its three parts. -/
theorem W5_split :
    W5 m ρ c = StableHlo.after (((hostOps2 : List (HloOp τ sig (Elt Ideal))).drop 8).drop 7)
      (StableHlo.after (((hostOps2 : List (HloOp τ sig (Elt Ideal))).drop 8).take 7)
        (StableHlo.after ((hostOps2 : List (HloOp τ sig (Elt Ideal))).take 8) (W4 m ρ c))) :=
  HostStretch.after_split3 hostOps2 8 7 (W4 m ρ c)

/-- Third part: the aggregated rows are the accumulating scatter of what the second part leaves, … -/
theorem scatter1_of (P : Valuation τ sig (Elt Ideal)) :
    StableHlo.after (((hostOps2 : List (HloOp τ sig (Elt Ideal))).drop 8).drop 7) P (Proc.devRef .tc main_call0_v78)
      = Host.scatterAdd (F := Ideal) (φ := .f32) scatter_S50000x256_S850000x1_S850000x256_1_0_0_1
          (P (Proc.devRef .tc main_call0_v76) : FVec Ideal S50000x256 .f32) (P (Proc.devRef .tc main_call0_v77))
          (P (Proc.devRef .tc main_call0_v75) : FVec Ideal S850000x256 .f32) := by
  simp only [hostOps2, List.drop_succ_cons, List.drop_zero]
  after_results_simp
  first | done | rfl

/-- … and it writes neither index column. -/
theorem dst1_keep (P : Valuation τ sig (Elt Ideal)) :
    StableHlo.after (((hostOps2 : List (HloOp τ sig (Elt Ideal))).drop 8).drop 7) P (Proc.devRef .tc main_call0_v77)
      = P (Proc.devRef .tc main_call0_v77) := by
  simp only [hostOps2, List.drop_succ_cons, List.drop_zero]
  after_results_simp
  first | done | rfl

theorem src1_keep (P : Valuation τ sig (Elt Ideal)) :
    StableHlo.after (((hostOps2 : List (HloOp τ sig (Elt Ideal))).drop 8).drop 7) P (Proc.devRef .tc main_call0_v71)
      = P (Proc.devRef .tc main_call0_v71) := by
  simp only [hostOps2, List.drop_succ_cons, List.drop_zero]
  after_results_simp
  first | done | rfl

/-- Second part: the scattered updates are the gathered rows times the edge weights spread over the columns, … -/
theorem upd1_of (Q : Valuation τ sig (Elt Ideal)) :
    StableHlo.after (((hostOps2 : List (HloOp τ sig (Elt Ideal))).drop 8).take 7) Q (Proc.devRef .tc main_call0_v75)
      = (mulf (Host.gather gather_S50000x256_S850000x1_S850000x256_1_0_n_n_0_1_1256
            (Q (Proc.devRef .tc main_call0_v65) : S50000x256.Idx → EReal) (Q (Proc.devRef .tc main_call0_v71)))
          (broadcastInDim S850000x256 ![0, 1] bcast_S850000x1_S850000x256_0_1
            (broadcastInDim S850000x1 ![0] bcast_S850000_S850000x1_0
              (Q (Proc.devRef .tc main_call0_v28) : S850000.Idx → EReal))) : FVec Ideal S850000x256 .f32) := by
  simp only [hostOps2, List.drop_succ_cons, List.drop_zero, List.take_succ_cons, List.take_zero]
  after_results_simp
  first | done | rfl

/-- … the scatter's operand is the zero matrix, … -/
theorem zero1_of (Q : Valuation τ sig (Elt Ideal)) :
    StableHlo.after (((hostOps2 : List (HloOp τ sig (Elt Ideal))).drop 8).take 7) Q (Proc.devRef .tc main_call0_v76)
      = (broadcastInDim S50000x256 ![] bcast_S_S50000x256 (constant (F := Ideal) S_ .f32 0x00000000#32)
          : FVec Ideal S50000x256 .f32) := by
  simp only [hostOps2, List.drop_succ_cons, List.drop_zero, List.take_succ_cons, List.take_zero]
  after_results_simp
  first | done | rfl

/-- … and the gather's index column is not written again. -/
theorem src1_keep' (Q : Valuation τ sig (Elt Ideal)) :
    StableHlo.after (((hostOps2 : List (HloOp τ sig (Elt Ideal))).drop 8).take 7) Q (Proc.devRef .tc main_call0_v71)
      = Q (Proc.devRef .tc main_call0_v71) := by
  simp only [hostOps2, List.drop_succ_cons, List.drop_zero, List.take_succ_cons, List.take_zero]
  after_results_simp
  first | done | rfl

/-- First part: it writes neither region 1's output rows nor the edge weights. -/
theorem rows1_keep :
    StableHlo.after ((hostOps2 : List (HloOp τ sig (Elt Ideal))).take 8) (W4 m ρ c) (Proc.devRef .tc main_call0_v65)
      = W4 m ρ c (Proc.devRef .tc main_call0_v65) := by
  simp only [hostOps2, List.take_succ_cons, List.take_zero]
  after_results_simp
  first | done | rfl

theorem wgt1_keep :
    StableHlo.after ((hostOps2 : List (HloOp τ sig (Elt Ideal))).take 8) (W4 m ρ c) (Proc.devRef .tc main_call0_v28)
      = W4 m ρ c (Proc.devRef .tc main_call0_v28) := by
  simp only [hostOps2, List.take_succ_cons, List.take_zero]
  after_results_simp
  first | done | rfl

/-- Layer 1's aggregated rows, from the stretch before region 2: the scatter-add into the zero matrix, by the scatter's
    index column, of the rows of region 1's output gathered by the gather's index column and scaled by the edge weights. -/
theorem agg_ops_layer1 :
    (V5 m ρ c main_call0_v78 : S50000x256.Idx → EReal)
      = Host.scatterAdd (F := Ideal) scatter_S50000x256_S850000x1_S850000x256_1_0_0_1
          (broadcastInDim S50000x256 ![] bcast_S_S50000x256 (constant (F := Ideal) S_ .f32 0x00000000#32))
          (V5 m ρ c main_call0_v77)
          (mulf (Host.gather gather_S50000x256_S850000x1_S850000x256_1_0_n_n_0_1_1256
              (W4 m ρ c (Proc.devRef .tc main_call0_v65) : S50000x256.Idx → EReal) (V5 m ρ c main_call0_v71))
            (broadcastInDim S850000x256 ![0, 1] bcast_S850000x1_S850000x256_0_1
              (broadcastInDim S850000x1 ![0] bcast_S850000_S850000x1_0
                (W4 m ρ c (Proc.devRef .tc main_call0_v28) : S850000.Idx → EReal)))) := by
  show W5 m ρ c (Proc.devRef .tc main_call0_v78)
    = Host.scatterAdd (F := Ideal) scatter_S50000x256_S850000x1_S850000x256_1_0_0_1 _
        (W5 m ρ c (Proc.devRef .tc main_call0_v77))
        (mulf (Host.gather gather_S50000x256_S850000x1_S850000x256_1_0_n_n_0_1_1256 _
          (W5 m ρ c (Proc.devRef .tc main_call0_v71))) _)
  rw [W5_split m ρ c, scatter1_of, dst1_keep, src1_keep, upd1_of, zero1_of, src1_keep', rows1_keep, wgt1_keep]

/-! ## The aggregated rows at an entry -/

/-- Entry `(p, k)` of layer 0's aggregated rows. -/
theorem agg_layer0 (p : Fin 50000) (k : Fin 256) :
    (V3 m ρ c main_call0_v45 : S50000x256.Idx → EReal) (ix2 p k)
      = Gnn.aggregate (ScatterRows.tgt 50000 (V3 m ρ c main_call0_v44))
          (GatherRows.row 50000 (by decide) (V3 m ρ c main_call0_v38))
          (fun e => (W2 m ρ c (Proc.devRef .tc main_call0_v28) : S850000.Idx → EReal) (ix1 e))
          (fun p k => (W2 m ρ c (Proc.devRef .tc main_call0_v31) : S50000x256.Idx → EReal) (ix2 p k)) p k := by
  rw [agg_ops_layer0]
  exact aggregate_of_ops _ _ _ _ p k

/-- Entry `(p, k)` of layer 1's aggregated rows. -/
theorem agg_layer1 (p : Fin 50000) (k : Fin 256) :
    (V5 m ρ c main_call0_v78 : S50000x256.Idx → EReal) (ix2 p k)
      = Gnn.aggregate (ScatterRows.tgt 50000 (V5 m ρ c main_call0_v77))
          (GatherRows.row 50000 (by decide) (V5 m ρ c main_call0_v71))
          (fun e => (W4 m ρ c (Proc.devRef .tc main_call0_v28) : S850000.Idx → EReal) (ix1 e))
          (fun p k => (W4 m ρ c (Proc.devRef .tc main_call0_v65) : S50000x256.Idx → EReal) (ix2 p k)) p k := by
  rw [agg_ops_layer1]
  exact aggregate_of_ops _ _ _ _ p k

end Cert.KernelIdeal.KValue

end
-- ==== Proof.KRegion1.lean ====
/-
  The first fused convolution-and-GRU region, read as one function of its operand arrays.

  The region walks the 50000 node rows in 50 blocks of 1000. At a block it takes the block's 1000 aggregated rows and the
  same 1000 rows of the previous state, and the whole of the five small operands: the square convolution weight with its bias
  row, the two gate weights `[256, 768]` (stored with the gate column second) and their two bias rows. The body clips the
  dense image of the aggregated rows at zero, forms the two gate pre-activations of `768` columns — the clipped rows against
  one gate weight, the previous rows against the other, each plus its bias row —, cuts each into its three blocks of `256`
  columns, and blends them into the new state. Every step reads row `p` of the block only, so entry `(p, q)` of the block's
  result is the GRU cell of the mathematics at row `p`, column `q`; and since block `t` holds the rows `1000·t … 1000·t + 999`
  of the two long arrays, and the 50 blocks tile the 50000 rows, the result array is the GRU cell of the whole arrays, row by row.
-/
import proofs.«169681_j33285996544265_2_alg».proof.Proof.Gen.KernelIdeal.Frame
import Idealize.ShloMosaic.Lib.Pipeline.Value
import Idealize.ShloMosaic.Lib.ValueIdx
import proofs.«169681_j33285996544265_2_alg».proof.Proof.Spec
import proofs.«169681_j33285996544265_2_alg».proof.Proof.LibDense

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

/-! ## The cell reads one row -/

/-- The clipped dense image at row `p` depends on row `p` of the input only: two inputs, of any heights, that agree on a row
    have the same image there. -/
theorem hidden_row {M M' : ℕ} (a : Fin M → Fin 256 → EReal) (a' : Fin M' → Fin 256 → EReal)
    (w : Fin 256 → Fin 256 → EReal) (b : Fin 256 → EReal) (p : Fin M) (p' : Fin M') (h : ∀ k, a p k = a' p' k) (q : Fin 256) :
    Gnn.relu (Gnn.dense a w b p q) = Gnn.relu (Gnn.dense a' w b p' q) := by
  unfold Gnn.dense
  simp only [h]

/-- The GRU cell at row `p` depends on row `p` of the new input and of the previous state only. -/
theorem gruCell_row {M M' : ℕ} (x prev : Fin M → Fin 256 → EReal) (x' prev' : Fin M' → Fin 256 → EReal)
    (wih whh : Fin 768 → Fin 256 → EReal) (bih bhh : Fin 768 → EReal) (p : Fin M) (p' : Fin M')
    (hx : ∀ k, x p k = x' p' k) (hp : ∀ k, prev p k = prev' p' k) (q : Fin 256) :
    Gnn.gruCell x prev wih whh bih bhh p q = Gnn.gruCell x' prev' wih whh bih bhh p' q := by
  unfold Gnn.gruCell Gnn.gate
  simp only [hx, hp]

/-! ## The body's arithmetic at an entry of the block -/

theorem plain256 : PlainMatmul.IsPlain (M := 1000) (K := 256) (N := 256) dot_S1000x256_S256x256_S1000x256_1_0_0_1_n_n :=
  ⟨rfl, rfl, rfl, rfl, rfl, rfl⟩

theorem plain768 : PlainMatmul.IsPlain (M := 1000) (K := 256) (N := 768) dot_S1000x256_S256x768_S1000x768_1_0_0_1_n_n :=
  ⟨rfl, rfl, rfl, rfl, rfl, rfl⟩

/-- The clipped dense image of the block's aggregated rows, at an entry. -/
theorem hidden_apply (x0 : FVec Ideal S1000x256 .f32) (x1 : FVec Ideal S256x256 .bf16) (x2 : FVec Ideal S1x256 .f32)
    (p : Fin 1000) (k : Fin 256) :
    maximumf (addf (matmul dot_S1000x256_S256x256_S1000x256_1_0_0_1_n_n none (truncf .bf16 x0 bitsLt_bf16_f32) x1
          (constant S1000x256 .f32 0x00000000#32)) (broadcastTo S1000x256 x2 broadcasts_S1x256_S1000x256))
        (broadcast S1000x256 (Scalar.ofBits (F := Ideal) .f32 0x00000000#32)) (ix2 p k)
      = Gnn.relu (Gnn.dense (fun p k => x0 (ix2 p k)) (fun k q => x1 (ix2 k q)) (fun q => x2 (ix2 0 q)) p k) :=
  congrArg₂ max (DenseBody.apply plain256 none (truncf .bf16 x0 bitsLt_bf16_f32) x1 x2 broadcasts_S1x256_S1000x256 p k)
    Gnn.ofBits_zero

/-- The gate pre-activation of the new input: the clipped rows against the first gate weight, plus its bias row. -/
theorem gi_apply (x0 : FVec Ideal S1000x256 .f32) (x1 : FVec Ideal S256x256 .bf16) (x2 : FVec Ideal S1x256 .f32)
    (x4 : FVec Ideal S256x768 .bf16) (x6 : FVec Ideal S1x768 .f32) (p : Fin 1000) (cc : Fin 768) :
    k1_pay2 (F := Ideal) x0 x1 x2 x4 x6 (ix2 p cc)
      = Gnn.gate (fun p k => Gnn.relu (Gnn.dense (fun p k => x0 (ix2 p k)) (fun k q => x1 (ix2 k q)) (fun q => x2 (ix2 0 q)) p k))
          (fun cc k => x4 (ix2 k cc)) (fun cc => x6 (ix2 0 cc)) p cc := by
  unfold k1_pay2
  simp only [shapeCast_self]
  refine (DenseBody.apply plain768 none _ x4 x6 broadcasts_S1x768_S1000x768 p cc).trans ?_
  unfold Gnn.gate
  refine congrArg (fun s => s + x6 (ix2 0 cc)) (Finset.sum_congr rfl fun k _ => congrArg (fun s => s * x4 (ix2 k cc)) ?_)
  exact hidden_apply x0 x1 x2 p k

/-- The gate pre-activation of the previous state: its rows against the second gate weight, plus its bias row. -/
theorem gh_apply (x3 : FVec Ideal S1000x256 .f32) (x5 : FVec Ideal S256x768 .bf16) (x7 : FVec Ideal S1x768 .f32)
    (p : Fin 1000) (cc : Fin 768) :
    k1_pay3 (F := Ideal) x3 x5 x7 (ix2 p cc)
      = Gnn.gate (fun p k => x3 (ix2 p k)) (fun cc k => x5 (ix2 k cc)) (fun cc => x7 (ix2 0 cc)) p cc := by
  unfold k1_pay3
  simp only [shapeCast_self]
  exact DenseBody.apply plain768 none (truncf .bf16 x3 bitsLt_bf16_f32) x5 x7 broadcasts_S1x768_S1000x768 p cc

/-- A block of `256` columns cut out of the `768` at column offset `o` reads column `o + q`. -/
theorem slice_apply (o : ℕ) (h : S1000x768.Slices ![0, o] S1000x256) (x : FVec Ideal S1000x768 .f32)
    (p : Fin 1000) (q : Fin 256) (cc : Fin 768) (hc : cc.val = o + q.val) :
    extractStridedSlice S1000x256 ![0, o] x h (ix2 p q) = x (ix2 p cc) :=
  extractStridedSlice_apply ![0, o] x h (ix2 p q) (ix2 p cc) fun a => by
    match a with
    | ⟨0, _⟩ => exact (Nat.zero_add p.val).symm
    | ⟨1, _⟩ => exact hc

/-- THE BODY AT AN ENTRY: what the body stores at row `p`, column `q` of its block is the GRU cell at `(p, q)` of the block's
    rows — the new input the clipped dense image of the aggregated rows, the weights read with the gate column first. -/
theorem body_apply (x0 : FVec Ideal S1000x256 .f32) (x1 : FVec Ideal S256x256 .bf16) (x2 : FVec Ideal S1x256 .f32)
    (x3 : FVec Ideal S1000x256 .f32) (x4 x5 : FVec Ideal S256x768 .bf16) (x6 x7 : FVec Ideal S1x768 .f32)
    (p : Fin 1000) (q : Fin 256) :
    k1_pay1 (F := Ideal) x3 (k1_pay4 x0 x1 x2 x4 x6) (k1_pay5 x3 x5 x7) (k1_pay6 x0 x1 x2 x3 x4 x5 x6 x7)
        (k1_pay7 x0 x1 x2 x3 x4 x5 x6 x7) (ix2 p q)
      = Gnn.gruCell
          (fun p k => Gnn.relu (Gnn.dense (fun p k => x0 (ix2 p k)) (fun k q => x1 (ix2 k q)) (fun q => x2 (ix2 0 q)) p k))
          (fun p k => x3 (ix2 p k)) (fun cc k => x4 (ix2 k cc)) (fun cc k => x5 (ix2 k cc))
          (fun cc => x6 (ix2 0 cc)) (fun cc => x7 (ix2 0 cc)) p q := by
  have e4 : k1_pay4 (F := Ideal) x0 x1 x2 x4 x6 (ix2 p q) = _ :=
    (slice_apply 512 slices_S1000x768_o0_512_S1000x256 (k1_pay2 x0 x1 x2 x4 x6) p q (Gnn.gN q) rfl).trans
      (gi_apply x0 x1 x2 x4 x6 p (Gnn.gN q))
  have e5 : k1_pay5 (F := Ideal) x3 x5 x7 (ix2 p q) = _ :=
    (slice_apply 512 slices_S1000x768_o0_512_S1000x256 (k1_pay3 x3 x5 x7) p q (Gnn.gN q) rfl).trans
      (gh_apply x3 x5 x7 p (Gnn.gN q))
  have e6 : k1_pay6 (F := Ideal) x0 x1 x2 x3 x4 x5 x6 x7 (ix2 p q) = _ :=
    congrArg Ideal.logistic (congrArg₂ (· + ·)
      ((slice_apply 0 slices_S1000x768_o0_0_S1000x256 (k1_pay2 x0 x1 x2 x4 x6) p q (Gnn.gR q) (Nat.zero_add _).symm).trans
        (gi_apply x0 x1 x2 x4 x6 p (Gnn.gR q)))
      ((slice_apply 0 slices_S1000x768_o0_0_S1000x256 (k1_pay3 x3 x5 x7) p q (Gnn.gR q) (Nat.zero_add _).symm).trans
        (gh_apply x3 x5 x7 p (Gnn.gR q))))
  have e7 : k1_pay7 (F := Ideal) x0 x1 x2 x3 x4 x5 x6 x7 (ix2 p q) = _ :=
    congrArg Ideal.logistic (congrArg₂ (· + ·)
      ((slice_apply 256 slices_S1000x768_o0_256_S1000x256 (k1_pay2 x0 x1 x2 x4 x6) p q (Gnn.gZ q) rfl).trans
        (gi_apply x0 x1 x2 x4 x6 p (Gnn.gZ q)))
      ((slice_apply 256 slices_S1000x768_o0_256_S1000x256 (k1_pay3 x3 x5 x7) p q (Gnn.gZ q) rfl).trans
        (gh_apply x3 x5 x7 p (Gnn.gZ q))))
  show (Ideal.ofBits .f32 0x3F800000#32 - k1_pay7 (F := Ideal) x0 x1 x2 x3 x4 x5 x6 x7 (ix2 p q))
        * Ideal.tanh (k1_pay4 (F := Ideal) x0 x1 x2 x4 x6 (ix2 p q)
            + k1_pay6 (F := Ideal) x0 x1 x2 x3 x4 x5 x6 x7 (ix2 p q) * k1_pay5 (F := Ideal) x3 x5 x7 (ix2 p q))
      + k1_pay7 (F := Ideal) x0 x1 x2 x3 x4 x5 x6 x7 (ix2 p q) * x3 (ix2 p q) = _
  rw [e4, e5, e6, e7, Gnn.ofBits_one]
  rfl

/-- THE BODY AT AN ENTRY, OVER THE ARRAYS: when the block's two long operands hold, at row `p`, row `P` of two long arrays,
    and its six small operands are six arrays, the entry `(p, q)` the body stores is the GRU cell of the arrays at `(P, q)`. -/
theorem block_entry (x0 : FVec Ideal S1000x256 .f32) (x1 : FVec Ideal S256x256 .bf16) (x2 : FVec Ideal S1x256 .f32)
    (x3 : FVec Ideal S1000x256 .f32) (x4 x5 : FVec Ideal S256x768 .bf16) (x6 x7 : FVec Ideal S1x768 .f32)
    (A0 : FVec Ideal S50000x256 .f32) (A1 : FVec Ideal S256x256 .bf16) (A2 : FVec Ideal S1x256 .f32)
    (A3 : FVec Ideal S50000x256 .f32) (A4 A5 : FVec Ideal S256x768 .bf16) (A6 A7 : FVec Ideal S1x768 .f32)
    (p : Fin 1000) (q : Fin 256) (P : Fin 50000)
    (h0 : ∀ k : Fin 256, x0 (ix2 p k) = A0 (ix2 P k)) (h1 : ∀ k q : Fin 256, x1 (ix2 k q) = A1 (ix2 k q))
    (h2 : ∀ q : Fin 256, x2 (ix2 0 q) = A2 (ix2 0 q)) (h3 : ∀ k : Fin 256, x3 (ix2 p k) = A3 (ix2 P k))
    (h4 : ∀ (cc : Fin 768) (k : Fin 256), x4 (ix2 k cc) = A4 (ix2 k cc))
    (h5 : ∀ (cc : Fin 768) (k : Fin 256), x5 (ix2 k cc) = A5 (ix2 k cc))
    (h6 : ∀ cc : Fin 768, x6 (ix2 0 cc) = A6 (ix2 0 cc)) (h7 : ∀ cc : Fin 768, x7 (ix2 0 cc) = A7 (ix2 0 cc)) :
    k1_pay1 (F := Ideal) x3 (k1_pay4 x0 x1 x2 x4 x6) (k1_pay5 x3 x5 x7) (k1_pay6 x0 x1 x2 x3 x4 x5 x6 x7)
        (k1_pay7 x0 x1 x2 x3 x4 x5 x6 x7) (ix2 p q)
      = Gnn.gruCell
          (fun p k => Gnn.relu (Gnn.dense (fun p k => A0 (ix2 p k)) (fun k q => A1 (ix2 k q)) (fun q => A2 (ix2 0 q)) p k))
          (fun p k => A3 (ix2 p k)) (fun cc k => A4 (ix2 k cc)) (fun cc k => A5 (ix2 k cc))
          (fun cc => A6 (ix2 0 cc)) (fun cc => A7 (ix2 0 cc)) P q := by
  refine (body_apply x0 x1 x2 x3 x4 x5 x6 x7 p q).trans ?_
  simp only [h1, h2, h4, h5, h6, h7]
  exact gruCell_row _ _ _ _ _ _ _ _ p P (fun k => hidden_row _ _ _ _ p P h0 k) h3 q

/-! ## From blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 50 points: the two long operands and the result move one block of rows
    per point, the six small operands stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Block `t` of the aggregated rows holds, at row `p`, row `1000·t + p` of the array. -/
theorem rows0 (c : Dev nD) (t : Fin cfg1.N) (p : Fin 1000) (P : Fin 50000) (hP : P.val = t.val * 1000 + p.val) (k : Fin 256) :
    (iblk1 V c 0 t : S1000x256.Idx → EReal) (ix2 p k) = (V c main_call0_v45 : S50000x256.Idx → EReal) (ix2 P k) := by
  show (V c main_call0_v45 : S50000x256.Idx → EReal) (((cfg1.win 0).blk t).view.emb (ix2 p k)) = _
  refine congrArg (V c main_call0_v45 : S50000x256.Idx → EReal) ?_
  obtain ⟨e0, e1, -⟩ := idx_facts t
  funext a; apply Fin.ext
  match a with
  | ⟨0, _⟩ => show win1_0.index t (0 : Fin 2) * 1000 + 1 * p.val = P.val; omega
  | ⟨1, _⟩ => show win1_0.index t (1 : Fin 2) * 256 + 1 * k.val = k.val; omega

/-- Block `t` of the previous state holds, at row `p`, row `1000·t + p` of the array. -/
theorem rows3 (c : Dev nD) (t : Fin cfg1.N) (p : Fin 1000) (P : Fin 50000) (hP : P.val = t.val * 1000 + p.val) (k : Fin 256) :
    (iblk1 V c 3 t : S1000x256.Idx → EReal) (ix2 p k) = (V c main_arg3 : S50000x256.Idx → EReal) (ix2 P k) := by
  show (V c main_arg3 : S50000x256.Idx → EReal) (((cfg1.win 3).blk t).view.emb (ix2 p k)) = _
  refine congrArg (V c main_arg3 : S50000x256.Idx → EReal) ?_
  obtain ⟨-, -, -, -, -, -, e0, e1, -⟩ := idx_facts t
  funext a; apply Fin.ext
  match a with
  | ⟨0, _⟩ => show win1_3.index t (0 : Fin 2) * 1000 + 1 * p.val = P.val; omega
  | ⟨1, _⟩ => show win1_3.index t (1 : Fin 2) * 256 + 1 * k.val = k.val; omega

/-- The convolution weight's one block is the array. -/
theorem whole1 (c : Dev nD) (t : Fin cfg1.N) (k q : Fin 256) :
    (iblk1 V c 1 t : S256x256.Idx → EReal) (ix2 k q) = (V c main_call0_v55 : S256x256.Idx → EReal) (ix2 k q) := by
  show (V c main_call0_v55 : S256x256.Idx → EReal) (((cfg1.win 1).blk t).view.emb (ix2 k q)) = _
  refine congrArg (V c main_call0_v55 : S256x256.Idx → EReal) ?_
  obtain ⟨-, -, e0, e1, -⟩ := idx_facts t
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- The convolution bias row's one block is the array. -/
theorem whole2 (c : Dev nD) (t : Fin cfg1.N) (q : Fin 256) :
    (iblk1 V c 2 t : S1x256.Idx → EReal) (ix2 0 q) = (V c main_call0_v62 : S1x256.Idx → EReal) (ix2 0 q) := by
  show (V c main_call0_v62 : S1x256.Idx → EReal) (((cfg1.win 2).blk t).view.emb (ix2 0 q)) = _
  refine congrArg (V c main_call0_v62 : S1x256.Idx → EReal) ?_
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- The first gate weight's one block is the array. -/
theorem whole4 (c : Dev nD) (t : Fin cfg1.N) (cc : Fin 768) (k : Fin 256) :
    (iblk1 V c 4 t : S256x768.Idx → EReal) (ix2 k cc) = (V c main_call0_v49 : S256x768.Idx → EReal) (ix2 k cc) := by
  show (V c main_call0_v49 : S256x768.Idx → EReal) (((cfg1.win 4).blk t).view.emb (ix2 k cc)) = _
  refine congrArg (V c main_call0_v49 : S256x768.Idx → EReal) ?_
  obtain ⟨-, -, -, -, -, -, -, -, e0, e1, -⟩ := idx_facts t
  funext a; apply Fin.ext
  match a with
  | ⟨0, _⟩ => show win1_4.index t (0 : Fin 2) * 256 + 1 * k.val = k.val; omega
  | ⟨1, _⟩ => show win1_4.index t (1 : Fin 2) * 768 + 1 * cc.val = cc.val; omega

/-- The second gate weight's one block is the array. -/
theorem whole5 (c : Dev nD) (t : Fin cfg1.N) (cc : Fin 768) (k : Fin 256) :
    (iblk1 V c 5 t : S256x768.Idx → EReal) (ix2 k cc) = (V c main_call0_v53 : S256x768.Idx → EReal) (ix2 k cc) := by
  show (V c main_call0_v53 : S256x768.Idx → EReal) (((cfg1.win 5).blk t).view.emb (ix2 k cc)) = _
  refine congrArg (V c main_call0_v53 : S256x768.Idx → EReal) ?_
  obtain ⟨-, -, -, -, -, -, -, -, -, -, e0, e1, -⟩ := idx_facts t
  funext a; apply Fin.ext
  match a with
  | ⟨0, _⟩ => show win1_5.index t (0 : Fin 2) * 256 + 1 * k.val = k.val; omega
  | ⟨1, _⟩ => show win1_5.index t (1 : Fin 2) * 768 + 1 * cc.val = cc.val; omega

/-- The first gate bias row's one block is the array. -/
theorem whole6 (c : Dev nD) (t : Fin cfg1.N) (cc : Fin 768) :
    (iblk1 V c 6 t : S1x768.Idx → EReal) (ix2 0 cc) = (V c main_call0_v63 : S1x768.Idx → EReal) (ix2 0 cc) := by
  show (V c main_call0_v63 : S1x768.Idx → EReal) (((cfg1.win 6).blk t).view.emb (ix2 0 cc)) = _
  refine congrArg (V c main_call0_v63 : S1x768.Idx → EReal) ?_
  obtain ⟨-, -, -, -, -, -, -, -, -, -, -, -, e0, e1, -⟩ := idx_facts t
  funext a; apply Fin.ext
  match a with
  | ⟨0, _⟩ => show win1_6.index t (0 : Fin 2) * 1 + 1 * 0 = 0; omega
  | ⟨1, _⟩ => show win1_6.index t (1 : Fin 2) * 768 + 1 * cc.val = cc.val; omega

/-- The second gate bias row's one block is the array. -/
theorem whole7 (c : Dev nD) (t : Fin cfg1.N) (cc : Fin 768) :
    (iblk1 V c 7 t : S1x768.Idx → EReal) (ix2 0 cc) = (V c main_call0_v64 : S1x768.Idx → EReal) (ix2 0 cc) := by
  show (V c main_call0_v64 : S1x768.Idx → EReal) (((cfg1.win 7).blk t).view.emb (ix2 0 cc)) = _
  refine congrArg (V c main_call0_v64 : S1x768.Idx → EReal) ?_
  obtain ⟨-, -, -, -, -, -, -, -, -, -, -, -, -, -, e0, e1, -⟩ := idx_facts t
  funext a; apply Fin.ext
  match a with
  | ⟨0, _⟩ => show win1_7.index t (0 : Fin 2) * 1 + 1 * 0 = 0; omega
  | ⟨1, _⟩ => show win1_7.index t (1 : Fin 2) * 768 + 1 * cc.val = cc.val; omega

/-- Entry `(p, q)` of the result's block `t` sits at row `1000·t + p`, column `q` of the result array. -/
theorem emb8 (t : Fin cfg1.N) (p : Fin 1000) (q : Fin 256) (P : Fin 50000) (hP : P.val = t.val * 1000 + p.val) :
    ((cfg1.win 8).blk t).view.emb (ix2 p q) = (ix2 P q : S50000x256.Idx) := by
  obtain ⟨-, -, -, -, -, -, -, -, -, -, -, -, -, -, -, -, e0, e1⟩ := idx_facts t
  funext a; apply Fin.ext
  match a with
  | ⟨0, _⟩ => show win1_8.index t (0 : Fin 2) * 1000 + 1 * p.val = P.val; omega
  | ⟨1, _⟩ => show win1_8.index t (1 : Fin 2) * 256 + 1 * q.val = q.val; omega

/-- The region's result as one function of its operand arrays as the region finds them: the GRU cell, row by row, of the
    clipped dense image of the aggregated rows and of the previous state. -/
def cell (c : Dev nD) : S50000x256.Idx → EReal := fun i =>
  Gnn.gruCell
    (fun p k => Gnn.relu (Gnn.dense (fun p k => (V c main_call0_v45 : S50000x256.Idx → EReal) (ix2 p k))
      (fun k q => (V c main_call0_v55 : S256x256.Idx → EReal) (ix2 k q))
      (fun q => (V c main_call0_v62 : S1x256.Idx → EReal) (ix2 0 q)) p k))
    (fun p k => (V c main_arg3 : S50000x256.Idx → EReal) (ix2 p k))
    (fun cc k => (V c main_call0_v49 : S256x768.Idx → EReal) (ix2 k cc))
    (fun cc k => (V c main_call0_v53 : S256x768.Idx → EReal) (ix2 k cc))
    (fun cc => (V c main_call0_v63 : S1x768.Idx → EReal) (ix2 0 cc))
    (fun cc => (V c main_call0_v64 : S1x768.Idx → EReal) (ix2 0 cc)) (i 0) (i 1)

/-- What the body leaves at an entry of block `t` is the cell at the array index under that entry. -/
theorem block_eq (c : Dev nD) (t : Fin cfg1.N) (y : S1000x256.Idx) :
    k1_pay1 (F := Ideal) (iblk1 V c 3 t)
        (k1_pay4 (iblk1 V c 0 t) (iblk1 V c 1 t) (iblk1 V c 2 t) (iblk1 V c 4 t) (iblk1 V c 6 t))
        (k1_pay5 (iblk1 V c 3 t) (iblk1 V c 5 t) (iblk1 V c 7 t))
        (k1_pay6 (iblk1 V c 0 t) (iblk1 V c 1 t) (iblk1 V c 2 t) (iblk1 V c 3 t) (iblk1 V c 4 t) (iblk1 V c 5 t) (iblk1 V c 6 t) (iblk1 V c 7 t))
        (k1_pay7 (iblk1 V c 0 t) (iblk1 V c 1 t) (iblk1 V c 2 t) (iblk1 V c 3 t) (iblk1 V c 4 t) (iblk1 V c 5 t) (iblk1 V c 6 t) (iblk1 V c 7 t)) y
      = cell V c (((cfg1.win 8).blk t).view.emb y) := by
  obtain ⟨p, q, rfl⟩ : ∃ (p : Fin 1000) (q : Fin 256), y = ix2 p q := ⟨y 0, y 1, eq_ix2 y⟩
  have hN : cfg1.N = 50 := N_1
  have ht : t.val < 50 := hN ▸ t.isLt
  obtain ⟨P, hP⟩ : ∃ P : Fin 50000, P.val = t.val * 1000 + p.val := ⟨⟨t.val * 1000 + p.val, by have := p.isLt; omega⟩, rfl⟩
  rw [emb8 t p q P hP]
  exact block_entry (iblk1 V c 0 t) (iblk1 V c 1 t) (iblk1 V c 2 t) (iblk1 V c 3 t) (iblk1 V c 4 t) (iblk1 V c 5 t)
    (iblk1 V c 6 t) (iblk1 V c 7 t) (V c main_call0_v45) (V c main_call0_v55) (V c main_call0_v62) (V c main_arg3)
    (V c main_call0_v49) (V c main_call0_v53) (V c main_call0_v63) (V c main_call0_v64) p q P
    (rows0 V c t p P hP) (whole1 V c t) (whole2 V c t) (rows3 V c t p P hP) (whole4 V c t) (whole5 V c t)
    (whole6 V c t) (whole7 V c t)

/-- WHAT POINT `t` WRITES BACK is block `t` of the cell of the operand arrays. -/
theorem flushed_eq (c : Dev nD) (t : Fin cfg1.N) :
    (dat1 V c).flushed 8 t = ((cfg1.win 8).blk t).view.read (Elt Ideal) (cell V c) := by
  show (cfg1.win 8).cut (grid1.coords t) ((dat1 V c).after 8 t) = _
  rw [after1_8]
  unfold out1_8
  rw [View.canon_unit_zero hz]
  simp only [View.ld_unit_zero (S := S1000x256) hz, View.ld_unit_zero (S := S256x256) hz,
    View.ld_unit_zero (S := S1x256) hz, View.ld_unit_zero (S := S256x768) hz, View.ld_unit_zero (S := S1x768) hz]
  funext j
  exact block_eq V c t j

/-- An index of the result array is in point `t`'s block iff each coordinate is in the block's range on its axis. -/
theorem mem_blk (t : Fin cfg1.N) (i : S50000x256.Idx) :
    i ∈ ((cfg1.win 8).blk t).view.set ↔ ∀ a : Fin 2, win1_8.index t a * S1000x256.size a ≤ (i a).val ∧ (i a).val < win1_8.index t a * S1000x256.size a + S1000x256.size a := by
  show i ∈ ((View.whole main_call0_v65).slice (win1_8.rect t)).set ↔ _
  rw [View.set_slice_whole, Rect.mem_set_unit]
  exact Iff.rfl

/-- The 50 blocks of 1000 rows tile the 50000 rows: row `r` is in block `r / 1000`. -/
theorem cover (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hN : cfg1.N = 50 := N_1
  let t : Fin cfg1.N := ⟨(i 0).val / 1000, by rw [hN]; omega⟩
  obtain ⟨-, -, -, -, -, -, -, -, -, -, -, -, -, -, -, -, e0, e1⟩ := idx_facts t
  refine ⟨t, flush1_8 t, ?_⟩
  rw [mem_blk]
  intro a
  have ht : t.val = (i 0).val / 1000 := rfl
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 256 ≤ (i 1).val ∧ (i 1).val < win1_8.index t (1 : Fin 2) * 256 + 256; omega

/-- THE RESULT ARRAY after the region: the GRU cell of the operand arrays as the region finds them, row by row. -/
theorem final1 (c : Dev nD) :
    (dat1 V c).arrAt 8 cfg1.N = fun i =>
      Gnn.gruCell
        (fun p k => Gnn.relu (Gnn.dense (fun p k => (V c main_call0_v45 : S50000x256.Idx → EReal) (ix2 p k))
          (fun k q => (V c main_call0_v55 : S256x256.Idx → EReal) (ix2 k q))
          (fun q => (V c main_call0_v62 : S1x256.Idx → EReal) (ix2 0 q)) p k))
        (fun p k => (V c main_arg3 : S50000x256.Idx → EReal) (ix2 p k))
        (fun cc k => (V c main_call0_v49 : S256x768.Idx → EReal) (ix2 k cc))
        (fun cc k => (V c main_call0_v53 : S256x768.Idx → EReal) (ix2 k cc))
        (fun cc => (V c main_call0_v63 : S1x768.Idx → EReal) (ix2 0 cc))
        (fun cc => (V c main_call0_v64 : S1x768.Idx → EReal) (ix2 0 cc)) (i 0) (i 1) :=
  (dat1 V c).arrAt_eq_of_cover 8 (cell V c) (fun t _ => flushed_eq V c t) cover

end Array

end Cert.KernelIdeal.Region1

end
-- ==== Proof.KRegion2.lean ====
/-
  The second fused convolution-and-GRU region, read as one function of its operand arrays.

  The region walks the 50000 node rows in 50 blocks of 1000. At a block it takes the block's 1000 aggregated rows and the
  same 1000 rows of the previous state, and the whole of the five small operands: the square convolution weight with its bias
  row, the two gate weights `[256, 768]` (stored with the gate column second) and their two bias rows. The body clips the
  dense image of the aggregated rows at zero, forms the two gate pre-activations of `768` columns — the clipped rows against
  one gate weight, the previous rows against the other, each plus its bias row —, cuts each into its three blocks of `256`
  columns, and blends them into the new state. Every step reads row `p` of the block only, so entry `(p, q)` of the block's
  result is the GRU cell of the mathematics at row `p`, column `q`; and since block `t` holds the rows `1000·t … 1000·t + 999`
  of the two long arrays, and the 50 blocks tile the 50000 rows, the result array is the GRU cell of the whole arrays, row by row.
-/
import proofs.«169681_j33285996544265_2_alg».proof.Proof.Gen.KernelIdeal.Frame
import Idealize.ShloMosaic.Lib.Pipeline.Value
import Idealize.ShloMosaic.Lib.ValueIdx
import proofs.«169681_j33285996544265_2_alg».proof.Proof.Spec
import proofs.«169681_j33285996544265_2_alg».proof.Proof.LibDense

noncomputable section

open scoped BigOperators
open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

/-! ## The cell reads one row -/

/-- The clipped dense image at row `p` depends on row `p` of the input only: two inputs, of any heights, that agree on a row
    have the same image there. -/
theorem hidden_row {M M' : ℕ} (a : Fin M → Fin 256 → EReal) (a' : Fin M' → Fin 256 → EReal)
    (w : Fin 256 → Fin 256 → EReal) (b : Fin 256 → EReal) (p : Fin M) (p' : Fin M') (h : ∀ k, a p k = a' p' k) (q : Fin 256) :
    Gnn.relu (Gnn.dense a w b p q) = Gnn.relu (Gnn.dense a' w b p' q) := by
  unfold Gnn.dense
  simp only [h]

/-- The GRU cell at row `p` depends on row `p` of the new input and of the previous state only. -/
theorem gruCell_row {M M' : ℕ} (x prev : Fin M → Fin 256 → EReal) (x' prev' : Fin M' → Fin 256 → EReal)
    (wih whh : Fin 768 → Fin 256 → EReal) (bih bhh : Fin 768 → EReal) (p : Fin M) (p' : Fin M')
    (hx : ∀ k, x p k = x' p' k) (hp : ∀ k, prev p k = prev' p' k) (q : Fin 256) :
    Gnn.gruCell x prev wih whh bih bhh p q = Gnn.gruCell x' prev' wih whh bih bhh p' q := by
  unfold Gnn.gruCell Gnn.gate
  simp only [hx, hp]

/-! ## The body's arithmetic at an entry of the block -/

theorem plain256 : PlainMatmul.IsPlain (M := 1000) (K := 256) (N := 256) dot_S1000x256_S256x256_S1000x256_1_0_0_1_n_n :=
  ⟨rfl, rfl, rfl, rfl, rfl, rfl⟩

theorem plain768 : PlainMatmul.IsPlain (M := 1000) (K := 256) (N := 768) dot_S1000x256_S256x768_S1000x768_1_0_0_1_n_n :=
  ⟨rfl, rfl, rfl, rfl, rfl, rfl⟩

/-- The clipped dense image of the block's aggregated rows, at an entry. -/
theorem hidden_apply (x0 : FVec Ideal S1000x256 .f32) (x1 : FVec Ideal S256x256 .bf16) (x2 : FVec Ideal S1x256 .f32)
    (p : Fin 1000) (k : Fin 256) :
    maximumf (addf (matmul dot_S1000x256_S256x256_S1000x256_1_0_0_1_n_n none (truncf .bf16 x0 bitsLt_bf16_f32) x1
          (constant S1000x256 .f32 0x00000000#32)) (broadcastTo S1000x256 x2 broadcasts_S1x256_S1000x256))
        (broadcast S1000x256 (Scalar.ofBits (F := Ideal) .f32 0x00000000#32)) (ix2 p k)
      = Gnn.relu (Gnn.dense (fun p k => x0 (ix2 p k)) (fun k q => x1 (ix2 k q)) (fun q => x2 (ix2 0 q)) p k) :=
  congrArg₂ max (DenseBody.apply plain256 none (truncf .bf16 x0 bitsLt_bf16_f32) x1 x2 broadcasts_S1x256_S1000x256 p k)
    Gnn.ofBits_zero

/-- The gate pre-activation of the new input: the clipped rows against the first gate weight, plus its bias row. -/
theorem gi_apply (x0 : FVec Ideal S1000x256 .f32) (x1 : FVec Ideal S256x256 .bf16) (x2 : FVec Ideal S1x256 .f32)
    (x4 : FVec Ideal S256x768 .bf16) (x6 : FVec Ideal S1x768 .f32) (p : Fin 1000) (cc : Fin 768) :
    k2_pay2 (F := Ideal) x0 x1 x2 x4 x6 (ix2 p cc)
      = Gnn.gate (fun p k => Gnn.relu (Gnn.dense (fun p k => x0 (ix2 p k)) (fun k q => x1 (ix2 k q)) (fun q => x2 (ix2 0 q)) p k))
          (fun cc k => x4 (ix2 k cc)) (fun cc => x6 (ix2 0 cc)) p cc := by
  unfold k2_pay2
  simp only [shapeCast_self]
  refine (DenseBody.apply plain768 none _ x4 x6 broadcasts_S1x768_S1000x768 p cc).trans ?_
  unfold Gnn.gate
  refine congrArg (fun s => s + x6 (ix2 0 cc)) (Finset.sum_congr rfl fun k _ => congrArg (fun s => s * x4 (ix2 k cc)) ?_)
  exact hidden_apply x0 x1 x2 p k

/-- The gate pre-activation of the previous state: its rows against the second gate weight, plus its bias row. -/
theorem gh_apply (x3 : FVec Ideal S1000x256 .f32) (x5 : FVec Ideal S256x768 .bf16) (x7 : FVec Ideal S1x768 .f32)
    (p : Fin 1000) (cc : Fin 768) :
    k2_pay3 (F := Ideal) x3 x5 x7 (ix2 p cc)
      = Gnn.gate (fun p k => x3 (ix2 p k)) (fun cc k => x5 (ix2 k cc)) (fun cc => x7 (ix2 0 cc)) p cc := by
  unfold k2_pay3
  simp only [shapeCast_self]
  exact DenseBody.apply plain768 none (truncf .bf16 x3 bitsLt_bf16_f32) x5 x7 broadcasts_S1x768_S1000x768 p cc

/-- A block of `256` columns cut out of the `768` at column offset `o` reads column `o + q`. -/
theorem slice_apply (o : ℕ) (h : S1000x768.Slices ![0, o] S1000x256) (x : FVec Ideal S1000x768 .f32)
    (p : Fin 1000) (q : Fin 256) (cc : Fin 768) (hc : cc.val = o + q.val) :
    extractStridedSlice S1000x256 ![0, o] x h (ix2 p q) = x (ix2 p cc) :=
  extractStridedSlice_apply ![0, o] x h (ix2 p q) (ix2 p cc) fun a => by
    match a with
    | ⟨0, _⟩ => exact (Nat.zero_add p.val).symm
    | ⟨1, _⟩ => exact hc

/-- THE BODY AT AN ENTRY: what the body stores at row `p`, column `q` of its block is the GRU cell at `(p, q)` of the block's
    rows — the new input the clipped dense image of the aggregated rows, the weights read with the gate column first. -/
theorem body_apply (x0 : FVec Ideal S1000x256 .f32) (x1 : FVec Ideal S256x256 .bf16) (x2 : FVec Ideal S1x256 .f32)
    (x3 : FVec Ideal S1000x256 .f32) (x4 x5 : FVec Ideal S256x768 .bf16) (x6 x7 : FVec Ideal S1x768 .f32)
    (p : Fin 1000) (q : Fin 256) :
    k2_pay1 (F := Ideal) x3 (k2_pay4 x0 x1 x2 x4 x6) (k2_pay5 x3 x5 x7) (k2_pay6 x0 x1 x2 x3 x4 x5 x6 x7)
        (k2_pay7 x0 x1 x2 x3 x4 x5 x6 x7) (ix2 p q)
      = Gnn.gruCell
          (fun p k => Gnn.relu (Gnn.dense (fun p k => x0 (ix2 p k)) (fun k q => x1 (ix2 k q)) (fun q => x2 (ix2 0 q)) p k))
          (fun p k => x3 (ix2 p k)) (fun cc k => x4 (ix2 k cc)) (fun cc k => x5 (ix2 k cc))
          (fun cc => x6 (ix2 0 cc)) (fun cc => x7 (ix2 0 cc)) p q := by
  have e4 : k2_pay4 (F := Ideal) x0 x1 x2 x4 x6 (ix2 p q) = _ :=
    (slice_apply 512 slices_S1000x768_o0_512_S1000x256 (k2_pay2 x0 x1 x2 x4 x6) p q (Gnn.gN q) rfl).trans
      (gi_apply x0 x1 x2 x4 x6 p (Gnn.gN q))
  have e5 : k2_pay5 (F := Ideal) x3 x5 x7 (ix2 p q) = _ :=
    (slice_apply 512 slices_S1000x768_o0_512_S1000x256 (k2_pay3 x3 x5 x7) p q (Gnn.gN q) rfl).trans
      (gh_apply x3 x5 x7 p (Gnn.gN q))
  have e6 : k2_pay6 (F := Ideal) x0 x1 x2 x3 x4 x5 x6 x7 (ix2 p q) = _ :=
    congrArg Ideal.logistic (congrArg₂ (· + ·)
      ((slice_apply 0 slices_S1000x768_o0_0_S1000x256 (k2_pay2 x0 x1 x2 x4 x6) p q (Gnn.gR q) (Nat.zero_add _).symm).trans
        (gi_apply x0 x1 x2 x4 x6 p (Gnn.gR q)))
      ((slice_apply 0 slices_S1000x768_o0_0_S1000x256 (k2_pay3 x3 x5 x7) p q (Gnn.gR q) (Nat.zero_add _).symm).trans
        (gh_apply x3 x5 x7 p (Gnn.gR q))))
  have e7 : k2_pay7 (F := Ideal) x0 x1 x2 x3 x4 x5 x6 x7 (ix2 p q) = _ :=
    congrArg Ideal.logistic (congrArg₂ (· + ·)
      ((slice_apply 256 slices_S1000x768_o0_256_S1000x256 (k2_pay2 x0 x1 x2 x4 x6) p q (Gnn.gZ q) rfl).trans
        (gi_apply x0 x1 x2 x4 x6 p (Gnn.gZ q)))
      ((slice_apply 256 slices_S1000x768_o0_256_S1000x256 (k2_pay3 x3 x5 x7) p q (Gnn.gZ q) rfl).trans
        (gh_apply x3 x5 x7 p (Gnn.gZ q))))
  show (Ideal.ofBits .f32 0x3F800000#32 - k2_pay7 (F := Ideal) x0 x1 x2 x3 x4 x5 x6 x7 (ix2 p q))
        * Ideal.tanh (k2_pay4 (F := Ideal) x0 x1 x2 x4 x6 (ix2 p q)
            + k2_pay6 (F := Ideal) x0 x1 x2 x3 x4 x5 x6 x7 (ix2 p q) * k2_pay5 (F := Ideal) x3 x5 x7 (ix2 p q))
      + k2_pay7 (F := Ideal) x0 x1 x2 x3 x4 x5 x6 x7 (ix2 p q) * x3 (ix2 p q) = _
  rw [e4, e5, e6, e7, Gnn.ofBits_one]
  rfl

/-- THE BODY AT AN ENTRY, OVER THE ARRAYS: when the block's two long operands hold, at row `p`, row `P` of two long arrays,
    and its six small operands are six arrays, the entry `(p, q)` the body stores is the GRU cell of the arrays at `(P, q)`. -/
theorem block_entry (x0 : FVec Ideal S1000x256 .f32) (x1 : FVec Ideal S256x256 .bf16) (x2 : FVec Ideal S1x256 .f32)
    (x3 : FVec Ideal S1000x256 .f32) (x4 x5 : FVec Ideal S256x768 .bf16) (x6 x7 : FVec Ideal S1x768 .f32)
    (A0 : FVec Ideal S50000x256 .f32) (A1 : FVec Ideal S256x256 .bf16) (A2 : FVec Ideal S1x256 .f32)
    (A3 : FVec Ideal S50000x256 .f32) (A4 A5 : FVec Ideal S256x768 .bf16) (A6 A7 : FVec Ideal S1x768 .f32)
    (p : Fin 1000) (q : Fin 256) (P : Fin 50000)
    (h0 : ∀ k : Fin 256, x0 (ix2 p k) = A0 (ix2 P k)) (h1 : ∀ k q : Fin 256, x1 (ix2 k q) = A1 (ix2 k q))
    (h2 : ∀ q : Fin 256, x2 (ix2 0 q) = A2 (ix2 0 q)) (h3 : ∀ k : Fin 256, x3 (ix2 p k) = A3 (ix2 P k))
    (h4 : ∀ (cc : Fin 768) (k : Fin 256), x4 (ix2 k cc) = A4 (ix2 k cc))
    (h5 : ∀ (cc : Fin 768) (k : Fin 256), x5 (ix2 k cc) = A5 (ix2 k cc))
    (h6 : ∀ cc : Fin 768, x6 (ix2 0 cc) = A6 (ix2 0 cc)) (h7 : ∀ cc : Fin 768, x7 (ix2 0 cc) = A7 (ix2 0 cc)) :
    k2_pay1 (F := Ideal) x3 (k2_pay4 x0 x1 x2 x4 x6) (k2_pay5 x3 x5 x7) (k2_pay6 x0 x1 x2 x3 x4 x5 x6 x7)
        (k2_pay7 x0 x1 x2 x3 x4 x5 x6 x7) (ix2 p q)
      = Gnn.gruCell
          (fun p k => Gnn.relu (Gnn.dense (fun p k => A0 (ix2 p k)) (fun k q => A1 (ix2 k q)) (fun q => A2 (ix2 0 q)) p k))
          (fun p k => A3 (ix2 p k)) (fun cc k => A4 (ix2 k cc)) (fun cc k => A5 (ix2 k cc))
          (fun cc => A6 (ix2 0 cc)) (fun cc => A7 (ix2 0 cc)) P q := by
  refine (body_apply x0 x1 x2 x3 x4 x5 x6 x7 p q).trans ?_
  simp only [h1, h2, h4, h5, h6, h7]
  exact gruCell_row _ _ _ _ _ _ _ _ p P (fun k => hidden_row _ _ _ _ p P h0 k) h3 q

/-! ## From blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 50 points: the two long operands and the result move one block of rows
    per point, the six small operands stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Block `t` of the aggregated rows holds, at row `p`, row `1000·t + p` of the array. -/
theorem rows0 (c : Dev nD) (t : Fin cfg2.N) (p : Fin 1000) (P : Fin 50000) (hP : P.val = t.val * 1000 + p.val) (k : Fin 256) :
    (iblk2 V c 0 t : S1000x256.Idx → EReal) (ix2 p k) = (V c main_call0_v78 : S50000x256.Idx → EReal) (ix2 P k) := by
  show (V c main_call0_v78 : S50000x256.Idx → EReal) (((cfg2.win 0).blk t).view.emb (ix2 p k)) = _
  refine congrArg (V c main_call0_v78 : S50000x256.Idx → EReal) ?_
  obtain ⟨e0, e1, -⟩ := idx_facts t
  funext a; apply Fin.ext
  match a with
  | ⟨0, _⟩ => show win2_0.index t (0 : Fin 2) * 1000 + 1 * p.val = P.val; omega
  | ⟨1, _⟩ => show win2_0.index t (1 : Fin 2) * 256 + 1 * k.val = k.val; omega

/-- Block `t` of the previous state holds, at row `p`, row `1000·t + p` of the array. -/
theorem rows3 (c : Dev nD) (t : Fin cfg2.N) (p : Fin 1000) (P : Fin 50000) (hP : P.val = t.val * 1000 + p.val) (k : Fin 256) :
    (iblk2 V c 3 t : S1000x256.Idx → EReal) (ix2 p k) = (V c main_arg4 : S50000x256.Idx → EReal) (ix2 P k) := by
  show (V c main_arg4 : S50000x256.Idx → EReal) (((cfg2.win 3).blk t).view.emb (ix2 p k)) = _
  refine congrArg (V c main_arg4 : S50000x256.Idx → EReal) ?_
  obtain ⟨-, -, -, -, -, -, e0, e1, -⟩ := idx_facts t
  funext a; apply Fin.ext
  match a with
  | ⟨0, _⟩ => show win2_3.index t (0 : Fin 2) * 1000 + 1 * p.val = P.val; omega
  | ⟨1, _⟩ => show win2_3.index t (1 : Fin 2) * 256 + 1 * k.val = k.val; omega

/-- The convolution weight's one block is the array. -/
theorem whole1 (c : Dev nD) (t : Fin cfg2.N) (k q : Fin 256) :
    (iblk2 V c 1 t : S256x256.Idx → EReal) (ix2 k q) = (V c main_call0_v88 : S256x256.Idx → EReal) (ix2 k q) := by
  show (V c main_call0_v88 : S256x256.Idx → EReal) (((cfg2.win 1).blk t).view.emb (ix2 k q)) = _
  refine congrArg (V c main_call0_v88 : S256x256.Idx → EReal) ?_
  obtain ⟨-, -, e0, e1, -⟩ := idx_facts t
  funext a; apply Fin.ext
  match a with
  | ⟨0, _⟩ => show win2_1.index t (0 : Fin 2) * 256 + 1 * k.val = k.val; omega
  | ⟨1, _⟩ => show win2_1.index t (1 : Fin 2) * 256 + 1 * q.val = q.val; omega

/-- The convolution bias row's one block is the array. -/
theorem whole2 (c : Dev nD) (t : Fin cfg2.N) (q : Fin 256) :
    (iblk2 V c 2 t : S1x256.Idx → EReal) (ix2 0 q) = (V c main_call0_v95 : S1x256.Idx → EReal) (ix2 0 q) := by
  show (V c main_call0_v95 : S1x256.Idx → EReal) (((cfg2.win 2).blk t).view.emb (ix2 0 q)) = _
  refine congrArg (V c main_call0_v95 : S1x256.Idx → EReal) ?_
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 256 + 1 * q.val = q.val; omega

/-- The first gate weight's one block is the array. -/
theorem whole4 (c : Dev nD) (t : Fin cfg2.N) (cc : Fin 768) (k : Fin 256) :
    (iblk2 V c 4 t : S256x768.Idx → EReal) (ix2 k cc) = (V c main_call0_v82 : S256x768.Idx → EReal) (ix2 k cc) := by
  show (V c main_call0_v82 : S256x768.Idx → EReal) (((cfg2.win 4).blk t).view.emb (ix2 k cc)) = _
  refine congrArg (V c main_call0_v82 : S256x768.Idx → EReal) ?_
  obtain ⟨-, -, -, -, -, -, -, -, e0, e1, -⟩ := idx_facts t
  funext a; apply Fin.ext
  match a with
  | ⟨0, _⟩ => show win2_4.index t (0 : Fin 2) * 256 + 1 * k.val = k.val; omega
  | ⟨1, _⟩ => show win2_4.index t (1 : Fin 2) * 768 + 1 * cc.val = cc.val; omega

/-- The second gate weight's one block is the array. -/
theorem whole5 (c : Dev nD) (t : Fin cfg2.N) (cc : Fin 768) (k : Fin 256) :
    (iblk2 V c 5 t : S256x768.Idx → EReal) (ix2 k cc) = (V c main_call0_v86 : S256x768.Idx → EReal) (ix2 k cc) := by
  show (V c main_call0_v86 : S256x768.Idx → EReal) (((cfg2.win 5).blk t).view.emb (ix2 k cc)) = _
  refine congrArg (V c main_call0_v86 : S256x768.Idx → EReal) ?_
  obtain ⟨-, -, -, -, -, -, -, -, -, -, e0, e1, -⟩ := idx_facts t
  funext a; apply Fin.ext
  match a with
  | ⟨0, _⟩ => show win2_5.index t (0 : Fin 2) * 256 + 1 * k.val = k.val; omega
  | ⟨1, _⟩ => show win2_5.index t (1 : Fin 2) * 768 + 1 * cc.val = cc.val; omega

/-- The first gate bias row's one block is the array. -/
theorem whole6 (c : Dev nD) (t : Fin cfg2.N) (cc : Fin 768) :
    (iblk2 V c 6 t : S1x768.Idx → EReal) (ix2 0 cc) = (V c main_call0_v96 : S1x768.Idx → EReal) (ix2 0 cc) := by
  show (V c main_call0_v96 : S1x768.Idx → EReal) (((cfg2.win 6).blk t).view.emb (ix2 0 cc)) = _
  refine congrArg (V c main_call0_v96 : S1x768.Idx → EReal) ?_
  obtain ⟨-, -, -, -, -, -, -, -, -, -, -, -, e0, e1, -⟩ := idx_facts t
  funext a; apply Fin.ext
  match a with
  | ⟨0, _⟩ => show win2_6.index t (0 : Fin 2) * 1 + 1 * 0 = 0; omega
  | ⟨1, _⟩ => show win2_6.index t (1 : Fin 2) * 768 + 1 * cc.val = cc.val; omega

/-- The second gate bias row's one block is the array. -/
theorem whole7 (c : Dev nD) (t : Fin cfg2.N) (cc : Fin 768) :
    (iblk2 V c 7 t : S1x768.Idx → EReal) (ix2 0 cc) = (V c main_call0_v97 : S1x768.Idx → EReal) (ix2 0 cc) := by
  show (V c main_call0_v97 : S1x768.Idx → EReal) (((cfg2.win 7).blk t).view.emb (ix2 0 cc)) = _
  refine congrArg (V c main_call0_v97 : S1x768.Idx → EReal) ?_
  obtain ⟨-, -, -, -, -, -, -, -, -, -, -, -, -, -, e0, e1, -⟩ := idx_facts t
  funext a; apply Fin.ext
  match a with
  | ⟨0, _⟩ => show win2_7.index t (0 : Fin 2) * 1 + 1 * 0 = 0; omega
  | ⟨1, _⟩ => show win2_7.index t (1 : Fin 2) * 768 + 1 * cc.val = cc.val; omega

/-- Entry `(p, q)` of the result's block `t` sits at row `1000·t + p`, column `q` of the result array. -/
theorem emb8 (t : Fin cfg2.N) (p : Fin 1000) (q : Fin 256) (P : Fin 50000) (hP : P.val = t.val * 1000 + p.val) :
    ((cfg2.win 8).blk t).view.emb (ix2 p q) = (ix2 P q : S50000x256.Idx) := by
  obtain ⟨-, -, -, -, -, -, -, -, -, -, -, -, -, -, -, -, e0, e1⟩ := idx_facts t
  funext a; apply Fin.ext
  match a with
  | ⟨0, _⟩ => show win2_8.index t (0 : Fin 2) * 1000 + 1 * p.val = P.val; omega
  | ⟨1, _⟩ => show win2_8.index t (1 : Fin 2) * 256 + 1 * q.val = q.val; omega

/-- The region's result as one function of its operand arrays as the region finds them: the GRU cell, row by row, of the
    clipped dense image of the aggregated rows and of the previous state. -/
def cell (c : Dev nD) : S50000x256.Idx → EReal := fun i =>
  Gnn.gruCell
    (fun p k => Gnn.relu (Gnn.dense (fun p k => (V c main_call0_v78 : S50000x256.Idx → EReal) (ix2 p k))
      (fun k q => (V c main_call0_v88 : S256x256.Idx → EReal) (ix2 k q))
      (fun q => (V c main_call0_v95 : S1x256.Idx → EReal) (ix2 0 q)) p k))
    (fun p k => (V c main_arg4 : S50000x256.Idx → EReal) (ix2 p k))
    (fun cc k => (V c main_call0_v82 : S256x768.Idx → EReal) (ix2 k cc))
    (fun cc k => (V c main_call0_v86 : S256x768.Idx → EReal) (ix2 k cc))
    (fun cc => (V c main_call0_v96 : S1x768.Idx → EReal) (ix2 0 cc))
    (fun cc => (V c main_call0_v97 : S1x768.Idx → EReal) (ix2 0 cc)) (i 0) (i 1)

/-- What the body leaves at an entry of block `t` is the cell at the array index under that entry. -/
theorem block_eq (c : Dev nD) (t : Fin cfg2.N) (y : S1000x256.Idx) :
    k2_pay1 (F := Ideal) (iblk2 V c 3 t)
        (k2_pay4 (iblk2 V c 0 t) (iblk2 V c 1 t) (iblk2 V c 2 t) (iblk2 V c 4 t) (iblk2 V c 6 t))
        (k2_pay5 (iblk2 V c 3 t) (iblk2 V c 5 t) (iblk2 V c 7 t))
        (k2_pay6 (iblk2 V c 0 t) (iblk2 V c 1 t) (iblk2 V c 2 t) (iblk2 V c 3 t) (iblk2 V c 4 t) (iblk2 V c 5 t) (iblk2 V c 6 t) (iblk2 V c 7 t))
        (k2_pay7 (iblk2 V c 0 t) (iblk2 V c 1 t) (iblk2 V c 2 t) (iblk2 V c 3 t) (iblk2 V c 4 t) (iblk2 V c 5 t) (iblk2 V c 6 t) (iblk2 V c 7 t)) y
      = cell V c (((cfg2.win 8).blk t).view.emb y) := by
  obtain ⟨p, q, rfl⟩ : ∃ (p : Fin 1000) (q : Fin 256), y = ix2 p q := ⟨y 0, y 1, eq_ix2 y⟩
  have hN : cfg2.N = 50 := N_2
  have ht : t.val < 50 := hN ▸ t.isLt
  obtain ⟨P, hP⟩ : ∃ P : Fin 50000, P.val = t.val * 1000 + p.val := ⟨⟨t.val * 1000 + p.val, by have := p.isLt; omega⟩, rfl⟩
  rw [emb8 t p q P hP]
  exact block_entry (iblk2 V c 0 t) (iblk2 V c 1 t) (iblk2 V c 2 t) (iblk2 V c 3 t) (iblk2 V c 4 t) (iblk2 V c 5 t)
    (iblk2 V c 6 t) (iblk2 V c 7 t) (V c main_call0_v78) (V c main_call0_v88) (V c main_call0_v95) (V c main_arg4)
    (V c main_call0_v82) (V c main_call0_v86) (V c main_call0_v96) (V c main_call0_v97) p q P
    (rows0 V c t p P hP) (whole1 V c t) (whole2 V c t) (rows3 V c t p P hP) (whole4 V c t) (whole5 V c t)
    (whole6 V c t) (whole7 V c t)

/-- WHAT POINT `t` WRITES BACK is block `t` of the cell of the operand arrays. -/
theorem flushed_eq (c : Dev nD) (t : Fin cfg2.N) :
    (dat2 V c).flushed 8 t = ((cfg2.win 8).blk t).view.read (Elt Ideal) (cell V c) := by
  show (cfg2.win 8).cut (grid2.coords t) ((dat2 V c).after 8 t) = _
  rw [after2_8]
  unfold out2_8
  rw [View.canon_unit_zero hz]
  simp only [View.ld_unit_zero (S := S1000x256) hz, View.ld_unit_zero (S := S256x256) hz,
    View.ld_unit_zero (S := S1x256) hz, View.ld_unit_zero (S := S256x768) hz, View.ld_unit_zero (S := S1x768) hz]
  funext j
  exact block_eq V c t j

/-- An index of the result array is in point `t`'s block iff each coordinate is in the block's range on its axis. -/
theorem mem_blk (t : Fin cfg2.N) (i : S50000x256.Idx) :
    i ∈ ((cfg2.win 8).blk t).view.set ↔ ∀ a : Fin 2, win2_8.index t a * S1000x256.size a ≤ (i a).val ∧ (i a).val < win2_8.index t a * S1000x256.size a + S1000x256.size a := by
  show i ∈ ((View.whole main_call0_v98).slice (win2_8.rect t)).set ↔ _
  rw [View.set_slice_whole, Rect.mem_set_unit]
  exact Iff.rfl

/-- The 50 blocks of 1000 rows tile the 50000 rows: row `r` is in block `r / 1000`. -/
theorem cover (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 50 := N_2
  let t : Fin cfg2.N := ⟨(i 0).val / 1000, by rw [hN]; omega⟩
  obtain ⟨-, -, -, -, -, -, -, -, -, -, -, -, -, -, -, -, e0, e1⟩ := idx_facts t
  refine ⟨t, flush2_8 t, ?_⟩
  rw [mem_blk]
  intro a
  have ht : t.val = (i 0).val / 1000 := rfl
  match a with
  | ⟨0, _⟩ => show win2_8.index t (0 : Fin 2) * 1000 ≤ (i 0).val ∧ (i 0).val < win2_8.index t (0 : Fin 2) * 1000 + 1000; omega
  | ⟨1, _⟩ => show win2_8.index t (1 : Fin 2) * 256 ≤ (i 1).val ∧ (i 1).val < win2_8.index t (1 : Fin 2) * 256 + 256; omega

/-- THE RESULT ARRAY after the region: the GRU cell of the operand arrays as the region finds them, row by row. -/
theorem final2 (c : Dev nD) :
    (dat2 V c).arrAt 8 cfg2.N = fun i =>
      Gnn.gruCell
        (fun p k => Gnn.relu (Gnn.dense (fun p k => (V c main_call0_v78 : S50000x256.Idx → EReal) (ix2 p k))
          (fun k q => (V c main_call0_v88 : S256x256.Idx → EReal) (ix2 k q))
          (fun q => (V c main_call0_v95 : S1x256.Idx → EReal) (ix2 0 q)) p k))
        (fun p k => (V c main_arg4 : S50000x256.Idx → EReal) (ix2 p k))
        (fun cc k => (V c main_call0_v82 : S256x768.Idx → EReal) (ix2 k cc))
        (fun cc k => (V c main_call0_v86 : S256x768.Idx → EReal) (ix2 k cc))
        (fun cc => (V c main_call0_v96 : S1x768.Idx → EReal) (ix2 0 cc))
        (fun cc => (V c main_call0_v97 : S1x768.Idx → EReal) (ix2 0 cc)) (i 0) (i 1) :=
  (dat2 V c).arrAt_eq_of_cover 8 (cell V c) (fun t _ => flushed_eq V c t) cover

end Array

end Cert.KernelIdeal.Region2

end
-- ==== Proof.KWeights.lean ====
/-
  The weights and biases as each kernel region finds them.

  Before a region starts, a stretch of host operations prepares its operands from the launch arguments: a matrix of a
  layer is cut out of the stack of the layers' matrices (a slice along the leading axis, then the unit axis dropped),
  an input or state weight matrix is in addition transposed, a bias row is cut out of the stack of rows, flattened and
  read again as a single row, and weight matrices are converted to a narrower format — which over the extended reals
  changes nothing. None of these moves a number: each entry of a prepared operand IS an entry of a launch argument,
  at the index stated here. A launch argument is written by no host operation and by no region, so at every boundary it
  still holds what it held at launch.
-/
import proofs.«169681_j33285996544265_2_alg».proof.Proof.KWalk
import Idealize.ShloMosaic.Lib.StableHlo.Run
import Idealize.ShloMosaic.Lib.ValueLayout
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! ## Layout reads used below -/

section Layout
variable {α : Type}

/-- A rank-3 array cut along axis 0 from o reads, at (j, a, e), the source at (k, a, e) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Layer l of a stack of matrices, cut out and read as a matrix: entry (i, j) is the stack's entry (l, i, j). -/
theorem stack_layer_apply {L a b : ℕ} (o : ℕ) (l : Fin L) (hl : l.val = o) (X : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 l i j) :=
  (shapeCast_1ab_ab_apply _ hc i j).trans (slice3_axis0_apply o X hs (0 : Fin 1) i j l (by rw [hl]; rfl))

/-- Layer l of a stack of matrices, cut out, read as a matrix and transposed: entry (j, i) is the stack's entry (l, i, j). -/
theorem stack_layer_transpose_apply {L a b : ℕ} (o : ℕ) (l : Fin L) (hl : l.val = o)
    (X : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] X hs) hc) ht (ix2 j i)
      = X (ix3 l i j) :=
  (transpose_ix2_apply _ ht j i).trans (stack_layer_apply o l hl X hs hc i j)

/-- Row l of a stack of rows, cut out, flattened and read again as one row: entry (0, i) is the stack's entry (l, i). -/
theorem stack_row_apply {L a : ℕ} (o : ℕ) (l : Fin L) (hl : l.val = o) (X : (⟨2, ![L, a]⟩ : Shape).Idx → α)
    (hs : (⟨2, ![L, a]⟩ : Shape).Slices ![o, 0] ⟨2, ![1, a]⟩)
    (hc1 : (⟨2, ![1, a]⟩ : Shape).ShapeCasts ⟨1, ![a]⟩) (hc2 : (⟨1, ![a]⟩ : Shape).ShapeCasts ⟨2, ![1, a]⟩)
    (u : Fin 1) (i : Fin a) :
    shapeCast ⟨2, ![1, a]⟩ (shapeCast ⟨1, ![a]⟩ (extractStridedSlice ⟨2, ![1, a]⟩ ![o, 0] X hs) hc1) hc2 (ix2 u i)
      = X (ix2 l i) :=
  (shapeCast_a_1a_apply _ hc2 u i).trans
    ((shapeCast_1a_a_apply _ hc1 i).trans (slice2_axis0_apply o X hs (0 : Fin 1) i l (by rw [hl]; rfl)))

end Layout

variable (m : (ℓ : Loc nD τ sig) → Buf (Elt Ideal) ℓ) (ρ : Dev nD → PrngReg) (c : Dev nD)

/-! ## The launch arguments at the boundary after region 0 -/

theorem W2_arg8 : W2 m ρ c (Proc.devRef .tc main_arg8) = m ((c : Thread nD τ).loc main_arg8) :=
  W2_launch m ρ c main_arg8 (by not_written) (by decide)

theorem W2_arg9 : W2 m ρ c (Proc.devRef .tc main_arg9) = m ((c : Thread nD τ).loc main_arg9) :=
  W2_launch m ρ c main_arg9 (by not_written) (by decide)

theorem W2_arg10 : W2 m ρ c (Proc.devRef .tc main_arg10) = m ((c : Thread nD τ).loc main_arg10) :=
  W2_launch m ρ c main_arg10 (by not_written) (by decide)

theorem W2_arg11 : W2 m ρ c (Proc.devRef .tc main_arg11) = m ((c : Thread nD τ).loc main_arg11) :=
  W2_launch m ρ c main_arg11 (by not_written) (by decide)

theorem W2_arg12 : W2 m ρ c (Proc.devRef .tc main_arg12) = m ((c : Thread nD τ).loc main_arg12) :=
  W2_launch m ρ c main_arg12 (by not_written) (by decide)

/-! ## Region 1 (layer 0): its operands at its entry -/

/-- The convolution weight of layer 0 is layer 0 of the stack of convolution weights. -/
theorem conv_weight_layer0 (k q : Fin 256) :
    (V3 m ρ c main_call0_v55 : S256x256.Idx → EReal) (ix2 k q)
      = (m ((c : Thread nD τ).loc main_arg7) : S2x256x256.Idx → EReal) (ix3 0 k q) := by
  have e : @Eq (S256x256.Idx → EReal) (V3 m ρ c main_call0_v55)
      (shapeCast S256x256 (extractStridedSlice S1x256x256 ![0, 0, 0]
        (truncf (F := Ideal) .bf16 (W2 m ρ c (Proc.devRef .tc main_arg7)) bitsLt_bf16_f32)
        slices_S2x256x256_S1x256x256_0_0_0) shapeCasts_S1x256x256_S256x256) := by
    show StableHlo.after hostOps1 (W2 m ρ c) (Proc.devRef .tc main_call0_v55) = _
    after_results_simp
    rfl
  refine (congrFun e (ix2 k q)).trans ?_
  refine (stack_layer_apply 0 (0 : Fin 2) rfl _ _ _ k q).trans ?_
  exact congrFun (W2_arg7 m ρ c) (ix3 0 k q)

/-- The convolution bias row of layer 0 is row 0 of the stack of convolution biases. -/
theorem conv_bias_layer0 (q : Fin 256) :
    (V3 m ρ c main_call0_v62 : S1x256.Idx → EReal) (ix2 0 q)
      = (m ((c : Thread nD τ).loc main_arg8) : S2x256.Idx → EReal) (ix2 0 q) := by
  have e : @Eq (S1x256.Idx → EReal) (V3 m ρ c main_call0_v62)
      (shapeCast S1x256 (shapeCast S256 (extractStridedSlice S1x256 ![0, 0]
        (W2 m ρ c (Proc.devRef .tc main_arg8) : S2x256.Idx → EReal)
        slices_S2x256_S1x256_0_0) shapeCasts_S1x256_S256) shapeCasts_S256_S1x256) := by
    show StableHlo.after hostOps1 (W2 m ρ c) (Proc.devRef .tc main_call0_v62) = _
    after_results_simp
    rfl
  refine (congrFun e (ix2 0 q)).trans ?_
  refine (stack_row_apply 0 (0 : Fin 2) rfl _ _ _ _ 0 q).trans ?_
  exact congrFun (W2_arg8 m ρ c) (ix2 0 q)

/-- The previous state of layer 0 is the launch argument. -/
theorem prev_state_layer0 : V3 m ρ c main_arg3 = m ((c : Thread nD τ).loc main_arg3) :=
  (W3_keep m ρ c main_arg3 (by not_written)).trans (W2_launch m ρ c main_arg3 (by not_written) (by decide))

/-- The input weight of layer 0's cell, transposed: entry (k, cc) is entry (0, cc, k) of the stack. -/
theorem gru_input_weight_layer0 (k : Fin 256) (cc : Fin 768) :
    (V3 m ρ c main_call0_v49 : S256x768.Idx → EReal) (ix2 k cc)
      = (m ((c : Thread nD τ).loc main_arg9) : S2x768x256.Idx → EReal) (ix3 0 cc k) := by
  have e : @Eq (S256x768.Idx → EReal) (V3 m ρ c main_call0_v49)
      (transpose S256x768 [1, 0] (shapeCast S768x256 (extractStridedSlice S1x768x256 ![0, 0, 0]
        (W2 m ρ c (Proc.devRef .tc main_arg9) : S2x768x256.Idx → EReal)
        slices_S2x768x256_S1x768x256_0_0_0) shapeCasts_S1x768x256_S768x256) transposes_S768x256_S256x768_1_0) := by
    show StableHlo.after hostOps1 (W2 m ρ c) (Proc.devRef .tc main_call0_v49) = _
    after_results_simp
    rfl
  refine (congrFun e (ix2 k cc)).trans ?_
  refine (stack_layer_transpose_apply 0 (0 : Fin 2) rfl _ _ _ _ k cc).trans ?_
  exact congrFun (W2_arg9 m ρ c) (ix3 0 cc k)

/-- The state weight of layer 0's cell, transposed: entry (k, cc) is entry (0, cc, k) of the stack. -/
theorem gru_state_weight_layer0 (k : Fin 256) (cc : Fin 768) :
    (V3 m ρ c main_call0_v53 : S256x768.Idx → EReal) (ix2 k cc)
      = (m ((c : Thread nD τ).loc main_arg10) : S2x768x256.Idx → EReal) (ix3 0 cc k) := by
  have e : @Eq (S256x768.Idx → EReal) (V3 m ρ c main_call0_v53)
      (transpose S256x768 [1, 0] (shapeCast S768x256 (extractStridedSlice S1x768x256 ![0, 0, 0]
        (W2 m ρ c (Proc.devRef .tc main_arg10) : S2x768x256.Idx → EReal)
        slices_S2x768x256_S1x768x256_0_0_0) shapeCasts_S1x768x256_S768x256) transposes_S768x256_S256x768_1_0) := by
    show StableHlo.after hostOps1 (W2 m ρ c) (Proc.devRef .tc main_call0_v53) = _
    after_results_simp
    rfl
  refine (congrFun e (ix2 k cc)).trans ?_
  refine (stack_layer_transpose_apply 0 (0 : Fin 2) rfl _ _ _ _ k cc).trans ?_
  exact congrFun (W2_arg10 m ρ c) (ix3 0 cc k)

/-- The input bias row of layer 0's cell is row 0 of the stack of input biases. -/
theorem gru_input_bias_layer0 (cc : Fin 768) :
    (V3 m ρ c main_call0_v63 : S1x768.Idx → EReal) (ix2 0 cc)
      = (m ((c : Thread nD τ).loc main_arg11) : S2x768.Idx → EReal) (ix2 0 cc) := by
  have e : @Eq (S1x768.Idx → EReal) (V3 m ρ c main_call0_v63)
      (shapeCast S1x768 (shapeCast S768 (extractStridedSlice S1x768 ![0, 0]
        (W2 m ρ c (Proc.devRef .tc main_arg11) : S2x768.Idx → EReal)
        slices_S2x768_S1x768_0_0) shapeCasts_S1x768_S768) shapeCasts_S768_S1x768) := by
    show StableHlo.after hostOps1 (W2 m ρ c) (Proc.devRef .tc main_call0_v63) = _
    after_results_simp
    rfl
  refine (congrFun e (ix2 0 cc)).trans ?_
  refine (stack_row_apply 0 (0 : Fin 2) rfl _ _ _ _ 0 cc).trans ?_
  exact congrFun (W2_arg11 m ρ c) (ix2 0 cc)

/-- The state bias row of layer 0's cell is row 0 of the stack of state biases. -/
theorem gru_state_bias_layer0 (cc : Fin 768) :
    (V3 m ρ c main_call0_v64 : S1x768.Idx → EReal) (ix2 0 cc)
      = (m ((c : Thread nD τ).loc main_arg12) : S2x768.Idx → EReal) (ix2 0 cc) := by
  have e : @Eq (S1x768.Idx → EReal) (V3 m ρ c main_call0_v64)
      (shapeCast S1x768 (shapeCast S768 (extractStridedSlice S1x768 ![0, 0]
        (W2 m ρ c (Proc.devRef .tc main_arg12) : S2x768.Idx → EReal)
        slices_S2x768_S1x768_0_0) shapeCasts_S1x768_S768) shapeCasts_S768_S1x768) := by
    show StableHlo.after hostOps1 (W2 m ρ c) (Proc.devRef .tc main_call0_v64) = _
    after_results_simp
    rfl
  refine (congrFun e (ix2 0 cc)).trans ?_
  refine (stack_row_apply 0 (0 : Fin 2) rfl _ _ _ _ 0 cc).trans ?_
  exact congrFun (W2_arg12 m ρ c) (ix2 0 cc)

/-! ## The launch arguments at the boundary after region 1 -/

theorem W4_arg8 : W4 m ρ c (Proc.devRef .tc main_arg8) = m ((c : Thread nD τ).loc main_arg8) :=
  W4_launch m ρ c main_arg8 (by not_written) (by decide) (by not_written) (by decide)

theorem W4_arg9 : W4 m ρ c (Proc.devRef .tc main_arg9) = m ((c : Thread nD τ).loc main_arg9) :=
  W4_launch m ρ c main_arg9 (by not_written) (by decide) (by not_written) (by decide)

theorem W4_arg10 : W4 m ρ c (Proc.devRef .tc main_arg10) = m ((c : Thread nD τ).loc main_arg10) :=
  W4_launch m ρ c main_arg10 (by not_written) (by decide) (by not_written) (by decide)

theorem W4_arg11 : W4 m ρ c (Proc.devRef .tc main_arg11) = m ((c : Thread nD τ).loc main_arg11) :=
  W4_launch m ρ c main_arg11 (by not_written) (by decide) (by not_written) (by decide)

theorem W4_arg12 : W4 m ρ c (Proc.devRef .tc main_arg12) = m ((c : Thread nD τ).loc main_arg12) :=
  W4_launch m ρ c main_arg12 (by not_written) (by decide) (by not_written) (by decide)

/-- The converted stack of convolution weights, computed before region 1, still holds the launch argument's entries at
    the boundary after region 1 (the conversion changes no extended real). -/
theorem W4_v32 : @Eq (S2x256x256.Idx → EReal) (W4 m ρ c (Proc.devRef .tc main_call0_v32))
    (m ((c : Thread nD τ).loc main_arg7)) := by
  have e3 : @Eq (S2x256x256.Idx → EReal) (W3 m ρ c (Proc.devRef .tc main_call0_v32))
      (truncf (F := Ideal) .bf16 (W2 m ρ c (Proc.devRef .tc main_arg7) : S2x256x256.Idx → EReal) bitsLt_bf16_f32) := by
    show StableHlo.after hostOps1 (W2 m ρ c) (Proc.devRef .tc main_call0_v32) = _
    after_results_simp
    rfl
  exact (W4_of_ne m ρ c main_call0_v32 (by decide)).trans (e3.trans (W2_arg7 m ρ c))

/-! ## Region 2 (layer 1): its operands at its entry -/

/-- The convolution weight of layer 1 is layer 1 of the stack of convolution weights. -/
theorem conv_weight_layer1 (k q : Fin 256) :
    (V5 m ρ c main_call0_v88 : S256x256.Idx → EReal) (ix2 k q)
      = (m ((c : Thread nD τ).loc main_arg7) : S2x256x256.Idx → EReal) (ix3 1 k q) := by
  have e : @Eq (S256x256.Idx → EReal) (V5 m ρ c main_call0_v88)
      (shapeCast S256x256 (extractStridedSlice S1x256x256 ![1, 0, 0]
        (W4 m ρ c (Proc.devRef .tc main_call0_v32) : S2x256x256.Idx → EReal)
        slices_S2x256x256_S1x256x256_1_0_0) shapeCasts_S1x256x256_S256x256) := by
    show StableHlo.after hostOps2 (W4 m ρ c) (Proc.devRef .tc main_call0_v88) = _
    after_results_simp
    rfl
  refine (congrFun e (ix2 k q)).trans ?_
  refine (stack_layer_apply 1 (1 : Fin 2) rfl _ _ _ k q).trans ?_
  exact congrFun (W4_v32 m ρ c) (ix3 1 k q)

/-- The convolution bias row of layer 1 is row 1 of the stack of convolution biases. -/
theorem conv_bias_layer1 (q : Fin 256) :
    (V5 m ρ c main_call0_v95 : S1x256.Idx → EReal) (ix2 0 q)
      = (m ((c : Thread nD τ).loc main_arg8) : S2x256.Idx → EReal) (ix2 1 q) := by
  have e : @Eq (S1x256.Idx → EReal) (V5 m ρ c main_call0_v95)
      (shapeCast S1x256 (shapeCast S256 (extractStridedSlice S1x256 ![1, 0]
        (W4 m ρ c (Proc.devRef .tc main_arg8) : S2x256.Idx → EReal)
        slices_S2x256_S1x256_1_0) shapeCasts_S1x256_S256) shapeCasts_S256_S1x256) := by
    show StableHlo.after hostOps2 (W4 m ρ c) (Proc.devRef .tc main_call0_v95) = _
    after_results_simp
    rfl
  refine (congrFun e (ix2 0 q)).trans ?_
  refine (stack_row_apply 1 (1 : Fin 2) rfl _ _ _ _ 0 q).trans ?_
  exact congrFun (W4_arg8 m ρ c) (ix2 1 q)

/-- The previous state of layer 1 is the launch argument. -/
theorem prev_state_layer1 : V5 m ρ c main_arg4 = m ((c : Thread nD τ).loc main_arg4) :=
  (W5_keep m ρ c main_arg4 (by not_written)).trans
    (W4_launch m ρ c main_arg4 (by not_written) (by decide) (by not_written) (by decide))

/-- The input weight of layer 1's cell, transposed: entry (k, cc) is entry (1, cc, k) of the stack. -/
theorem gru_input_weight_layer1 (k : Fin 256) (cc : Fin 768) :
    (V5 m ρ c main_call0_v82 : S256x768.Idx → EReal) (ix2 k cc)
      = (m ((c : Thread nD τ).loc main_arg9) : S2x768x256.Idx → EReal) (ix3 1 cc k) := by
  have e : @Eq (S256x768.Idx → EReal) (V5 m ρ c main_call0_v82)
      (transpose S256x768 [1, 0] (shapeCast S768x256 (extractStridedSlice S1x768x256 ![1, 0, 0]
        (W4 m ρ c (Proc.devRef .tc main_arg9) : S2x768x256.Idx → EReal)
        slices_S2x768x256_S1x768x256_1_0_0) shapeCasts_S1x768x256_S768x256) transposes_S768x256_S256x768_1_0) := by
    show StableHlo.after hostOps2 (W4 m ρ c) (Proc.devRef .tc main_call0_v82) = _
    after_results_simp
    rfl
  refine (congrFun e (ix2 k cc)).trans ?_
  refine (stack_layer_transpose_apply 1 (1 : Fin 2) rfl _ _ _ _ k cc).trans ?_
  exact congrFun (W4_arg9 m ρ c) (ix3 1 cc k)

/-- The state weight of layer 1's cell, transposed: entry (k, cc) is entry (1, cc, k) of the stack. -/
theorem gru_state_weight_layer1 (k : Fin 256) (cc : Fin 768) :
    (V5 m ρ c main_call0_v86 : S256x768.Idx → EReal) (ix2 k cc)
      = (m ((c : Thread nD τ).loc main_arg10) : S2x768x256.Idx → EReal) (ix3 1 cc k) := by
  have e : @Eq (S256x768.Idx → EReal) (V5 m ρ c main_call0_v86)
      (transpose S256x768 [1, 0] (shapeCast S768x256 (extractStridedSlice S1x768x256 ![1, 0, 0]
        (W4 m ρ c (Proc.devRef .tc main_arg10) : S2x768x256.Idx → EReal)
        slices_S2x768x256_S1x768x256_1_0_0) shapeCasts_S1x768x256_S768x256) transposes_S768x256_S256x768_1_0) := by
    show StableHlo.after hostOps2 (W4 m ρ c) (Proc.devRef .tc main_call0_v86) = _
    after_results_simp
    rfl
  refine (congrFun e (ix2 k cc)).trans ?_
  refine (stack_layer_transpose_apply 1 (1 : Fin 2) rfl _ _ _ _ k cc).trans ?_
  exact congrFun (W4_arg10 m ρ c) (ix3 1 cc k)

/-- The input bias row of layer 1's cell is row 1 of the stack of input biases. -/
theorem gru_input_bias_layer1 (q : Fin 768) :
    (V5 m ρ c main_call0_v96 : S1x768.Idx → EReal) (ix2 0 q)
      = (m ((c : Thread nD τ).loc main_arg11) : S2x768.Idx → EReal) (ix2 1 q) := by
  have e : @Eq (S1x768.Idx → EReal) (V5 m ρ c main_call0_v96)
      (shapeCast S1x768 (shapeCast S768 (extractStridedSlice S1x768 ![1, 0]
        (W4 m ρ c (Proc.devRef .tc main_arg11) : S2x768.Idx → EReal)
        slices_S2x768_S1x768_1_0) shapeCasts_S1x768_S768) shapeCasts_S768_S1x768) := by
    show StableHlo.after hostOps2 (W4 m ρ c) (Proc.devRef .tc main_call0_v96) = _
    after_results_simp
    rfl
  refine (congrFun e (ix2 0 q)).trans ?_
  refine (stack_row_apply 1 (1 : Fin 2) rfl _ _ _ _ 0 q).trans ?_
  exact congrFun (W4_arg11 m ρ c) (ix2 1 q)

/-- The state bias row of layer 1's cell is row 1 of the stack of state biases. -/
theorem gru_state_bias_layer1 (q : Fin 768) :
    (V5 m ρ c main_call0_v97 : S1x768.Idx → EReal) (ix2 0 q)
      = (m ((c : Thread nD τ).loc main_arg12) : S2x768.Idx → EReal) (ix2 1 q) := by
  have e : @Eq (S1x768.Idx → EReal) (V5 m ρ c main_call0_v97)
      (shapeCast S1x768 (shapeCast S768 (extractStridedSlice S1x768 ![1, 0]
        (W4 m ρ c (Proc.devRef .tc main_arg12) : S2x768.Idx → EReal)
        slices_S2x768_S1x768_1_0) shapeCasts_S1x768_S768) shapeCasts_S768_S1x768) := by
    show StableHlo.after hostOps2 (W4 m ρ c) (Proc.devRef .tc main_call0_v97) = _
    after_results_simp
    rfl
  refine (congrFun e (ix2 0 q)).trans ?_
  refine (stack_row_apply 1 (1 : Fin 2) rfl _ _ _ _ 0 q).trans ?_
  exact congrFun (W4_arg12 m ρ c) (ix2 1 q)

/-! ## Region 0 (the dense pre-transform): its operands at its entry -/

/-- The node features are the launch argument. -/
theorem features_region0 : V1 m ρ c main_arg0 = m ((c : Thread nD τ).loc main_arg0) :=
  W1_keep m ρ c main_arg0 (by not_written)

/-- The pre-transform's weight is the launch argument's, entry by entry (the conversion changes no extended real). -/
theorem pre_weight (k : Fin 128) (q : Fin 256) :
    (V1 m ρ c main_call0_v29 : S128x256.Idx → EReal) (ix2 k q)
      = (m ((c : Thread nD τ).loc main_arg5) : S128x256.Idx → EReal) (ix2 k q) := by
  have e : @Eq (S128x256.Idx → EReal) (V1 m ρ c main_call0_v29)
      (truncf (F := Ideal) .bf16 (W0 m ρ c (Proc.devRef .tc main_arg5) : S128x256.Idx → EReal) bitsLt_bf16_f32) := by
    show StableHlo.after hostOps0 (W0 m ρ c) (Proc.devRef .tc main_call0_v29) = _
    after_results_simp
    rfl
  exact congrFun e (ix2 k q)

/-- The pre-transform's bias row is the launch argument read as one row. -/
theorem pre_bias (q : Fin 256) :
    (V1 m ρ c main_call0_v30 : S1x256.Idx → EReal) (ix2 0 q)
      = (m ((c : Thread nD τ).loc main_arg6) : S256.Idx → EReal) (ix1 q) := by
  have e : @Eq (S1x256.Idx → EReal) (V1 m ρ c main_call0_v30)
      (shapeCast S1x256 (W0 m ρ c (Proc.devRef .tc main_arg6) : S256.Idx → EReal) shapeCasts_S256_S1x256) := by
    show StableHlo.after hostOps0 (W0 m ρ c) (Proc.devRef .tc main_call0_v30) = _
    after_results_simp
    rfl
  refine (congrFun e (ix2 0 q)).trans ?_
  exact shapeCast_a_1a_apply _ _ 0 q

/-! ## The launch arguments at the boundary after region 2 -/

theorem W6_arg13 : W6 m ρ c (Proc.devRef .tc main_arg13) = m ((c : Thread nD τ).loc main_arg13) :=
  W6_launch m ρ c main_arg13 (by not_written) (by decide) (by not_written) (by decide) (by not_written) (by decide)

theorem W6_arg14 : W6 m ρ c (Proc.devRef .tc main_arg14) = m ((c : Thread nD τ).loc main_arg14) :=
  W6_launch m ρ c main_arg14 (by not_written) (by decide) (by not_written) (by decide) (by not_written) (by decide)

/-! ## Region 3 (the edge score): its operands at its entry -/

/-- The score's weight is the launch argument's, entry by entry (the conversion changes no extended real). -/
theorem score_weight (k : Fin 256) (cc : Fin 2) :
    (V7 m ρ c main_call0_v118 : S256x2.Idx → EReal) (ix2 k cc)
      = (m ((c : Thread nD τ).loc main_arg13) : S256x2.Idx → EReal) (ix2 k cc) := by
  have e : @Eq (S256x2.Idx → EReal) (V7 m ρ c main_call0_v118)
      (truncf (F := Ideal) .bf16 (W6 m ρ c (Proc.devRef .tc main_arg13) : S256x2.Idx → EReal) bitsLt_bf16_f32) := by
    show StableHlo.after hostOps3 (W6 m ρ c) (Proc.devRef .tc main_call0_v118) = _
    after_results_simp
    rfl
  refine (congrFun e (ix2 k cc)).trans ?_
  exact congrFun (W6_arg13 m ρ c) (ix2 k cc)

/-- The score's bias row is the launch argument read as one row. -/
theorem score_bias (cc : Fin 2) :
    (V7 m ρ c main_call0_v119 : S1x2.Idx → EReal) (ix2 0 cc)
      = (m ((c : Thread nD τ).loc main_arg14) : S2.Idx → EReal) (ix1 cc) := by
  have e : @Eq (S1x2.Idx → EReal) (V7 m ρ c main_call0_v119)
      (shapeCast S1x2 (W6 m ρ c (Proc.devRef .tc main_arg14) : S2.Idx → EReal) shapeCasts_S2_S1x2) := by
    show StableHlo.after hostOps3 (W6 m ρ c) (Proc.devRef .tc main_call0_v119) = _
    after_results_simp
    rfl
  refine (congrFun e (ix2 0 cc)).trans ?_
  refine (shapeCast_a_1a_apply _ _ 0 cc).trans ?_
  exact congrFun (W6_arg14 m ρ c) (ix1 cc)

end Cert.KernelIdeal.KValue

end
-- ==== Proof.KLayerValue.lean ====
/-
  The two GRU regions of the idealized kernel's run as layers of the network.

  Each region's closed form gives its output array as the GRU cell of its input arrays. At the region's entry the first
  input array is the aggregation of the previous stage's rows over the edges, and the other inputs are the layer's slice
  of the weight and bias arguments. Substituting, the region's output rows are `Gnn.layerAP` of the previous stage's rows:
  aggregate, project through the dense layer, clip, and enter the cell.
-/
import proofs.«169681_j33285996544265_2_alg».proof.Proof.KLayer
import proofs.«169681_j33285996544265_2_alg».proof.Proof.KRegion1
import proofs.«169681_j33285996544265_2_alg».proof.Proof.KRegion2
import proofs.«169681_j33285996544265_2_alg».proof.Proof.KWeights

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Region 1's output rows are layer 0, in the aggregate-then-project order, of the previous stage's rows. -/
theorem layer0_value (p : Fin 50000) (q : Fin 256) :
    (W4 m ρ c (Proc.devRef .tc main_call0_v65) : S50000x256.Idx → EReal) (ix2 p q)
      = Gnn.layerAP (ScatterRows.tgt 50000 (V3 m ρ c main_call0_v44)) (GatherRows.row 50000 (by decide) (V3 m ρ c main_call0_v38))
          (fun e => (W2 m ρ c (Proc.devRef .tc main_call0_v28) : S850000.Idx → EReal) (ix1 e))
          (fun p k => (W2 m ρ c (Proc.devRef .tc main_call0_v31) : S50000x256.Idx → EReal) (ix2 p k))
          (fun k q => (m ((c : Thread nD τ).loc main_arg7) : S2x256x256.Idx → EReal) (ix3 0 k q))
          (fun q => (m ((c : Thread nD τ).loc main_arg8) : S2x256.Idx → EReal) (ix2 0 q))
          (fun p k => (m ((c : Thread nD τ).loc main_arg3) : S50000x256.Idx → EReal) (ix2 p k))
          (fun cc k => (m ((c : Thread nD τ).loc main_arg9) : S2x768x256.Idx → EReal) (ix3 0 cc k))
          (fun cc k => (m ((c : Thread nD τ).loc main_arg10) : S2x768x256.Idx → EReal) (ix3 0 cc k))
          (fun cc => (m ((c : Thread nD τ).loc main_arg11) : S2x768.Idx → EReal) (ix2 0 cc))
          (fun cc => (m ((c : Thread nD τ).loc main_arg12) : S2x768.Idx → EReal) (ix2 0 cc)) p q := by
  have h8 : (W4 m ρ c (Proc.devRef .tc main_call0_v65) : S50000x256.Idx → EReal) = (dat1 (V3 m ρ) c).arrAt 8 cfg1.N :=
    W4_arr m ρ c 8
  have e1 : (fun (p : Fin 50000) (k : Fin 256) => (V3 m ρ c main_call0_v45 : S50000x256.Idx → EReal) (ix2 p k))
      = Gnn.aggregate (ScatterRows.tgt 50000 (V3 m ρ c main_call0_v44)) (GatherRows.row 50000 (by decide) (V3 m ρ c main_call0_v38))
          (fun e => (W2 m ρ c (Proc.devRef .tc main_call0_v28) : S850000.Idx → EReal) (ix1 e))
          (fun p k => (W2 m ρ c (Proc.devRef .tc main_call0_v31) : S50000x256.Idx → EReal) (ix2 p k)) :=
    funext fun p => funext fun k => agg_layer0 m ρ c p k
  have e2 : (fun (k q : Fin 256) => (V3 m ρ c main_call0_v55 : S256x256.Idx → EReal) (ix2 k q))
      = fun k q => (m ((c : Thread nD τ).loc main_arg7) : S2x256x256.Idx → EReal) (ix3 0 k q) :=
    funext fun k => funext fun q => conv_weight_layer0 m ρ c k q
  have e3 : (fun q : Fin 256 => (V3 m ρ c main_call0_v62 : S1x256.Idx → EReal) (ix2 0 q))
      = fun q => (m ((c : Thread nD τ).loc main_arg8) : S2x256.Idx → EReal) (ix2 0 q) :=
    funext fun q => conv_bias_layer0 m ρ c q
  have e4 : (fun (p : Fin 50000) (k : Fin 256) => (V3 m ρ c main_arg3 : S50000x256.Idx → EReal) (ix2 p k))
      = fun p k => (m ((c : Thread nD τ).loc main_arg3) : S50000x256.Idx → EReal) (ix2 p k) := by
    rw [prev_state_layer0 m ρ c]
  have e5 : (fun (cc : Fin 768) (k : Fin 256) => (V3 m ρ c main_call0_v49 : S256x768.Idx → EReal) (ix2 k cc))
      = fun cc k => (m ((c : Thread nD τ).loc main_arg9) : S2x768x256.Idx → EReal) (ix3 0 cc k) :=
    funext fun cc => funext fun k => gru_input_weight_layer0 m ρ c k cc
  have e6 : (fun (cc : Fin 768) (k : Fin 256) => (V3 m ρ c main_call0_v53 : S256x768.Idx → EReal) (ix2 k cc))
      = fun cc k => (m ((c : Thread nD τ).loc main_arg10) : S2x768x256.Idx → EReal) (ix3 0 cc k) :=
    funext fun cc => funext fun k => gru_state_weight_layer0 m ρ c k cc
  have e7 : (fun cc : Fin 768 => (V3 m ρ c main_call0_v63 : S1x768.Idx → EReal) (ix2 0 cc))
      = fun cc => (m ((c : Thread nD τ).loc main_arg11) : S2x768.Idx → EReal) (ix2 0 cc) :=
    funext fun cc => gru_input_bias_layer0 m ρ c cc
  have e8 : (fun cc : Fin 768 => (V3 m ρ c main_call0_v64 : S1x768.Idx → EReal) (ix2 0 cc))
      = fun cc => (m ((c : Thread nD τ).loc main_arg12) : S2x768.Idx → EReal) (ix2 0 cc) :=
    funext fun cc => gru_state_bias_layer0 m ρ c cc
  rw [h8, Region1.final1 (V3 m ρ) c]
  show Gnn.gruCell
      (fun (p : Fin 50000) (k : Fin 256) => Gnn.relu (Gnn.dense
        (fun (p : Fin 50000) (k : Fin 256) => (V3 m ρ c main_call0_v45 : S50000x256.Idx → EReal) (ix2 p k))
        (fun (k q : Fin 256) => (V3 m ρ c main_call0_v55 : S256x256.Idx → EReal) (ix2 k q))
        (fun q : Fin 256 => (V3 m ρ c main_call0_v62 : S1x256.Idx → EReal) (ix2 0 q)) p k))
      (fun (p : Fin 50000) (k : Fin 256) => (V3 m ρ c main_arg3 : S50000x256.Idx → EReal) (ix2 p k))
      (fun (cc : Fin 768) (k : Fin 256) => (V3 m ρ c main_call0_v49 : S256x768.Idx → EReal) (ix2 k cc))
      (fun (cc : Fin 768) (k : Fin 256) => (V3 m ρ c main_call0_v53 : S256x768.Idx → EReal) (ix2 k cc))
      (fun cc : Fin 768 => (V3 m ρ c main_call0_v63 : S1x768.Idx → EReal) (ix2 0 cc))
      (fun cc : Fin 768 => (V3 m ρ c main_call0_v64 : S1x768.Idx → EReal) (ix2 0 cc)) p q = _
  rw [e1, e2, e3, e4, e5, e6, e7, e8]
  rfl

/-- Region 2's output rows are layer 1, in the aggregate-then-project order, of the previous stage's rows. -/
theorem layer1_value (p : Fin 50000) (q : Fin 256) :
    (W6 m ρ c (Proc.devRef .tc main_call0_v98) : S50000x256.Idx → EReal) (ix2 p q)
      = Gnn.layerAP (ScatterRows.tgt 50000 (V5 m ρ c main_call0_v77)) (GatherRows.row 50000 (by decide) (V5 m ρ c main_call0_v71))
          (fun e => (W4 m ρ c (Proc.devRef .tc main_call0_v28) : S850000.Idx → EReal) (ix1 e))
          (fun p k => (W4 m ρ c (Proc.devRef .tc main_call0_v65) : S50000x256.Idx → EReal) (ix2 p k))
          (fun k q => (m ((c : Thread nD τ).loc main_arg7) : S2x256x256.Idx → EReal) (ix3 1 k q))
          (fun q => (m ((c : Thread nD τ).loc main_arg8) : S2x256.Idx → EReal) (ix2 1 q))
          (fun p k => (m ((c : Thread nD τ).loc main_arg4) : S50000x256.Idx → EReal) (ix2 p k))
          (fun cc k => (m ((c : Thread nD τ).loc main_arg9) : S2x768x256.Idx → EReal) (ix3 1 cc k))
          (fun cc k => (m ((c : Thread nD τ).loc main_arg10) : S2x768x256.Idx → EReal) (ix3 1 cc k))
          (fun cc => (m ((c : Thread nD τ).loc main_arg11) : S2x768.Idx → EReal) (ix2 1 cc))
          (fun cc => (m ((c : Thread nD τ).loc main_arg12) : S2x768.Idx → EReal) (ix2 1 cc)) p q := by
  have h8 : (W6 m ρ c (Proc.devRef .tc main_call0_v98) : S50000x256.Idx → EReal) = (dat2 (V5 m ρ) c).arrAt 8 cfg2.N :=
    W6_arr m ρ c 8
  have e1 : (fun (p : Fin 50000) (k : Fin 256) => (V5 m ρ c main_call0_v78 : S50000x256.Idx → EReal) (ix2 p k))
      = Gnn.aggregate (ScatterRows.tgt 50000 (V5 m ρ c main_call0_v77)) (GatherRows.row 50000 (by decide) (V5 m ρ c main_call0_v71))
          (fun e => (W4 m ρ c (Proc.devRef .tc main_call0_v28) : S850000.Idx → EReal) (ix1 e))
          (fun p k => (W4 m ρ c (Proc.devRef .tc main_call0_v65) : S50000x256.Idx → EReal) (ix2 p k)) :=
    funext fun p => funext fun k => agg_layer1 m ρ c p k
  have e2 : (fun (k q : Fin 256) => (V5 m ρ c main_call0_v88 : S256x256.Idx → EReal) (ix2 k q))
      = fun k q => (m ((c : Thread nD τ).loc main_arg7) : S2x256x256.Idx → EReal) (ix3 1 k q) :=
    funext fun k => funext fun q => conv_weight_layer1 m ρ c k q
  have e3 : (fun q : Fin 256 => (V5 m ρ c main_call0_v95 : S1x256.Idx → EReal) (ix2 0 q))
      = fun q => (m ((c : Thread nD τ).loc main_arg8) : S2x256.Idx → EReal) (ix2 1 q) :=
    funext fun q => conv_bias_layer1 m ρ c q
  have e4 : (fun (p : Fin 50000) (k : Fin 256) => (V5 m ρ c main_arg4 : S50000x256.Idx → EReal) (ix2 p k))
      = fun p k => (m ((c : Thread nD τ).loc main_arg4) : S50000x256.Idx → EReal) (ix2 p k) := by
    rw [prev_state_layer1 m ρ c]
  have e5 : (fun (cc : Fin 768) (k : Fin 256) => (V5 m ρ c main_call0_v82 : S256x768.Idx → EReal) (ix2 k cc))
      = fun cc k => (m ((c : Thread nD τ).loc main_arg9) : S2x768x256.Idx → EReal) (ix3 1 cc k) :=
    funext fun cc => funext fun k => gru_input_weight_layer1 m ρ c k cc
  have e6 : (fun (cc : Fin 768) (k : Fin 256) => (V5 m ρ c main_call0_v86 : S256x768.Idx → EReal) (ix2 k cc))
      = fun cc k => (m ((c : Thread nD τ).loc main_arg10) : S2x768x256.Idx → EReal) (ix3 1 cc k) :=
    funext fun cc => funext fun k => gru_state_weight_layer1 m ρ c k cc
  have e7 : (fun cc : Fin 768 => (V5 m ρ c main_call0_v96 : S1x768.Idx → EReal) (ix2 0 cc))
      = fun cc => (m ((c : Thread nD τ).loc main_arg11) : S2x768.Idx → EReal) (ix2 1 cc) :=
    funext fun cc => gru_input_bias_layer1 m ρ c cc
  have e8 : (fun cc : Fin 768 => (V5 m ρ c main_call0_v97 : S1x768.Idx → EReal) (ix2 0 cc))
      = fun cc => (m ((c : Thread nD τ).loc main_arg12) : S2x768.Idx → EReal) (ix2 1 cc) :=
    funext fun cc => gru_state_bias_layer1 m ρ c cc
  rw [h8, Region2.final2 (V5 m ρ) c]
  show Gnn.gruCell
      (fun (p : Fin 50000) (k : Fin 256) => Gnn.relu (Gnn.dense
        (fun (p : Fin 50000) (k : Fin 256) => (V5 m ρ c main_call0_v78 : S50000x256.Idx → EReal) (ix2 p k))
        (fun (k q : Fin 256) => (V5 m ρ c main_call0_v88 : S256x256.Idx → EReal) (ix2 k q))
        (fun q : Fin 256 => (V5 m ρ c main_call0_v95 : S1x256.Idx → EReal) (ix2 0 q)) p k))
      (fun (p : Fin 50000) (k : Fin 256) => (V5 m ρ c main_arg4 : S50000x256.Idx → EReal) (ix2 p k))
      (fun (cc : Fin 768) (k : Fin 256) => (V5 m ρ c main_call0_v82 : S256x768.Idx → EReal) (ix2 k cc))
      (fun (cc : Fin 768) (k : Fin 256) => (V5 m ρ c main_call0_v86 : S256x768.Idx → EReal) (ix2 k cc))
      (fun cc : Fin 768 => (V5 m ρ c main_call0_v96 : S1x768.Idx → EReal) (ix2 0 cc))
      (fun cc : Fin 768 => (V5 m ρ c main_call0_v97 : S1x768.Idx → EReal) (ix2 0 cc)) p q = _
  rw [e1, e2, e3, e4, e5, e6, e7, e8]
  rfl

end Cert.KernelIdeal.KValue

end
-- ==== Proof.KRegion0.lean ====
/-
  The pre-transform region of the kernel, read in closed form.

  The region's body multiplies a block of 2000 rows of the node features by the weight matrix, adds the bias row and clips
  below at zero. The body's result at an entry `(p, q)` of a block is therefore the clipped dense layer of the block's rows
  (`pretrans_payload`). The grid has 25 points; point `t` reads rows `2000 t … 2000 t + 1999` of the features and writes the same
  rows of the result, and reads the whole weight matrix and the whole bias row. So what point `t` writes back is block `t` of
  ONE function of the region's input arrays — the clipped dense layer of all 50000 rows — and since the 25 blocks tile the
  result array, the array ends holding that function (`final0`).
-/
import proofs.«169681_j33285996544265_2_alg».proof.Proof.Gen.KernelIdeal.Frame
import proofs.«169681_j33285996544265_2_alg».proof.Proof.Spec
import proofs.«169681_j33285996544265_2_alg».proof.Proof.LibDense
import Idealize.ShloMosaic.Lib.Pipeline.Value

noncomputable section

namespace Cert.KernelIdeal.KRegion0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's result at an entry of a block -/

/-- The body's stored value at entry `(p, q)`: row `p` of the block of features against column `q` of the weights, plus the
    bias entry `q`, clipped below at zero. -/
theorem pretrans_payload (x0 : Vec Ideal S2000x128 .f32) (x1 : Vec Ideal S128x256 .bf16) (x2 : Vec Ideal S1x256 .f32)
    (p : Fin 2000) (q : Fin 256) :
    k0_pay1 (F := Ideal) x0 x1 x2 (ix2 p q)
      = Gnn.relu (Gnn.dense (fun p k => (x0 (ix2 p k) : EReal)) (fun k q => (x1 (ix2 k q) : EReal)) (fun q => (x2 (ix2 0 q) : EReal)) p q) := by
  unfold k0_pay1
  simp only [shapeCast_self]
  refine (maximumf_apply _ _ (ix2 p q)).trans ?_
  refine (congrArg₂ max (DenseBody.apply (φ₁ := .bf16) (φ₂ := .bf16) ⟨rfl, rfl, rfl, rfl, rfl, rfl⟩ none (truncf .bf16 x0 bitsLt_bf16_f32) x1 x2 broadcasts_S1x256_S2000x256 p q) Gnn.ofBits_zero).trans ?_
  rfl

/-! ## A block of the clipped dense layer is the clipped dense layer of the block's rows -/

/-- If block rows `x0` are rows `T·2000 + p` of `X`, and the block's weights and bias are `W` and `B`, then the clipped
    dense layer of the block at `(p, q)` is the clipped dense layer of the whole arrays at the entry `i` whose row is
    `T·2000 + p` and whose column is `q`. -/
theorem dense_block (X : S50000x128.Idx → EReal) (W : S128x256.Idx → EReal) (B : S1x256.Idx → EReal)
    (x0 : S2000x128.Idx → EReal) (x1 : S128x256.Idx → EReal) (x2 : S1x256.Idx → EReal)
    (T : ℕ) (p : Fin 2000) (q : Fin 256) (i : S50000x256.Idx)
    (h0 : (i 0).val = T * 2000 + p.val) (h1 : (i 1).val = q.val)
    (hx0 : ∀ (k : Fin 128) (P : Fin 50000), P.val = T * 2000 + p.val → x0 (ix2 p k) = X (ix2 P k))
    (hx1 : ∀ (k : Fin 128) (q : Fin 256), x1 (ix2 k q) = W (ix2 k q))
    (hx2 : ∀ q : Fin 256, x2 (ix2 0 q) = B (ix2 0 q)) :
    Gnn.relu (Gnn.dense (fun p k => x0 (ix2 p k)) (fun k q => x1 (ix2 k q)) (fun q => x2 (ix2 0 q)) p q)
      = Gnn.relu (Gnn.dense (fun (p : Fin 50000) (k : Fin 128) => X (ix2 p k)) (fun (k : Fin 128) (q : Fin 256) => W (ix2 k q))
          (fun q : Fin 256 => B (ix2 0 q)) (i 0) (i 1)) := by
  obtain ⟨P, Q, rfl⟩ : ∃ (P : Fin 50000) (Q : Fin 256), i = ix2 P Q := ⟨i 0, i 1, eq_ix2 i⟩
  have h0' : P.val = T * 2000 + p.val := h0
  obtain rfl : Q = q := Fin.ext h1
  show _ = Gnn.relu (Gnn.dense _ _ _ P Q)
  unfold Gnn.dense
  simp only [hx0 _ P h0', hx1, hx2]

/-! ## The grid: which rows each point reads and writes -/

theorem zero_offsets : (![0, 0] : Fin 2 → Nat) = fun _ => 0 := funext fun a => by fin_cases a <;> rfl

/-- The index maps over the 25 points: the features' and the result's block index is the point, on rows, and zero on
    columns; the weights' and the bias's block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region
variable (V : (c : Dev nD) → (b : Ref sig .tc) → Buf (Elt Ideal) ((c : Thread nD τ).loc b))

/-- The region's result array as ONE function of its input arrays: the clipped dense layer, entry by entry. -/
abbrev pretransOf (c : Dev nD) : S50000x256.Idx → EReal := fun i =>
  Gnn.relu (Gnn.dense (fun (p : Fin 50000) (k : Fin 128) => (V c main_arg0 (ix2 p k) : EReal))
    (fun (k : Fin 128) (q : Fin 256) => (V c main_call0_v29 (ix2 k q) : EReal))
    (fun q : Fin 256 => (V c main_call0_v30 (ix2 0 q) : EReal)) (i 0) (i 1))

/-- Row `p` of the features' block at point `t` is row `2000 t + p` of the features. -/
theorem features_block (c : Dev nD) (t : Fin cfg0.N) (p : Fin 2000) (k : Fin 128) (P : Fin 50000)
    (hP : P.val = t.val * 2000 + p.val) :
    (iblk0 V c 0 t : S2000x128.Idx → EReal) (ix2 p k) = V c main_arg0 (ix2 P k) := by
  obtain ⟨e0, e1, -⟩ := block_indices t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = P.val; omega
  | ⟨1, _⟩ => show win0_0.index t (1 : Fin 2) * 128 + 1 * k.val = k.val; omega

/-- The weights' block at every point is the weight matrix. -/
theorem weights_block (c : Dev nD) (t : Fin cfg0.N) (k : Fin 128) (q : Fin 256) :
    (iblk0 V c 1 t : S128x256.Idx → EReal) (ix2 k q) = V c main_call0_v29 (ix2 k q) := by
  obtain ⟨-, -, e0, e1, -⟩ := block_indices t
  unfold iblk0
  rw [View.read_apply]
  show V c main_call0_v29 _ = V c main_call0_v29 _
  refine congrArg (V c main_call0_v29) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The bias's block at every point is the bias row. -/
theorem bias_block (c : Dev nD) (t : Fin cfg0.N) (q : Fin 256) :
    (iblk0 V c 2 t : S1x256.Idx → EReal) (ix2 0 q) = V c main_call0_v30 (ix2 0 q) := by
  obtain ⟨-, -, -, -, e0, e1, -⟩ := block_indices t
  unfold iblk0
  rw [View.read_apply]
  show V c main_call0_v30 _ = V c main_call0_v30 _
  refine congrArg (V c main_call0_v30) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- What point `t` writes back is block `t` of the clipped dense layer of the region's input arrays. -/
theorem flushed_eq (c : Dev nD) (t : Fin cfg0.N) :
    (dat0 (F := Ideal) V c).flushed 3 t = ((cfg0.win 3).blk t).view.read (Elt Ideal) (pretransOf V c) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e0, e1⟩ := block_indices t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = pretransOf V c (((cfg0.win 3).blk t).view.emb (ix2 p q))
  refine (pretrans_payload (iblk0 V c 0 t) (iblk0 V c 1 t) (iblk0 V c 2 t) p q).trans ?_
  refine dense_block (V c main_arg0) (V c main_call0_v29) (V c main_call0_v30) (iblk0 V c 0 t) (iblk0 V c 1 t) (iblk0 V c 2 t)
    t.val p q (((cfg0.win 3).blk t).view.emb (ix2 p q)) ?_ ?_ (fun k P hP => features_block V c t p k P hP)
    (fun k q => weights_block V c t k q) (fun q => bias_block V c t q)
  · show win0_3.index t (0 : Fin 2) * 2000 + 1 * p.val = t.val * 2000 + p.val; omega
  · show win0_3.index t (1 : Fin 2) * 256 + 1 * q.val = q.val; omega

/-- An entry of the result array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_call0_v31).slice (win0_3.rect t)).set ↔ _
  rw [View.set_slice_whole, Rect.mem_set_unit]
  exact Iff.rfl

/-- Every entry of the result array is in the block of the point its row divided by 2000 names. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨-, -, -, -, -, -, e0, e1⟩ := block_indices t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE REGION'S RESULT ARRAY after its 25 points: the clipped dense layer of the region's input arrays. -/
theorem final0 (c : Dev nD) :
    (dat0 (F := Ideal) V c).arrAt 3 cfg0.N = fun i =>
      Gnn.relu (Gnn.dense (fun (p : Fin 50000) (k : Fin 128) => (V c main_arg0 (ix2 p k) : EReal))
        (fun (k : Fin 128) (q : Fin 256) => (V c main_call0_v29 (ix2 k q) : EReal))
        (fun q : Fin 256 => (V c main_call0_v30 (ix2 0 q) : EReal)) (i 0) (i 1)) :=
  (dat0 (F := Ideal) V c).arrAt_eq_of_cover 3 (pretransOf V c) (fun t _ => flushed_eq V c t) covered

end Region

end Cert.KernelIdeal.KRegion0

end
-- ==== Proof.KPretrans.lean ====
/-
  The pre-transform's result as a function of the launch arguments.

  When the pre-transform region ends, its result array holds the clipped dense layer of the region's three input arrays as the
  region found them. The region finds the node features as launched, and its weight matrix and bias row are — entry by entry —
  the launched weight matrix and the launched bias vector (a change of float format and a relayout of a vector as a row change
  no value). So at the boundary after the region, the result array's entry `(p, q)` is the clipped dense layer of the launch
  arguments: row `p` of the features against column `q` of the weights, plus bias entry `q`, clipped below at zero.
-/
import proofs.«169681_j33285996544265_2_alg».proof.Proof.KRegion0
import proofs.«169681_j33285996544265_2_alg».proof.Proof.KWalk

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- At the boundary after the pre-transform region, its result array's entry `(p, q)` is the clipped dense layer of the launched
    features, weight matrix and bias vector — given that the region's inputs are those, entry by entry. -/
theorem pretrans_value
    (hx : V1 m ρ c main_arg0 = m ((c : Thread nD τ).loc main_arg0))
    (hw : ∀ (k : Fin 128) (q : Fin 256), (V1 m ρ c main_call0_v29 : S128x256.Idx → EReal) (ix2 k q)
      = (m ((c : Thread nD τ).loc main_arg5) : S128x256.Idx → EReal) (ix2 k q))
    (hb : ∀ q : Fin 256, (V1 m ρ c main_call0_v30 : S1x256.Idx → EReal) (ix2 0 q)
      = (m ((c : Thread nD τ).loc main_arg6) : S256.Idx → EReal) (ix1 q))
    (p : Fin 50000) (q : Fin 256) :
    (W2 m ρ c (Proc.devRef .tc main_call0_v31) : S50000x256.Idx → EReal) (ix2 p q)
      = Gnn.relu (Gnn.dense (fun (p : Fin 50000) (k : Fin 128) => (m ((c : Thread nD τ).loc main_arg0) : S50000x128.Idx → EReal) (ix2 p k))
          (fun (k : Fin 128) (q : Fin 256) => (m ((c : Thread nD τ).loc main_arg5) : S128x256.Idx → EReal) (ix2 k q))
          (fun q : Fin 256 => (m ((c : Thread nD τ).loc main_arg6) : S256.Idx → EReal) (ix1 q)) p q) := by
  have h : W2 m ρ c (Proc.devRef .tc main_call0_v31) = (dat0 (V1 m ρ) c).arrAt 3 cfg0.N := W2_arr m ρ c 3
  have e := h.trans (KRegion0.final0 (V1 m ρ) c)
  have e1 : (fun (p : Fin 50000) (k : Fin 128) => (V1 m ρ c main_arg0 (ix2 p k) : EReal))
      = fun (p : Fin 50000) (k : Fin 128) => (m ((c : Thread nD τ).loc main_arg0) : S50000x128.Idx → EReal) (ix2 p k) :=
    funext fun p => funext fun k => congrFun hx (ix2 p k)
  have e2 : (fun (k : Fin 128) (q : Fin 256) => (V1 m ρ c main_call0_v29 (ix2 k q) : EReal))
      = fun (k : Fin 128) (q : Fin 256) => (m ((c : Thread nD τ).loc main_arg5) : S128x256.Idx → EReal) (ix2 k q) :=
    funext fun k => funext fun q => hw k q
  have e3 : (fun q : Fin 256 => (V1 m ρ c main_call0_v30 (ix2 0 q) : EReal))
      = fun q : Fin 256 => (m ((c : Thread nD τ).loc main_arg6) : S256.Idx → EReal) (ix1 q) :=
    funext fun q => hb q
  refine (congrFun e (ix2 p q)).trans ?_
  show Gnn.relu (Gnn.dense _ _ _ p q) = _
  rw [e1, e2, e3]

end Cert.KernelIdeal.KValue

end
-- ==== Proof.LibLinear.lean ====
/-
  Aggregating and projecting commute on real data, and the layer's values stay real.

  Over the extended reals a product does not distribute over a sum when infinities are present, so the two orders of one
  layer — aggregate the rows then project them, or project every row then aggregate — are equal only where the data are
  real numbers. `IsReal x` says `x` is (the image of) a real number. For real rows, real edge weights and a real
  projection matrix, `proj (aggregate …) cw = aggregate … (proj h cw)`: both are the double sum over the edges into `p`
  and over the contracted column of `h (src e) k · nrm e · cw k q`. The remaining theorems say that every stage of the
  network maps real data to real data, so the hypothesis is available again at the next layer.
-/
import Idealize.ShloMosaic.PureOps.Ideal
import Idealize.ShloMosaic.Lib.ValueIdx
import proofs.«169681_j33285996544265_2_alg».proof.Proof.Spec

noncomputable section

open scoped BigOperators
open Idealize.ShloMosaic

namespace Gnn

/-- `x` is a real number (neither infinity). -/
def IsReal (x : EReal) : Prop := ∃ r : ℝ, x = (r : EReal)

variable {N E M K H : ℕ}

/-! ### Closure of the real numbers under the operations of the network -/

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_max {x y : EReal} (hx : IsReal x) (hy : IsReal y) : IsReal (max x y) := by
  rcases le_total x y with h | h
  · rw [max_eq_right h]; exact hy
  · rw [max_eq_left h]; exact hx

theorem isReal_zero : IsReal (0 : EReal) := ⟨0, EReal.coe_zero.symm⟩

theorem isReal_one : IsReal (1 : EReal) := ⟨1, EReal.coe_one.symm⟩

theorem isReal_coe (r : ℝ) : IsReal (r : EReal) := ⟨r, rfl⟩

theorem isReal_sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is real. -/
theorem isReal_sum {ι : Type} (s : Finset ι) (f : ι → EReal) (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))

/-- The inclusion of the reals carries a finite sum to the finite sum of the images. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem isReal_relu {x : EReal} (hx : IsReal x) : IsReal (relu x) := isReal_max hx isReal_zero

theorem isReal_logistic {x : EReal} (hx : IsReal x) : IsReal (Ideal.logistic x) := by
  obtain ⟨r, rfl⟩ := hx; exact ⟨_, Ideal.logistic_coe r⟩

theorem isReal_tanh {x : EReal} (hx : IsReal x) : IsReal (Ideal.tanh x) := by
  obtain ⟨r, rfl⟩ := hx; exact ⟨_, Ideal.tanh_coe r⟩

theorem isReal_proj (x : Fin M → Fin K → EReal) (w : Fin K → Fin H → EReal)
    (hx : ∀ p k, IsReal (x p k)) (hw : ∀ k q, IsReal (w k q)) (p : Fin M) (q : Fin H) : IsReal (proj x w p q) :=
  isReal_sum _ _ fun k _ => isReal_mul (hx p k) (hw k q)

theorem isReal_dense (x : Fin M → Fin K → EReal) (w : Fin K → Fin H → EReal) (b : Fin H → EReal)
    (hx : ∀ p k, IsReal (x p k)) (hw : ∀ k q, IsReal (w k q)) (hb : ∀ q, IsReal (b q)) (p : Fin M) (q : Fin H) :
    IsReal (dense x w b p q) :=
  isReal_add (isReal_proj x w hx hw p q) (hb q)

theorem isReal_aggregate (tgt : Fin E → Option (Fin N)) (src : Fin E → Fin N) (nrm : Fin E → EReal)
    (h : Fin N → Fin H → EReal) (hh : ∀ p k, IsReal (h p k)) (hn : ∀ e, IsReal (nrm e)) (p : Fin N) (q : Fin H) :
    IsReal (aggregate tgt src nrm h p q) :=
  isReal_sum _ _ fun e _ => isReal_mul (hh (src e) q) (hn e)

theorem isReal_gate (v : Fin M → Fin 256 → EReal) (w : Fin 768 → Fin 256 → EReal) (b : Fin 768 → EReal)
    (hv : ∀ p k, IsReal (v p k)) (hw : ∀ c k, IsReal (w c k)) (hb : ∀ c, IsReal (b c)) (p : Fin M) (c : Fin 768) :
    IsReal (gate v w b p c) :=
  isReal_add (isReal_sum _ _ fun k _ => isReal_mul (hv p k) (hw c k)) (hb c)

theorem isReal_gruCell (x prev : Fin M → Fin 256 → EReal) (wih whh : Fin 768 → Fin 256 → EReal) (bih bhh : Fin 768 → EReal)
    (hx : ∀ p k, IsReal (x p k)) (hp : ∀ p k, IsReal (prev p k)) (hwi : ∀ c k, IsReal (wih c k))
    (hwh : ∀ c k, IsReal (whh c k)) (hbi : ∀ c, IsReal (bih c)) (hbh : ∀ c, IsReal (bhh c)) (p : Fin M) (q : Fin 256) :
    IsReal (gruCell x prev wih whh bih bhh p q) := by
  have gi : ∀ c, IsReal (gate x wih bih p c) := isReal_gate x wih bih hx hwi hbi p
  have gh : ∀ c, IsReal (gate prev whh bhh p c) := isReal_gate prev whh bhh hp hwh hbh p
  have hu : IsReal (Ideal.logistic (gate x wih bih p (gZ q) + gate prev whh bhh p (gZ q))) :=
    isReal_logistic (isReal_add (gi _) (gh _))
  have hr : IsReal (Ideal.logistic (gate x wih bih p (gR q) + gate prev whh bhh p (gR q))) :=
    isReal_logistic (isReal_add (gi _) (gh _))
  exact isReal_add
    (isReal_mul (isReal_sub isReal_one hu) (isReal_tanh (isReal_add (gi _) (isReal_mul hr (gh _)))))
    (isReal_mul hu (hp p q))

/-! ### The two orders of a layer -/

/-- Projecting the aggregated rows is aggregating the projected rows, on real data. -/
theorem proj_aggregate (tgt : Fin E → Option (Fin N)) (src : Fin E → Fin N) (nrm : Fin E → EReal)
    (h : Fin N → Fin K → EReal) (cw : Fin K → Fin H → EReal)
    (hh : ∀ p k, IsReal (h p k)) (hn : ∀ e, IsReal (nrm e)) (hw : ∀ k q, IsReal (cw k q)) (p : Fin N) (q : Fin H) :
    proj (aggregate tgt src nrm h) cw p q = aggregate tgt src nrm (proj h cw) p q := by
  choose h' hh' using hh
  choose n' hn' using hn
  choose w' hw' using hw
  -- Both sides become images of real double sums of `h' (src e) k * n' e * w' k q`.
  simp only [proj, aggregate, hh', hn', hw', ← EReal.coe_mul, ← coe_finset_sum]
  congr 1
  simp only [Finset.sum_mul]
  rw [Finset.sum_comm]
  refine Finset.sum_congr rfl fun e _ => Finset.sum_congr rfl fun k _ => ?_
  ring

/-- The two orders of one layer agree on real data. -/
theorem layerAP_eq_layerPA (tgt : Fin E → Option (Fin N)) (src : Fin E → Fin N) (nrm : Fin E → EReal)
    (h : Fin N → Fin 256 → EReal) (cw : Fin 256 → Fin 256 → EReal) (cb : Fin 256 → EReal) (prev : Fin N → Fin 256 → EReal)
    (wih whh : Fin 768 → Fin 256 → EReal) (bih bhh : Fin 768 → EReal)
    (hh : ∀ p k, IsReal (h p k)) (hn : ∀ e, IsReal (nrm e)) (hw : ∀ k q, IsReal (cw k q)) :
    layerAP tgt src nrm h cw cb prev wih whh bih bhh = layerPA tgt src nrm h cw cb prev wih whh bih bhh := by
  have key : (fun p k => relu (dense (aggregate tgt src nrm h) cw cb p k))
      = fun p k => relu (aggregate tgt src nrm (proj h cw) p k + cb k) := by
    funext p k
    have hd : dense (aggregate tgt src nrm h) cw cb p k = proj (aggregate tgt src nrm h) cw p k + cb k := rfl
    rw [hd, proj_aggregate tgt src nrm h cw hh hn hw p k]
  unfold layerAP layerPA
  rw [key]

/-! ### Every stage keeps real data real -/

/-- A clipped dense layer of real data is real. -/
theorem isReal_relu_dense (x : Fin M → Fin K → EReal) (w : Fin K → Fin H → EReal) (b : Fin H → EReal)
    (hx : ∀ p k, IsReal (x p k)) (hw : ∀ k q, IsReal (w k q)) (hb : ∀ q, IsReal (b q)) (p : Fin M) (q : Fin H) :
    IsReal (relu (dense x w b p q)) :=
  isReal_relu (isReal_dense x w b hx hw hb p q)

/-- One layer (project then aggregate) of real data is real. -/
theorem isReal_layerPA (tgt : Fin E → Option (Fin N)) (src : Fin E → Fin N) (nrm : Fin E → EReal)
    (h : Fin N → Fin 256 → EReal) (cw : Fin 256 → Fin 256 → EReal) (cb : Fin 256 → EReal) (prev : Fin N → Fin 256 → EReal)
    (wih whh : Fin 768 → Fin 256 → EReal) (bih bhh : Fin 768 → EReal)
    (hh : ∀ p k, IsReal (h p k)) (hn : ∀ e, IsReal (nrm e)) (hw : ∀ k q, IsReal (cw k q)) (hcb : ∀ q, IsReal (cb q))
    (hp : ∀ p k, IsReal (prev p k)) (hwi : ∀ c k, IsReal (wih c k)) (hwh : ∀ c k, IsReal (whh c k))
    (hbi : ∀ c, IsReal (bih c)) (hbh : ∀ c, IsReal (bhh c)) (p : Fin N) (q : Fin 256) :
    IsReal (layerPA tgt src nrm h cw cb prev wih whh bih bhh p q) := by
  unfold layerPA
  refine isReal_gruCell _ prev wih whh bih bhh (fun p k => ?_) hp hwi hwh hbi hbh p q
  exact isReal_relu (isReal_add (isReal_aggregate tgt src nrm _ (isReal_proj h cw hh hw) hn p k) (hcb k))

/-- An accumulating scatter of real updates into a real operand is real, whatever the indices and dimension numbers. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) := by
  -- The value is the operand entry plus the finite sum of the update entries that land on `i`.
  unfold Host.scatterAdd
  rw [Ideal.hostScatterAdd_def]
  unfold Ideal.hostScatterAdd
  exact isReal_add (hx i) (isReal_sum _ _ fun j _ => hu j)

/-- The reciprocal square root of a real number that is at least one is real. -/
theorem isReal_rsqrt {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (by linarith), if_neg (by linarith)]
  exact ⟨_, rfl⟩

end Gnn

end
-- ==== Proof.LibNetwork.lean ====
/-
  Two layers in either order.

  One layer of the network can aggregate the rows and then project them, or project every row and then aggregate; on real
  data the two orders give the same rows. The network stacks two such layers on a clipped dense layer of the input. The
  clipped dense layer of real data is real, so the first layer may be taken in either order; in the project-then-aggregate
  order the first layer's rows are again real — every stage of it keeps real data real —, so the second layer, fed those rows,
  may be taken in either order too. Of the second layer's parameters only its square projection matrix has to be real: the
  rest of that layer is the same function of the aggregated-and-projected rows on both sides.
-/
import proofs.«169681_j33285996544265_2_alg».proof.Proof.LibLinear

noncomputable section

open scoped BigOperators
open Idealize.ShloMosaic

namespace Gnn

/-- On real data, the two-layer network computed by aggregating before projecting in each layer equals the one computed by
    projecting before aggregating in each layer. -/
theorem twoLayers_AP_eq_PA {N E K0 : ℕ} (tgt : Fin E → Option (Fin N)) (src : Fin E → Fin N) (nrm : Fin E → EReal)
    (x : Fin N → Fin K0 → EReal) (pw : Fin K0 → Fin 256 → EReal) (pb : Fin 256 → EReal)
    (cw0 : Fin 256 → Fin 256 → EReal) (cb0 : Fin 256 → EReal) (prev0 : Fin N → Fin 256 → EReal)
    (wih0 whh0 : Fin 768 → Fin 256 → EReal) (bih0 bhh0 : Fin 768 → EReal)
    (cw1 : Fin 256 → Fin 256 → EReal) (cb1 : Fin 256 → EReal) (prev1 : Fin N → Fin 256 → EReal)
    (wih1 whh1 : Fin 768 → Fin 256 → EReal) (bih1 bhh1 : Fin 768 → EReal)
    (hn : ∀ e, IsReal (nrm e)) (hx : ∀ p k, IsReal (x p k)) (hpw : ∀ k q, IsReal (pw k q)) (hpb : ∀ q, IsReal (pb q))
    (hcw0 : ∀ k q, IsReal (cw0 k q)) (hcb0 : ∀ q, IsReal (cb0 q)) (hprev0 : ∀ p k, IsReal (prev0 p k))
    (hwih0 : ∀ c k, IsReal (wih0 c k)) (hwhh0 : ∀ c k, IsReal (whh0 c k)) (hbih0 : ∀ c, IsReal (bih0 c))
    (hbhh0 : ∀ c, IsReal (bhh0 c)) (hcw1 : ∀ k q, IsReal (cw1 k q)) :
    layerAP tgt src nrm (layerAP tgt src nrm (fun p q => relu (dense x pw pb p q)) cw0 cb0 prev0 wih0 whh0 bih0 bhh0)
        cw1 cb1 prev1 wih1 whh1 bih1 bhh1
      = layerPA tgt src nrm (layerPA tgt src nrm (fun p q => relu (dense x pw pb p q)) cw0 cb0 prev0 wih0 whh0 bih0 bhh0)
        cw1 cb1 prev1 wih1 whh1 bih1 bhh1 := by
  -- the rows entering the first layer are real
  have hin : ∀ p k, IsReal (relu (dense x pw pb p k)) := isReal_relu_dense x pw pb hx hpw hpb
  -- so the first layer may be taken in the other order,
  rw [layerAP_eq_layerPA tgt src nrm (fun p q => relu (dense x pw pb p q)) cw0 cb0 prev0 wih0 whh0 bih0 bhh0 hin hn hcw0]
  -- and its rows, in that order, are real, so the second layer may as well
  exact layerAP_eq_layerPA tgt src nrm _ cw1 cb1 prev1 wih1 whh1 bih1 bhh1
    (isReal_layerPA tgt src nrm _ cw0 cb0 prev0 wih0 whh0 bih0 bhh0 hin hn hcw0 hcb0 hprev0 hwih0 hwhh0 hbih0 hbhh0)
    hn hcw1

end Gnn

end
-- ==== Proof.Net.lean ====
/-
  The whole network as one function of its fifteen argument arrays, in the two orders of its layers.

  The edges' targets, sources and weights and the labelled edges' two ends are computed from the integer arguments by the
  reference program's own stages (nothing of them is opened here). The node features go through a clipped dense layer,
  then through two GRU layers, and each labelled edge is scored from the rows of its two ends. `netAP` computes each
  layer by aggregating and then projecting; `netPA` by projecting and then aggregating. On real data they agree.
-/
import proofs.«169681_j33285996544265_2_alg».proof.Proof.Gen.ReferenceIdeal.Read
import proofs.«169681_j33285996544265_2_alg».proof.Proof.LibNetwork
import proofs.«169681_j33285996544265_2_alg».proof.Proof.LibGatherRows
import proofs.«169681_j33285996544265_2_alg».proof.Proof.LibScatterRows

noncomputable section

open scoped BigOperators

namespace Cert.Net

open Cert.ReferenceIdeal Cert.ReferenceIdeal.Read Idealize.ShloMosaic Idealize.ShloMosaic.ValueIdx

/-- The node an edge is added into, if its target index names one. -/
def edgeTgt (x1 : (⟨S2x800000, .i32⟩ : BufTy).Contents (Elt Ideal)) : Fin 850000 → Option (Fin 50000) :=
  ScatterRows.tgt 50000 (val_main_v48 (F := Ideal) x1)

/-- The node an edge reads its row from. -/
def edgeSrc (x1 : (⟨S2x800000, .i32⟩ : BufTy).Contents (Elt Ideal)) : Fin 850000 → Fin 50000 :=
  GatherRows.row 50000 (by decide) (val_main_v42 (F := Ideal) x1)

/-- The edge's weight: the product of the two ends' inverse square-root degrees. -/
def edgeWgt (x1 : (⟨S2x800000, .i32⟩ : BufTy).Contents (Elt Ideal)) (e : Fin 850000) : EReal :=
  val_main_v28 (F := Ideal) x1 (ix1 e)

/-- The two ends of a labelled edge. -/
def endA (x2 : (⟨S2x200000, .i32⟩ : BufTy).Contents (Elt Ideal)) : Fin 200000 → Fin 50000 :=
  GatherRows.row 50000 (by decide) (val_main_v177 (F := Ideal) x2)
def endB (x2 : (⟨S2x200000, .i32⟩ : BufTy).Contents (Elt Ideal)) : Fin 200000 → Fin 50000 :=
  GatherRows.row 50000 (by decide) (val_main_v186 (F := Ideal) x2)

/-- The node features after the clipped dense layer. -/
def rows0 (x0 : (⟨S50000x128, .f32⟩ : BufTy).Contents (Elt Ideal)) (x5 : (⟨S128x256, .f32⟩ : BufTy).Contents (Elt Ideal))
    (x6 : (⟨S256, .f32⟩ : BufTy).Contents (Elt Ideal)) (p : Fin 50000) (q : Fin 256) : EReal :=
  Gnn.relu (Gnn.dense (fun (p : Fin 50000) (k : Fin 128) => (x0 (ix2 p k) : EReal))
    (fun (k : Fin 128) (q : Fin 256) => (x5 (ix2 k q) : EReal)) (fun q : Fin 256 => (x6 (ix1 q) : EReal)) p q)

/-- The network, each layer aggregating and then projecting. -/
def netAP (x0 : (⟨S50000x128, .f32⟩ : BufTy).Contents (Elt Ideal)) (x1 : (⟨S2x800000, .i32⟩ : BufTy).Contents (Elt Ideal))
    (x2 : (⟨S2x200000, .i32⟩ : BufTy).Contents (Elt Ideal)) (x3 x4 : (⟨S50000x256, .f32⟩ : BufTy).Contents (Elt Ideal))
    (x5 : (⟨S128x256, .f32⟩ : BufTy).Contents (Elt Ideal)) (x6 : (⟨S256, .f32⟩ : BufTy).Contents (Elt Ideal))
    (x7 : (⟨S2x256x256, .f32⟩ : BufTy).Contents (Elt Ideal)) (x8 : (⟨S2x256, .f32⟩ : BufTy).Contents (Elt Ideal))
    (x9 x10 : (⟨S2x768x256, .f32⟩ : BufTy).Contents (Elt Ideal)) (x11 x12 : (⟨S2x768, .f32⟩ : BufTy).Contents (Elt Ideal))
    (x13 : (⟨S256x2, .f32⟩ : BufTy).Contents (Elt Ideal)) (x14 : (⟨S2, .f32⟩ : BufTy).Contents (Elt Ideal)) : Fin 200000 → EReal :=
  Gnn.score
    (Gnn.layerAP (edgeTgt x1) (edgeSrc x1) (edgeWgt x1)
      (Gnn.layerAP (edgeTgt x1) (edgeSrc x1) (edgeWgt x1) (rows0 x0 x5 x6)
        (fun (k q : Fin 256) => (x7 (ix3 (0 : Fin 2) k q) : EReal)) (fun q : Fin 256 => (x8 (ix2 (0 : Fin 2) q) : EReal))
        (fun (p : Fin 50000) (k : Fin 256) => (x3 (ix2 p k) : EReal))
        (fun (cc : Fin 768) (k : Fin 256) => (x9 (ix3 (0 : Fin 2) cc k) : EReal)) (fun (cc : Fin 768) (k : Fin 256) => (x10 (ix3 (0 : Fin 2) cc k) : EReal))
        (fun cc : Fin 768 => (x11 (ix2 (0 : Fin 2) cc) : EReal)) (fun cc : Fin 768 => (x12 (ix2 (0 : Fin 2) cc) : EReal)))
        (fun (k q : Fin 256) => (x7 (ix3 (1 : Fin 2) k q) : EReal)) (fun q : Fin 256 => (x8 (ix2 (1 : Fin 2) q) : EReal))
        (fun (p : Fin 50000) (k : Fin 256) => (x4 (ix2 p k) : EReal))
        (fun (cc : Fin 768) (k : Fin 256) => (x9 (ix3 (1 : Fin 2) cc k) : EReal)) (fun (cc : Fin 768) (k : Fin 256) => (x10 (ix3 (1 : Fin 2) cc k) : EReal))
        (fun cc : Fin 768 => (x11 (ix2 (1 : Fin 2) cc) : EReal)) (fun cc : Fin 768 => (x12 (ix2 (1 : Fin 2) cc) : EReal)))
    (endA x2) (endB x2) (fun (k : Fin 256) (cc : Fin 2) => (x13 (ix2 k cc) : EReal)) (fun cc : Fin 2 => (x14 (ix1 cc) : EReal))

/-- The network, each layer projecting and then aggregating. -/
def netPA (x0 : (⟨S50000x128, .f32⟩ : BufTy).Contents (Elt Ideal)) (x1 : (⟨S2x800000, .i32⟩ : BufTy).Contents (Elt Ideal))
    (x2 : (⟨S2x200000, .i32⟩ : BufTy).Contents (Elt Ideal)) (x3 x4 : (⟨S50000x256, .f32⟩ : BufTy).Contents (Elt Ideal))
    (x5 : (⟨S128x256, .f32⟩ : BufTy).Contents (Elt Ideal)) (x6 : (⟨S256, .f32⟩ : BufTy).Contents (Elt Ideal))
    (x7 : (⟨S2x256x256, .f32⟩ : BufTy).Contents (Elt Ideal)) (x8 : (⟨S2x256, .f32⟩ : BufTy).Contents (Elt Ideal))
    (x9 x10 : (⟨S2x768x256, .f32⟩ : BufTy).Contents (Elt Ideal)) (x11 x12 : (⟨S2x768, .f32⟩ : BufTy).Contents (Elt Ideal))
    (x13 : (⟨S256x2, .f32⟩ : BufTy).Contents (Elt Ideal)) (x14 : (⟨S2, .f32⟩ : BufTy).Contents (Elt Ideal)) : Fin 200000 → EReal :=
  Gnn.score
    (Gnn.layerPA (edgeTgt x1) (edgeSrc x1) (edgeWgt x1)
      (Gnn.layerPA (edgeTgt x1) (edgeSrc x1) (edgeWgt x1) (rows0 x0 x5 x6)
        (fun (k q : Fin 256) => (x7 (ix3 (0 : Fin 2) k q) : EReal)) (fun q : Fin 256 => (x8 (ix2 (0 : Fin 2) q) : EReal))
        (fun (p : Fin 50000) (k : Fin 256) => (x3 (ix2 p k) : EReal))
        (fun (cc : Fin 768) (k : Fin 256) => (x9 (ix3 (0 : Fin 2) cc k) : EReal)) (fun (cc : Fin 768) (k : Fin 256) => (x10 (ix3 (0 : Fin 2) cc k) : EReal))
        (fun cc : Fin 768 => (x11 (ix2 (0 : Fin 2) cc) : EReal)) (fun cc : Fin 768 => (x12 (ix2 (0 : Fin 2) cc) : EReal)))
        (fun (k q : Fin 256) => (x7 (ix3 (1 : Fin 2) k q) : EReal)) (fun q : Fin 256 => (x8 (ix2 (1 : Fin 2) q) : EReal))
        (fun (p : Fin 50000) (k : Fin 256) => (x4 (ix2 p k) : EReal))
        (fun (cc : Fin 768) (k : Fin 256) => (x9 (ix3 (1 : Fin 2) cc k) : EReal)) (fun (cc : Fin 768) (k : Fin 256) => (x10 (ix3 (1 : Fin 2) cc k) : EReal))
        (fun cc : Fin 768 => (x11 (ix2 (1 : Fin 2) cc) : EReal)) (fun cc : Fin 768 => (x12 (ix2 (1 : Fin 2) cc) : EReal)))
    (endA x2) (endB x2) (fun (k : Fin 256) (cc : Fin 2) => (x13 (ix2 k cc) : EReal)) (fun cc : Fin 2 => (x14 (ix1 cc) : EReal))

/-- On real data the two orders give the same scores. -/
theorem netAP_eq_netPA (x0 : (⟨S50000x128, .f32⟩ : BufTy).Contents (Elt Ideal)) (x1 : (⟨S2x800000, .i32⟩ : BufTy).Contents (Elt Ideal))
    (x2 : (⟨S2x200000, .i32⟩ : BufTy).Contents (Elt Ideal)) (x3 x4 : (⟨S50000x256, .f32⟩ : BufTy).Contents (Elt Ideal))
    (x5 : (⟨S128x256, .f32⟩ : BufTy).Contents (Elt Ideal)) (x6 : (⟨S256, .f32⟩ : BufTy).Contents (Elt Ideal))
    (x7 : (⟨S2x256x256, .f32⟩ : BufTy).Contents (Elt Ideal)) (x8 : (⟨S2x256, .f32⟩ : BufTy).Contents (Elt Ideal))
    (x9 x10 : (⟨S2x768x256, .f32⟩ : BufTy).Contents (Elt Ideal)) (x11 x12 : (⟨S2x768, .f32⟩ : BufTy).Contents (Elt Ideal))
    (x13 : (⟨S256x2, .f32⟩ : BufTy).Contents (Elt Ideal)) (x14 : (⟨S2, .f32⟩ : BufTy).Contents (Elt Ideal))
    (hn : ∀ e, Gnn.IsReal (edgeWgt x1 e))
    (h0 : ∀ (p : Fin 50000) (k : Fin 128), Gnn.IsReal (x0 (ix2 p k))) (h5 : ∀ (k : Fin 128) (q : Fin 256), Gnn.IsReal (x5 (ix2 k q)))
    (h6 : ∀ q : Fin 256, Gnn.IsReal (x6 (ix1 q)))
    (h7 : ∀ (z : Fin 2) (k q : Fin 256), Gnn.IsReal (x7 (ix3 z k q))) (h8 : ∀ (z : Fin 2) (q : Fin 256), Gnn.IsReal (x8 (ix2 z q)))
    (h3 : ∀ (p : Fin 50000) (k : Fin 256), Gnn.IsReal (x3 (ix2 p k)))
    (h9 : ∀ (z : Fin 2) (cc : Fin 768) (k : Fin 256), Gnn.IsReal (x9 (ix3 z cc k)))
    (h10 : ∀ (z : Fin 2) (cc : Fin 768) (k : Fin 256), Gnn.IsReal (x10 (ix3 z cc k)))
    (h11 : ∀ (z : Fin 2) (cc : Fin 768), Gnn.IsReal (x11 (ix2 z cc))) (h12 : ∀ (z : Fin 2) (cc : Fin 768), Gnn.IsReal (x12 (ix2 z cc))) :
    netAP x0 x1 x2 x3 x4 x5 x6 x7 x8 x9 x10 x11 x12 x13 x14 = netPA x0 x1 x2 x3 x4 x5 x6 x7 x8 x9 x10 x11 x12 x13 x14 := by
  unfold netAP netPA
  have hrows : rows0 x0 x5 x6 = fun p q => Gnn.relu (Gnn.dense (fun (p : Fin 50000) (k : Fin 128) => (x0 (ix2 p k) : EReal))
      (fun (k : Fin 128) (q : Fin 256) => (x5 (ix2 k q) : EReal)) (fun q : Fin 256 => (x6 (ix1 q) : EReal)) p q) := rfl
  rw [hrows, Gnn.twoLayers_AP_eq_PA (edgeTgt x1) (edgeSrc x1) (edgeWgt x1) _ _ _ _ _ _ _ _ _ _ _ _ _ _ _ _ _
    hn h0 h5 h6 (h7 0) (h8 0) h3 (h9 0) (h10 0) (h11 0) (h12 0) (h7 1)]

end Cert.Net

end
-- ==== Proof.KValue.lean ====
/-
  The idealized kernel's result as the network of its arguments.

  Reading the run's last boundary backwards: the result is a reshape of the scoring region's output; that region scores
  each labelled edge from the rows, at the edge's two ends, of the second GRU region's output; each GRU region's output
  rows are one layer (aggregate, then project) of the previous stage's rows; and the first region's output rows are the
  clipped dense layer of the node features. The index arrays and the edge weights the host computes on the way are the
  reference program's own stages of the integer arguments. Altogether the result at a labelled edge is `Cert.Net.netAP` of
  the fifteen argument arrays.
-/
import proofs.«169681_j33285996544265_2_alg».proof.Proof.KScore
import proofs.«169681_j33285996544265_2_alg».proof.Proof.KLayerValue
import proofs.«169681_j33285996544265_2_alg».proof.Proof.KPretrans
import proofs.«169681_j33285996544265_2_alg».proof.Proof.KWeights
import proofs.«169681_j33285996544265_2_alg».proof.Proof.Net

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The result at labelled edge `e`, given that the index arrays and edge weights the host computes before each region are
    the reference's stages of the integer arguments. -/
theorem kernel_value
    (hd0 : V3 m ρ c main_call0_v44 = Cert.ReferenceIdeal.Read.val_main_v48 (F := Ideal) (m ((c : Thread nD τ).loc main_arg1)))
    (hd1 : V5 m ρ c main_call0_v77 = Cert.ReferenceIdeal.Read.val_main_v48 (F := Ideal) (m ((c : Thread nD τ).loc main_arg1)))
    (hs0 : V3 m ρ c main_call0_v38 = Cert.ReferenceIdeal.Read.val_main_v42 (F := Ideal) (m ((c : Thread nD τ).loc main_arg1)))
    (hs1 : V5 m ρ c main_call0_v71 = Cert.ReferenceIdeal.Read.val_main_v42 (F := Ideal) (m ((c : Thread nD τ).loc main_arg1)))
    (hw0 : W2 m ρ c (Proc.devRef .tc main_call0_v28) = Cert.ReferenceIdeal.Read.val_main_v28 (F := Ideal) (m ((c : Thread nD τ).loc main_arg1)))
    (hw1 : W4 m ρ c (Proc.devRef .tc main_call0_v28) = Cert.ReferenceIdeal.Read.val_main_v28 (F := Ideal) (m ((c : Thread nD τ).loc main_arg1)))
    (ha : V7 m ρ c main_call0_v107 = Cert.ReferenceIdeal.Read.val_main_v177 (F := Ideal) (m ((c : Thread nD τ).loc main_arg2)))
    (hb : V7 m ρ c main_call0_v116 = Cert.ReferenceIdeal.Read.val_main_v186 (F := Ideal) (m ((c : Thread nD τ).loc main_arg2)))
    (e : Fin 200000) :
    (W9 m ρ c (Proc.devRef .tc main_v0) : S200000.Idx → EReal) (ix1 e)
      = Cert.Net.netAP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) e := by
  have r2 : (fun (p : Fin 50000) (k : Fin 256) => (W6 m ρ c (Proc.devRef .tc main_call0_v98) : S50000x256.Idx → EReal) (ix2 p k)) = _ :=
    funext fun p => funext fun q => layer1_value m ρ c p q
  have r1 : (fun (p : Fin 50000) (k : Fin 256) => (W4 m ρ c (Proc.devRef .tc main_call0_v65) : S50000x256.Idx → EReal) (ix2 p k)) = _ :=
    funext fun p => funext fun q => layer0_value m ρ c p q
  have r0 : (fun (p : Fin 50000) (k : Fin 256) => (W2 m ρ c (Proc.devRef .tc main_call0_v31) : S50000x256.Idx → EReal) (ix2 p k)) = _ :=
    funext fun p => funext fun q =>
      pretrans_value m ρ c (features_region0 m ρ c) (pre_weight m ρ c) (pre_bias m ρ c) p q
  refine (score_end m ρ c (score_weight m ρ c) (score_bias m ρ c) e).trans ?_
  rw [r2, r1, r0, hd0, hd1, hs0, hs1, hw0, hw1, ha, hb]
  rfl

end Cert.KernelIdeal.KValue

end
-- ==== Proof.KIndex.lean ====
/-
  The index arrays of the idealized kernel's run are the reference's, as functions of the integer arguments.

  Both programs build the edge sources, the edge targets and the labelled edges' ends from the integer arguments by the
  same operations. A row of the argument `[2, n]` is cut out and read as a flat array of `n` entries. For the edges the
  node numbers `0 … 49999` are appended (one self loop per node), which gives `850000` entries. For the gathers a
  negative entry is moved up by the number of nodes: `select (x < 0) (x + 50000) x`. Finally the array is made a column
  `[n, 1]`. So every index array the kernel holds at the entry of a region is the same expression in the argument as the
  reference's value of that name, and the two are equal by unfolding both.

  The kernel's buffers hold contents at the buffer's own type, and each operation reads and writes them through the
  identity between that type and the type of the tensor value. Carrying contents to the buffer's type and back changes
  nothing (`ofBuf_toBuf`); once these identities are removed, the kernel's expression and the reference's agree
  operation by operation, down to the argument.

  The edge arrays are computed once, before the first region, and read again before the second and the third: no
  operation in between and no region writes them, so they are still what the first stretch left.
-/
import proofs.«169681_j33285996544265_2_alg».proof.Proof.KWalk
import proofs.«169681_j33285996544265_2_alg».proof.Proof.Gen.ReferenceIdeal.Read

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! ## Contents at the value's type and at the buffer's type -/

/-- Contents carried to a buffer's own type and back are unchanged. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- A buffer whose contents, read at the value's type, are `v` holds `v` carried to the buffer's type. -/
theorem read_of_typed {sig : RefSig} {Val : EltTy → Type} {T : BufTy} (x : TRef sig T) (w : x.ref.ty.Contents Val)
    (v : T.Contents Val) (h : x.ofBuf w = v) : w = x.toBuf v := by
  obtain ⟨r, e, h1, h2⟩ := x
  subst e
  exact h

/-- The contents of a buffer after a literal stretch of operations, as an expression in the contents before it: the
    fold is unfolded, each operation's result is read at its own result buffer as its function's value and at any other
    buffer as what was there, and the identities between a buffer's type and its value's type are removed. -/
macro "eval_results" : tactic =>
  `(tactic| (simp (disch := decide) only [after_cons, after_nil,
      nullary_result', unary_result', binary_result', ternary_result', reshape_result',
      nullary_result_ne', unary_result_ne', binary_result_ne', ternary_result_ne', reshape_result_ne', ofBuf_toBuf]))

/-- The same, one rewrite at a time, for the reads left under the list of a concatenation's operands. -/
macro "finish_results" : tactic =>
  `(tactic| repeat (first
      | rw [nullary_result] | rw [unary_result] | rw [binary_result] | rw [ternary_result] | rw [reshape_result]
      | rw [ofBuf_toBuf]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (m : (ℓ : Loc nD τ sig) → Buf (Elt Ideal) ℓ) (ρ : Dev nD → PrngReg) (c : Dev nD)

/-! ## The edge arrays after the first stretch -/

set_option maxHeartbeats 1000000 in
/-- The edge sources `[850000]`: row 0 of the edge argument, then the node numbers. -/
theorem src_first :
    (TRef.of main_call0_v3 : TRef sig ⟨S850000, .i32⟩).ofBuf (W1 m ρ c (Proc.devRef .tc main_call0_v3))
      = Cert.ReferenceIdeal.Read.val_main_v3 (F := Ideal) (m ((c : Thread nD τ).loc main_arg1)) := by
  show (TRef.of main_call0_v3 : TRef sig ⟨S850000, .i32⟩).ofBuf
    (StableHlo.after hostOps0 (W0 m ρ c) (Proc.devRef .tc main_call0_v3)) = _
  eval_results
  finish_results
  unfold Cert.ReferenceIdeal.Read.val_main_v3 Cert.ReferenceIdeal.Read.val_main_v2 Cert.ReferenceIdeal.Read.val_main_v1 Cert.ReferenceIdeal.Read.val_main_v0
  rfl

set_option maxHeartbeats 1000000 in
/-- The edge targets `[850000]`: row 1 of the edge argument, then the node numbers. -/
theorem dst_first :
    (TRef.of main_call0_v6 : TRef sig ⟨S850000, .i32⟩).ofBuf (W1 m ρ c (Proc.devRef .tc main_call0_v6))
      = Cert.ReferenceIdeal.Read.val_main_v6 (F := Ideal) (m ((c : Thread nD τ).loc main_arg1)) := by
  show (TRef.of main_call0_v6 : TRef sig ⟨S850000, .i32⟩).ofBuf
    (StableHlo.after hostOps0 (W0 m ρ c) (Proc.devRef .tc main_call0_v6)) = _
  eval_results
  finish_results
  unfold Cert.ReferenceIdeal.Read.val_main_v6 Cert.ReferenceIdeal.Read.val_main_v5 Cert.ReferenceIdeal.Read.val_main_v4 Cert.ReferenceIdeal.Read.val_main_v0
  rfl

/-! ## The scatter indices of the two layers: the edge targets as a column -/

set_option maxHeartbeats 1000000 in
theorem dst_layer0 :
    V3 m ρ c main_call0_v44 = Cert.ReferenceIdeal.Read.val_main_v48 (F := Ideal) (m ((c : Thread nD τ).loc main_arg1)) := by
  have h : (TRef.of main_call0_v44 : TRef sig ⟨S850000x1, .i32⟩).ofBuf
      (StableHlo.after hostOps1 (W2 m ρ c) (Proc.devRef .tc main_call0_v44))
        = Cert.ReferenceIdeal.Read.val_main_v48 (F := Ideal) (m ((c : Thread nD τ).loc main_arg1)) := by
    eval_results
    rw [W2_of_ne m ρ c main_call0_v6 (by decide), dst_first]
    rfl
  exact (read_of_typed _ _ _ h).trans rfl

set_option maxHeartbeats 1000000 in
theorem dst_layer1 :
    V5 m ρ c main_call0_v77 = Cert.ReferenceIdeal.Read.val_main_v48 (F := Ideal) (m ((c : Thread nD τ).loc main_arg1)) := by
  have h : (TRef.of main_call0_v77 : TRef sig ⟨S850000x1, .i32⟩).ofBuf
      (StableHlo.after hostOps2 (W4 m ρ c) (Proc.devRef .tc main_call0_v77))
        = Cert.ReferenceIdeal.Read.val_main_v48 (F := Ideal) (m ((c : Thread nD τ).loc main_arg1)) := by
    eval_results
    rw [W4_first m ρ c main_call0_v6 (by decide) (by not_written) (by decide), dst_first]
    rfl
  exact (read_of_typed _ _ _ h).trans rfl

/-! ## The gather indices of the two layers: the edge sources, a negative one moved up by the number of nodes, as a column -/

set_option maxHeartbeats 1000000 in
theorem src_layer0 :
    V3 m ρ c main_call0_v38 = Cert.ReferenceIdeal.Read.val_main_v42 (F := Ideal) (m ((c : Thread nD τ).loc main_arg1)) := by
  have h : (TRef.of main_call0_v38 : TRef sig ⟨S850000x1, .i32⟩).ofBuf
      (StableHlo.after hostOps1 (W2 m ρ c) (Proc.devRef .tc main_call0_v38))
        = Cert.ReferenceIdeal.Read.val_main_v42 (F := Ideal) (m ((c : Thread nD τ).loc main_arg1)) := by
    eval_results
    rw [W2_of_ne m ρ c main_call0_v3 (by decide), src_first]
    unfold Cert.ReferenceIdeal.Read.val_main_v42 Cert.ReferenceIdeal.Read.val_main_v41 Cert.ReferenceIdeal.Read.val_main_v40 Cert.ReferenceIdeal.Read.val_main_v39 Cert.ReferenceIdeal.Read.val_main_c_6 Cert.ReferenceIdeal.Read.val_main_v38 Cert.ReferenceIdeal.Read.val_main_v37 Cert.ReferenceIdeal.Read.val_main_c_5
    rfl
  exact (read_of_typed _ _ _ h).trans rfl

set_option maxHeartbeats 1000000 in
theorem src_layer1 :
    V5 m ρ c main_call0_v71 = Cert.ReferenceIdeal.Read.val_main_v42 (F := Ideal) (m ((c : Thread nD τ).loc main_arg1)) := by
  have h : (TRef.of main_call0_v71 : TRef sig ⟨S850000x1, .i32⟩).ofBuf
      (StableHlo.after hostOps2 (W4 m ρ c) (Proc.devRef .tc main_call0_v71))
        = Cert.ReferenceIdeal.Read.val_main_v42 (F := Ideal) (m ((c : Thread nD τ).loc main_arg1)) := by
    eval_results
    rw [W4_first m ρ c main_call0_v3 (by decide) (by not_written) (by decide), src_first]
    unfold Cert.ReferenceIdeal.Read.val_main_v42 Cert.ReferenceIdeal.Read.val_main_v41 Cert.ReferenceIdeal.Read.val_main_v40 Cert.ReferenceIdeal.Read.val_main_v39 Cert.ReferenceIdeal.Read.val_main_c_6 Cert.ReferenceIdeal.Read.val_main_v38 Cert.ReferenceIdeal.Read.val_main_v37 Cert.ReferenceIdeal.Read.val_main_c_5
    rfl
  exact (read_of_typed _ _ _ h).trans rfl

/-! ## The two ends of the labelled edges: a row of the label argument, a negative entry moved up, as a column -/

set_option maxHeartbeats 1000000 in
theorem end_a :
    V7 m ρ c main_call0_v107 = Cert.ReferenceIdeal.Read.val_main_v177 (F := Ideal) (m ((c : Thread nD τ).loc main_arg2)) := by
  have h : (TRef.of main_call0_v107 : TRef sig ⟨S200000x1, .i32⟩).ofBuf
      (StableHlo.after hostOps3 (W6 m ρ c) (Proc.devRef .tc main_call0_v107))
        = Cert.ReferenceIdeal.Read.val_main_v177 (F := Ideal) (m ((c : Thread nD τ).loc main_arg2)) := by
    eval_results
    rw [W6_arg2]
    unfold Cert.ReferenceIdeal.Read.val_main_v177 Cert.ReferenceIdeal.Read.val_main_v176 Cert.ReferenceIdeal.Read.val_main_v175 Cert.ReferenceIdeal.Read.val_main_v174 Cert.ReferenceIdeal.Read.val_main_c_22 Cert.ReferenceIdeal.Read.val_main_v173 Cert.ReferenceIdeal.Read.val_main_v172 Cert.ReferenceIdeal.Read.val_main_c_21 Cert.ReferenceIdeal.Read.val_main_v171 Cert.ReferenceIdeal.Read.val_main_v170
    rfl
  exact (read_of_typed _ _ _ h).trans rfl

set_option maxHeartbeats 1000000 in
theorem end_b :
    V7 m ρ c main_call0_v116 = Cert.ReferenceIdeal.Read.val_main_v186 (F := Ideal) (m ((c : Thread nD τ).loc main_arg2)) := by
  have h : (TRef.of main_call0_v116 : TRef sig ⟨S200000x1, .i32⟩).ofBuf
      (StableHlo.after hostOps3 (W6 m ρ c) (Proc.devRef .tc main_call0_v116))
        = Cert.ReferenceIdeal.Read.val_main_v186 (F := Ideal) (m ((c : Thread nD τ).loc main_arg2)) := by
    eval_results
    rw [W6_arg2]
    unfold Cert.ReferenceIdeal.Read.val_main_v186 Cert.ReferenceIdeal.Read.val_main_v185 Cert.ReferenceIdeal.Read.val_main_v184 Cert.ReferenceIdeal.Read.val_main_v183 Cert.ReferenceIdeal.Read.val_main_c_24 Cert.ReferenceIdeal.Read.val_main_v182 Cert.ReferenceIdeal.Read.val_main_v181 Cert.ReferenceIdeal.Read.val_main_c_23 Cert.ReferenceIdeal.Read.val_main_v180 Cert.ReferenceIdeal.Read.val_main_v179
    rfl
  exact (read_of_typed _ _ _ h).trans rfl

end Cert.KernelIdeal.KValue

end
-- ==== Proof.KIndexWgt.lean ====
/-
  The edge weights of the idealized kernel's run are the reference's.

  Both programs compute the normalised edge weights from the integer edge list alone, by the same chain of host
  operations: the two rows of the edge list, each extended by one self-loop per node; the in-degree of every node as an
  accumulating scatter of ones at the target ends; its reciprocal square root, after clipping below at one; that value
  gathered at the (wrapped) source end and at the (wrapped) target end of every edge; and the product of the two. In the
  kernel's run these operations are the first stretch of host operations, and their result buffer is written by no later
  stretch and is no array of the first two regions, so at the boundaries where the two convolution layers read it, it
  still holds that product: the reference's stage of the same name applied to the same argument.
-/
import proofs.«169681_j33285996544265_2_alg».proof.Proof.KWalk
import proofs.«169681_j33285996544265_2_alg».proof.Proof.KIndex
import proofs.«169681_j33285996544265_2_alg».proof.Proof.Gen.ReferenceIdeal.Read

set_option maxRecDepth 16384

noncomputable section

namespace Cert.KernelIdeal.KValue

open Cert.KernelIdeal Cert.KernelIdeal.Gen
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg) (c : Dev nD)

open Cert.ReferenceIdeal.Read in
set_option maxHeartbeats 1000000 in
/-- After the first stretch the edge-weight buffer holds the reference's edge weights of the edge argument: the two
    expressions agree operation by operation once the identities between a buffer's type and its value's type are removed. -/
theorem wgt_first :
    W1 m ρ c (Proc.devRef .tc main_call0_v28)
      = Cert.ReferenceIdeal.Read.val_main_v28 (F := Ideal) (m ((c : Thread nD τ).loc main_arg1)) := by
  show (TRef.of main_call0_v28 : TRef sig ⟨S850000, .f32⟩).ofBuf
      (StableHlo.after hostOps0 (W0 m ρ c) (Proc.devRef .tc main_call0_v28)) = _
  eval_results
  finish_results
  unfold val_main_v28 val_main_v27 val_main_v26 val_main_v25 val_main_v24 val_main_v23 val_main_c_4 val_main_v22 val_main_v21 val_main_c_3 val_main_v20 val_main_v19 val_main_v18 val_main_v17 val_main_v16 val_main_c_2 val_main_v15 val_main_v14 val_main_c val_main_v13 val_main_v12 val_main_v11 val_main_cst_1 val_main_v10 val_main_v9 val_main_v8 val_main_cst_0 val_main_v7 val_main_cst val_main_v6 val_main_v5 val_main_v4 val_main_v3 val_main_v2 val_main_v1 val_main_v0
  rfl

/-- The first convolution layer reads those weights: region 0 does not write them. -/
theorem wgt_layer0 :
    W2 m ρ c (Proc.devRef .tc main_call0_v28)
      = Cert.ReferenceIdeal.Read.val_main_v28 (F := Ideal) (m ((c : Thread nD τ).loc main_arg1)) :=
  (W2_of_ne m ρ c main_call0_v28 (by decide)).trans (wgt_first m ρ c)

/-- The second convolution layer reads them again: neither the stretch between the regions nor region 1 writes them. -/
theorem wgt_layer1 :
    W4 m ρ c (Proc.devRef .tc main_call0_v28)
      = Cert.ReferenceIdeal.Read.val_main_v28 (F := Ideal) (m ((c : Thread nD τ).loc main_arg1)) :=
  (W4_first m ρ c main_call0_v28 (by decide) (by not_written) (by decide)).trans (wgt_first m ρ c)

end Cert.KernelIdeal.KValue

end
-- ==== Proof.PreReal.lean ====
/-
  From the precondition to "every float input is a real number".

  The precondition computes, for each of the thirteen float arrays, the conjunction over all of its entries of the bit
  "|x| < +∞", and then the conjunction of the thirteen bits. A conjunction of bits that is 1 has every bit 1; a conjunction
  over all entries that is 1 has the bit 1 at every entry; and an extended real whose absolute value max x (−x) lies strictly
  below ⊤ is neither ⊤ nor ⊥ (at either infinity the absolute value is ⊤), so it is the image of a real number.
-/
import Idealize.ShloMosaic.PureOps.Ideal
import Idealize.ShloMosaic.Lib.ValueIdx
import Idealize.ShloMosaic.Lib.ReduceAll
import proofs.«169681_j33285996544265_2_alg».proof.Pre_finite_inputs

noncomputable section

open Idealize.ShloMosaic

namespace Cert.Pre_finite_inputs.PreReal

/-- The shape of a scalar has exactly one index. -/
instance : Subsingleton S_.Idx := ⟨fun a b => funext fun d => d.elim0⟩

/-- The bit pattern 0x7F800000 denotes +∞. -/
theorem ofBits_inf : Ideal.ofBits .f32 0x7F800000#32 = ⊤ := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" bit is 1 exactly when the strict inequality holds. -/
theorem cmp_olt_eq_one (a b : EReal) : Ideal.cmp .olt a b = 1#1 ↔ a < b := by
  unfold Ideal.cmp
  by_cases h : a < b <;> simp [h]

/-- If the all-entries conjunction of "|x| < +∞" over an array of any shape is 1, every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1) :
    ∀ i, ∃ r : ℝ, (x i : EReal) = (r : EReal) := by
  intro i
  have hi := Host.reduce_andi_all _ _ hr hu ValueIdx.ix0 e i
  have hlt : max (x i) (-(x i)) < (⊤ : EReal) := by
    have h2 : Ideal.cmp .olt (max (x i) (-(x i))) (Ideal.ofBits .f32 0x7F800000#32) = 1#1 := hi
    rw [ofBits_inf] at h2
    exact (cmp_olt_eq_one _ _).1 h2
  exact real_of_abs_lt_top _ hlt

/-- A pointwise conjunction of two bit arrays that is 1 at an index has both bits 1 there. -/
theorem andi_apply_eq_one {s : Shape} (x y : IVec s 1) (i : s.Idx) (h : andi x y i = 1#1) :
    x i = 1#1 ∧ y i = 1#1 :=
  IntOp.andi_eq_one.1 h

/-- Under the precondition every entry of every float input is a real number. -/
theorem real_of_pre [Facts]
    (a0 : FVec Ideal S50000x128 .f32) (a1 : IVec S2x800000 32) (a2 : IVec S2x200000 32)
    (a3 a4 : FVec Ideal S50000x256 .f32) (a5 : FVec Ideal S128x256 .f32) (a6 : FVec Ideal S256 .f32)
    (a7 : FVec Ideal S2x256x256 .f32) (a8 : FVec Ideal S2x256 .f32) (a9 a10 : FVec Ideal S2x768x256 .f32)
    (a11 a12 : FVec Ideal S2x768 .f32) (a13 : FVec Ideal S256x2 .f32) (a14 : FVec Ideal S2 .f32)
    (h : fn (F := Ideal) a0 a1 a2 a3 a4 a5 a6 a7 a8 a9 a10 a11 a12 a13 a14 = fun _ => 1#1) :
    (∀ i, ∃ r : ℝ, (a0 i : EReal) = (r : EReal)) ∧ (∀ i, ∃ r : ℝ, (a3 i : EReal) = (r : EReal)) ∧
    (∀ i, ∃ r : ℝ, (a4 i : EReal) = (r : EReal)) ∧ (∀ i, ∃ r : ℝ, (a5 i : EReal) = (r : EReal)) ∧
    (∀ i, ∃ r : ℝ, (a6 i : EReal) = (r : EReal)) ∧ (∀ i, ∃ r : ℝ, (a7 i : EReal) = (r : EReal)) ∧
    (∀ i, ∃ r : ℝ, (a8 i : EReal) = (r : EReal)) ∧ (∀ i, ∃ r : ℝ, (a9 i : EReal) = (r : EReal)) ∧
    (∀ i, ∃ r : ℝ, (a10 i : EReal) = (r : EReal)) ∧ (∀ i, ∃ r : ℝ, (a11 i : EReal) = (r : EReal)) ∧
    (∀ i, ∃ r : ℝ, (a12 i : EReal) = (r : EReal)) ∧ (∀ i, ∃ r : ℝ, (a13 i : EReal) = (r : EReal)) ∧
    (∀ i, ∃ r : ℝ, (a14 i : EReal) = (r : EReal)) := by
  have h0 := congrFun h ValueIdx.ix0
  dsimp only [fn, fn_part1, fn_part2, fn_part3] at h0
  obtain ⟨h58, e14⟩ := andi_apply_eq_one _ _ _ h0
  obtain ⟨h53, e13⟩ := andi_apply_eq_one _ _ _ h58
  obtain ⟨h48, e12⟩ := andi_apply_eq_one _ _ _ h53
  obtain ⟨h43, e11⟩ := andi_apply_eq_one _ _ _ h48
  obtain ⟨h38, e10⟩ := andi_apply_eq_one _ _ _ h43
  obtain ⟨h33, e9⟩ := andi_apply_eq_one _ _ _ h38
  obtain ⟨h28, e8⟩ := andi_apply_eq_one _ _ _ h33
  obtain ⟨h23, e7⟩ := andi_apply_eq_one _ _ _ h28
  obtain ⟨h18, e6⟩ := andi_apply_eq_one _ _ _ h23
  obtain ⟨h13, e5⟩ := andi_apply_eq_one _ _ _ h18
  obtain ⟨h8, e4⟩ := andi_apply_eq_one _ _ _ h13
  obtain ⟨e0, e3⟩ := andi_apply_eq_one _ _ _ h8
  exact ⟨all_real a0 _ _ _ e0, all_real a3 _ _ _ e3, all_real a4 _ _ _ e4, all_real a5 _ _ _ e5,
    all_real a6 _ _ _ e6, all_real a7 _ _ _ e7, all_real a8 _ _ _ e8, all_real a9 _ _ _ e9,
    all_real a10 _ _ _ e10, all_real a11 _ _ _ e11, all_real a12 _ _ _ e12, all_real a13 _ _ _ e13,
    all_real a14 _ _ _ e14⟩

end Cert.Pre_finite_inputs.PreReal

end
-- ==== Proof.KPreReal.lean ====
/-
  The launch arguments are real numbers, entry by entry.

  The precondition of the claim says that the conjunction, over every entry of every float argument, of the bit "|x| < +∞" is
  one. So every entry of every float argument is (the image of) a real number. This module restates that fact for the
  idealized kernel's launch memory, argument by argument and at explicit coordinates — the form in which the laws that need
  finiteness (a product distributing over a sum) take it.
-/
import proofs.«169681_j33285996544265_2_alg».proof.Defs
import proofs.«169681_j33285996544265_2_alg».proof.Proof.PreReal
import proofs.«169681_j33285996544265_2_alg».proof.Proof.LibLinear

noncomputable section

namespace Cert.KernelIdeal.KValue

open Cert.KernelIdeal Idealize.ShloMosaic Idealize.ShloMosaic.TcCoe Idealize.ShloMosaic.ValueIdx Idealize.SL.Sem

variable [Cert.Pre_finite_inputs.Facts] (m : (ℓ : Loc nD τ sig) → Buf (Elt Ideal) ℓ)

/-- Under the precondition, every entry of each of the thirteen float arguments of the launch memory is a real number (in the
    order arguments 0, 3, 4, 5, …, 14). -/
theorem args_real_all (hpre : Cert.Pre_KernelIdeal m) (c : Dev nD) :
    (∀ i, ∃ r : ℝ, ((m ((c : Thread nD τ).loc main_arg0) : S50000x128.Idx → EReal) i : EReal) = (r : EReal))
      ∧ (∀ i, ∃ r : ℝ, ((m ((c : Thread nD τ).loc main_arg3) : S50000x256.Idx → EReal) i : EReal) = (r : EReal))
      ∧ (∀ i, ∃ r : ℝ, ((m ((c : Thread nD τ).loc main_arg4) : S50000x256.Idx → EReal) i : EReal) = (r : EReal))
      ∧ (∀ i, ∃ r : ℝ, ((m ((c : Thread nD τ).loc main_arg5) : S128x256.Idx → EReal) i : EReal) = (r : EReal))
      ∧ (∀ i, ∃ r : ℝ, ((m ((c : Thread nD τ).loc main_arg6) : S256.Idx → EReal) i : EReal) = (r : EReal))
      ∧ (∀ i, ∃ r : ℝ, ((m ((c : Thread nD τ).loc main_arg7) : S2x256x256.Idx → EReal) i : EReal) = (r : EReal))
      ∧ (∀ i, ∃ r : ℝ, ((m ((c : Thread nD τ).loc main_arg8) : S2x256.Idx → EReal) i : EReal) = (r : EReal))
      ∧ (∀ i, ∃ r : ℝ, ((m ((c : Thread nD τ).loc main_arg9) : S2x768x256.Idx → EReal) i : EReal) = (r : EReal))
      ∧ (∀ i, ∃ r : ℝ, ((m ((c : Thread nD τ).loc main_arg10) : S2x768x256.Idx → EReal) i : EReal) = (r : EReal))
      ∧ (∀ i, ∃ r : ℝ, ((m ((c : Thread nD τ).loc main_arg11) : S2x768.Idx → EReal) i : EReal) = (r : EReal))
      ∧ (∀ i, ∃ r : ℝ, ((m ((c : Thread nD τ).loc main_arg12) : S2x768.Idx → EReal) i : EReal) = (r : EReal))
      ∧ (∀ i, ∃ r : ℝ, ((m ((c : Thread nD τ).loc main_arg13) : S256x2.Idx → EReal) i : EReal) = (r : EReal))
      ∧ (∀ i, ∃ r : ℝ, ((m ((c : Thread nD τ).loc main_arg14) : S2.Idx → EReal) i : EReal) = (r : EReal)) :=
  Cert.Pre_finite_inputs.PreReal.real_of_pre _ _ _ _ _ _ _ _ _ _ _ _ _ _ _ (hpre c)

/-- Every entry of argument 0 (the node features) is a real number. -/
theorem real_arg0 (hpre : Cert.Pre_KernelIdeal m) (c : Dev nD) (p : Fin 50000) (k : Fin 128) :
    Gnn.IsReal ((m ((c : Thread nD τ).loc main_arg0) : S50000x128.Idx → EReal) (ix2 p k)) :=
  (args_real_all m hpre c).1 (ix2 p k)

/-- Every entry of argument 3 is a real number. -/
theorem real_arg3 (hpre : Cert.Pre_KernelIdeal m) (c : Dev nD) (p : Fin 50000) (k : Fin 256) :
    Gnn.IsReal ((m ((c : Thread nD τ).loc main_arg3) : S50000x256.Idx → EReal) (ix2 p k)) :=
  (args_real_all m hpre c).2.1 (ix2 p k)

/-- Every entry of argument 4 is a real number. -/
theorem real_arg4 (hpre : Cert.Pre_KernelIdeal m) (c : Dev nD) (p : Fin 50000) (k : Fin 256) :
    Gnn.IsReal ((m ((c : Thread nD τ).loc main_arg4) : S50000x256.Idx → EReal) (ix2 p k)) :=
  (args_real_all m hpre c).2.2.1 (ix2 p k)

/-- Every entry of argument 5 is a real number. -/
theorem real_arg5 (hpre : Cert.Pre_KernelIdeal m) (c : Dev nD) (k : Fin 128) (q : Fin 256) :
    Gnn.IsReal ((m ((c : Thread nD τ).loc main_arg5) : S128x256.Idx → EReal) (ix2 k q)) :=
  (args_real_all m hpre c).2.2.2.1 (ix2 k q)

/-- Every entry of argument 6 is a real number. -/
theorem real_arg6 (hpre : Cert.Pre_KernelIdeal m) (c : Dev nD) (q : Fin 256) :
    Gnn.IsReal ((m ((c : Thread nD τ).loc main_arg6) : S256.Idx → EReal) (ix1 q)) :=
  (args_real_all m hpre c).2.2.2.2.1 (ix1 q)

/-- Every entry of argument 7 is a real number. -/
theorem real_arg7 (hpre : Cert.Pre_KernelIdeal m) (c : Dev nD) (z : Fin 2) (k q : Fin 256) :
    Gnn.IsReal ((m ((c : Thread nD τ).loc main_arg7) : S2x256x256.Idx → EReal) (ix3 z k q)) :=
  (args_real_all m hpre c).2.2.2.2.2.1 (ix3 z k q)

/-- Every entry of argument 8 is a real number. -/
theorem real_arg8 (hpre : Cert.Pre_KernelIdeal m) (c : Dev nD) (z : Fin 2) (q : Fin 256) :
    Gnn.IsReal ((m ((c : Thread nD τ).loc main_arg8) : S2x256.Idx → EReal) (ix2 z q)) :=
  (args_real_all m hpre c).2.2.2.2.2.2.1 (ix2 z q)

/-- Every entry of argument 9 is a real number. -/
theorem real_arg9 (hpre : Cert.Pre_KernelIdeal m) (c : Dev nD) (z : Fin 2) (cc : Fin 768) (k : Fin 256) :
    Gnn.IsReal ((m ((c : Thread nD τ).loc main_arg9) : S2x768x256.Idx → EReal) (ix3 z cc k)) :=
  (args_real_all m hpre c).2.2.2.2.2.2.2.1 (ix3 z cc k)

/-- Every entry of argument 10 is a real number. -/
theorem real_arg10 (hpre : Cert.Pre_KernelIdeal m) (c : Dev nD) (z : Fin 2) (cc : Fin 768) (k : Fin 256) :
    Gnn.IsReal ((m ((c : Thread nD τ).loc main_arg10) : S2x768x256.Idx → EReal) (ix3 z cc k)) :=
  (args_real_all m hpre c).2.2.2.2.2.2.2.2.1 (ix3 z cc k)

/-- Every entry of argument 11 is a real number. -/
theorem real_arg11 (hpre : Cert.Pre_KernelIdeal m) (c : Dev nD) (z : Fin 2) (cc : Fin 768) :
    Gnn.IsReal ((m ((c : Thread nD τ).loc main_arg11) : S2x768.Idx → EReal) (ix2 z cc)) :=
  (args_real_all m hpre c).2.2.2.2.2.2.2.2.2.1 (ix2 z cc)

/-- Every entry of argument 12 is a real number. -/
theorem real_arg12 (hpre : Cert.Pre_KernelIdeal m) (c : Dev nD) (z : Fin 2) (cc : Fin 768) :
    Gnn.IsReal ((m ((c : Thread nD τ).loc main_arg12) : S2x768.Idx → EReal) (ix2 z cc)) :=
  (args_real_all m hpre c).2.2.2.2.2.2.2.2.2.2.1 (ix2 z cc)

/-- Every entry of argument 13 is a real number. -/
theorem real_arg13 (hpre : Cert.Pre_KernelIdeal m) (c : Dev nD) (k : Fin 256) (cc : Fin 2) :
    Gnn.IsReal ((m ((c : Thread nD τ).loc main_arg13) : S256x2.Idx → EReal) (ix2 k cc)) :=
  (args_real_all m hpre c).2.2.2.2.2.2.2.2.2.2.2.1 (ix2 k cc)

/-- Every entry of argument 14 is a real number. -/
theorem real_arg14 (hpre : Cert.Pre_KernelIdeal m) (c : Dev nD) (cc : Fin 2) :
    Gnn.IsReal ((m ((c : Thread nD τ).loc main_arg14) : S2.Idx → EReal) (ix1 cc)) :=
  (args_real_all m hpre c).2.2.2.2.2.2.2.2.2.2.2.2 (ix1 cc)

/-- The eleven arguments whose finiteness the network's two layers and the pre-transform use, together. -/
theorem args_real (hpre : Cert.Pre_KernelIdeal m) (c : Dev nD) :
    (∀ (p : Fin 50000) (k : Fin 128), Gnn.IsReal ((m ((c : Thread nD τ).loc main_arg0) : S50000x128.Idx → EReal) (ix2 p k)))
      ∧ (∀ (k : Fin 128) (q : Fin 256), Gnn.IsReal ((m ((c : Thread nD τ).loc main_arg5) : S128x256.Idx → EReal) (ix2 k q)))
      ∧ (∀ (q : Fin 256), Gnn.IsReal ((m ((c : Thread nD τ).loc main_arg6) : S256.Idx → EReal) (ix1 q)))
      ∧ (∀ (z : Fin 2) (k q : Fin 256), Gnn.IsReal ((m ((c : Thread nD τ).loc main_arg7) : S2x256x256.Idx → EReal) (ix3 z k q)))
      ∧ (∀ (z : Fin 2) (q : Fin 256), Gnn.IsReal ((m ((c : Thread nD τ).loc main_arg8) : S2x256.Idx → EReal) (ix2 z q)))
      ∧ (∀ (p : Fin 50000) (k : Fin 256), Gnn.IsReal ((m ((c : Thread nD τ).loc main_arg3) : S50000x256.Idx → EReal) (ix2 p k)))
      ∧ (∀ (p : Fin 50000) (k : Fin 256), Gnn.IsReal ((m ((c : Thread nD τ).loc main_arg4) : S50000x256.Idx → EReal) (ix2 p k)))
      ∧ (∀ (z : Fin 2) (cc : Fin 768) (k : Fin 256), Gnn.IsReal ((m ((c : Thread nD τ).loc main_arg9) : S2x768x256.Idx → EReal) (ix3 z cc k)))
      ∧ (∀ (z : Fin 2) (cc : Fin 768) (k : Fin 256), Gnn.IsReal ((m ((c : Thread nD τ).loc main_arg10) : S2x768x256.Idx → EReal) (ix3 z cc k)))
      ∧ (∀ (z : Fin 2) (cc : Fin 768), Gnn.IsReal ((m ((c : Thread nD τ).loc main_arg11) : S2x768.Idx → EReal) (ix2 z cc)))
      ∧ (∀ (z : Fin 2) (cc : Fin 768), Gnn.IsReal ((m ((c : Thread nD τ).loc main_arg12) : S2x768.Idx → EReal) (ix2 z cc))) :=
  ⟨real_arg0 m hpre c, real_arg5 m hpre c, real_arg6 m hpre c, real_arg7 m hpre c, real_arg8 m hpre c, real_arg3 m hpre c, real_arg4 m hpre c, real_arg9 m hpre c, real_arg10 m hpre c, real_arg11 m hpre c, real_arg12 m hpre c⟩

end Cert.KernelIdeal.KValue

end
-- ==== Proof.NrmReal.lean ====
/-
  The reference's edge weights are real numbers at every edge, whatever the integer index array.

  The reference computes the DEGREE of every node as an accumulating scatter of the constant 1 into the constant 0
  (a finite sum of ones, so a real number), clips it below at 1, takes the reciprocal square root, and gives edge `e` the
  weight `s[a e] · s[b e]` where `s` is that array of reciprocal square roots and `a e`, `b e` are the rows two gathers
  read. A gather reads its operand at SOME index, so it is enough that every entry of `s` is real: the clipped degree is
  real and at least 1, the reciprocal square root of such a number is real, and a product of two reals is real.
-/
import proofs.«169681_j33285996544265_2_alg».proof.Proof.Gen.ReferenceIdeal.Read
import proofs.«169681_j33285996544265_2_alg».proof.Proof.LibLinear

noncomputable section

open Idealize.ShloMosaic Idealize.ShloMosaic.ValueIdx
open Cert.ReferenceIdeal Cert.ReferenceIdeal.Gen Cert.ReferenceIdeal.Read

namespace Cert.ReferenceIdeal.NrmReal

/-- The scatter's operand is the constant 0. -/
theorem v8_eq (i : S50000.Idx) : val_main_v8 (F := Ideal) i = 0 := by
  rw [val_main_v8_apply, val_main_cst_0_apply]
  exact Gnn.ofBits_zero

/-- The scatter's updates are the constant 1. -/
theorem v7_eq (i : S850000.Idx) : val_main_v7 (F := Ideal) i = 1 := by
  rw [val_main_v7_apply, val_main_cst_apply]
  exact Gnn.ofBits_one

/-- The clip level is the constant 1. -/
theorem v11_eq (i : S50000.Idx) : val_main_v11 (F := Ideal) i = 1 := by
  rw [val_main_v11_apply, val_main_cst_1_apply]
  exact Gnn.ofBits_one

/-- Every degree is a real number: zero plus a finite sum of ones. -/
theorem v10_real (x1 : (⟨S2x800000, .i32⟩ : BufTy).Contents (Elt Ideal)) (i : S50000.Idx) :
    Gnn.IsReal (val_main_v10 (F := Ideal) x1 i) := by
  unfold val_main_v10
  refine Gnn.isReal_scatterAdd _ _ _ _ (fun i => ?_) (fun j => ?_) i
  · rw [v8_eq]; exact Gnn.isReal_zero
  · rw [v7_eq]; exact Gnn.isReal_one

/-- Every clipped degree is a real number and at least 1. -/
theorem v12_real (x1 : (⟨S2x800000, .i32⟩ : BufTy).Contents (Elt Ideal)) (i : S50000.Idx) :
    Gnn.IsReal (val_main_v12 (F := Ideal) x1 i) ∧ 1 ≤ val_main_v12 (F := Ideal) x1 i := by
  rw [val_main_v12_apply, Ideal.maximumf_def, v11_eq]
  exact ⟨Gnn.isReal_max (v10_real x1 i) Gnn.isReal_one, le_max_right _ _⟩

/-- Every reciprocal square root of a clipped degree is a real number. -/
theorem v13_real (x1 : (⟨S2x800000, .i32⟩ : BufTy).Contents (Elt Ideal)) (i : S50000.Idx) :
    Gnn.IsReal (val_main_v13 (F := Ideal) x1 i) := by
  rw [val_main_v13_apply, Ideal.hostUnary_rsqrt_def]
  exact Gnn.isReal_rsqrt (v12_real x1 i).1 (v12_real x1 i).2

/-- The first gathered factor is an entry of that array, so it is real. -/
theorem v20_real (x1 : (⟨S2x800000, .i32⟩ : BufTy).Contents (Elt Ideal)) (i : S850000.Idx) :
    Gnn.IsReal (val_main_v20 (F := Ideal) x1 i) := by
  unfold val_main_v20 Host.gather
  exact v13_real x1 _

/-- The second gathered factor is an entry of that array, so it is real. -/
theorem v27_real (x1 : (⟨S2x800000, .i32⟩ : BufTy).Contents (Elt Ideal)) (i : S850000.Idx) :
    Gnn.IsReal (val_main_v27 (F := Ideal) x1 i) := by
  unfold val_main_v27 Host.gather
  exact v13_real x1 _

/-- THE EDGE WEIGHTS ARE REAL: the weight of edge `e` is a product of two real factors. -/
theorem nrm_real (x1 : (⟨S2x800000, .i32⟩ : BufTy).Contents (Elt Ideal)) (e : Fin 850000) :
    Gnn.IsReal (Cert.ReferenceIdeal.Read.val_main_v28 (F := Ideal) x1 (ix1 e)) := by
  rw [val_main_v28_apply, Ideal.mulf_def]
  exact Gnn.isReal_mul (v20_real x1 _) (v27_real x1 _)

end Cert.ReferenceIdeal.NrmReal

end
-- ==== Proof.RefValue.lean ====
/-
  The reference network read index by index.

  Every float stage of the reference program is read at one entry and identified with the corresponding stage of the
  specification: the dense pre-transform clipped at zero; then, twice, the projection of every row by the layer's square
  matrix, the rows gathered along the edges and scaled by the edge weights, their accumulation at the edge targets, the
  bias and the clipping, the two gate pre-activations and the GRU blend; last, the Hadamard product of the two end rows of
  every labelled edge projected onto two columns and summed. The integer arrays that say where an edge starts and ends,
  and the edge weights, are never opened: they enter only through the row a gather reads (the start index clamped), the
  row a scatter adds to (the index when it names a row), and the weight's entry.
-/
import proofs.«169681_j33285996544265_2_alg».proof.Proof.Gen.ReferenceIdeal.Read
import proofs.«169681_j33285996544265_2_alg».proof.Proof.Spec
import proofs.«169681_j33285996544265_2_alg».proof.Proof.LibGatherRows
import proofs.«169681_j33285996544265_2_alg».proof.Proof.LibScatterRows
import proofs.«169681_j33285996544265_2_alg».proof.Proof.LibRowBroadcast
import proofs.«169681_j33285996544265_2_alg».proof.Proof.Net

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S50000x128, .f32⟩ : BufTy).Contents (Elt Ideal))
  (x1 : (⟨S2x800000, .i32⟩ : BufTy).Contents (Elt Ideal))
  (x2 : (⟨S2x200000, .i32⟩ : BufTy).Contents (Elt Ideal))
  (x3 x4 : (⟨S50000x256, .f32⟩ : BufTy).Contents (Elt Ideal))
  (x5 : (⟨S128x256, .f32⟩ : BufTy).Contents (Elt Ideal))
  (x6 : (⟨S256, .f32⟩ : BufTy).Contents (Elt Ideal))
  (x7 : (⟨S2x256x256, .f32⟩ : BufTy).Contents (Elt Ideal))
  (x8 : (⟨S2x256, .f32⟩ : BufTy).Contents (Elt Ideal))
  (x9 x10 : (⟨S2x768x256, .f32⟩ : BufTy).Contents (Elt Ideal))
  (x11 x12 : (⟨S2x768, .f32⟩ : BufTy).Contents (Elt Ideal))
  (x13 : (⟨S256x2, .f32⟩ : BufTy).Contents (Elt Ideal))
  (x14 : (⟨S2, .f32⟩ : BufTy).Contents (Elt Ideal))

/-! ## The opaque edge data -/

/-- The node an edge's message is added to: the scatter index when it names a node. -/
abbrev tgt : Fin 850000 → Option (Fin 50000) := ScatterRows.tgt 50000 (val_main_v48 (F := Ideal) x1)
/-- The node an edge's message is read from: the gather's start index, clamped. -/
abbrev src : Fin 850000 → Fin 50000 := GatherRows.row 50000 (by decide) (val_main_v42 (F := Ideal) x1)
/-- The edge's weight. -/
abbrev nrm : Fin 850000 → EReal := fun e => val_main_v28 (F := Ideal) x1 (ix1 e)
/-- The two end nodes of a labelled edge. -/
abbrev ia : Fin 200000 → Fin 50000 := GatherRows.row 50000 (by decide) (val_main_v177 (F := Ideal) x2)
abbrev ib : Fin 200000 → Fin 50000 := GatherRows.row 50000 (by decide) (val_main_v186 (F := Ideal) x2)

/-- The second layer gathers and scatters by the same index arrays as the first. -/
theorem src_again : val_main_v110 (F := Ideal) x1 = val_main_v42 (F := Ideal) x1 := rfl
theorem tgt_again : val_main_v116 (F := Ideal) x1 = val_main_v48 (F := Ideal) x1 := rfl

/-! ## The node states -/

/-- The pre-transform: a dense layer clipped at zero. -/
abbrev H0 : Fin 50000 → Fin 256 → EReal := fun p q =>
  Gnn.relu (Gnn.dense (fun p k => (x0 (ix2 p k) : EReal)) (fun k q => (x5 (ix2 k q) : EReal)) (fun q => (x6 (ix1 q) : EReal)) p q)

/-- The state after the first layer. -/
abbrev H1 : Fin 50000 → Fin 256 → EReal :=
  Gnn.layerPA (tgt x1) (src x1) (nrm x1) (H0 x0 x5 x6)
    (fun k q => (x7 (ix3 (0 : Fin 2) k q) : EReal)) (fun q => (x8 (ix2 (0 : Fin 2) q) : EReal)) (fun p k => (x3 (ix2 p k) : EReal))
    (fun cc k => (x9 (ix3 (0 : Fin 2) cc k) : EReal)) (fun cc k => (x10 (ix3 (0 : Fin 2) cc k) : EReal))
    (fun cc => (x11 (ix2 (0 : Fin 2) cc) : EReal)) (fun cc => (x12 (ix2 (0 : Fin 2) cc) : EReal))

/-- The state after the second layer. -/
abbrev H2 : Fin 50000 → Fin 256 → EReal :=
  Gnn.layerPA (tgt x1) (src x1) (nrm x1) (H1 x0 x1 x3 x5 x6 x7 x8 x9 x10 x11 x12)
    (fun k q => (x7 (ix3 (1 : Fin 2) k q) : EReal)) (fun q => (x8 (ix2 (1 : Fin 2) q) : EReal)) (fun p k => (x4 (ix2 p k) : EReal))
    (fun cc k => (x9 (ix3 (1 : Fin 2) cc k) : EReal)) (fun cc k => (x10 (ix3 (1 : Fin 2) cc k) : EReal))
    (fun cc => (x11 (ix2 (1 : Fin 2) cc) : EReal)) (fun cc => (x12 (ix2 (1 : Fin 2) cc) : EReal))

/-! ## The pre-transform -/

/-- The bias row spread over the rows: entry `(p, q)` is the bias's entry `q`. -/
theorem pre_bias_at (p : Fin 50000) (q : Fin 256) : val_main_v31 (F := Ideal) x6 (ix2 p q) = x6 (ix1 q) :=
  (val_main_v31_apply x6 _).trans ((val_main_v30_apply x6 _).trans (congrArg x6
    (funext fun a => Fin.ext (by match a with | ⟨0, _⟩ => rfl))))

theorem pre_at (p : Fin 50000) (q : Fin 256) : val_main_v33 (F := Ideal) x0 x5 x6 (ix2 p q) = H0 x0 x5 x6 p q := by
  have hl : ∀ k : Fin 128, lidx_main_v29 (ix2 p q) k = ix2 p k := fun k => funext fun a => Fin.ext (by match a with | ⟨0, _⟩ => rfl | ⟨1, _⟩ => rfl)
  have hr : ∀ k : Fin 128, ridx_main_v29 (ix2 p q) k = ix2 k q := fun k => funext fun a => Fin.ext (by match a with | ⟨0, _⟩ => rfl | ⟨1, _⟩ => rfl)
  rw [val_main_v33_apply, val_main_v32_apply, val_main_v29_apply, pre_bias_at, val_main_call0_v0_apply,
    val_main_call0_cst_apply]
  simp only [hl, hr, Ideal.maximumf_def, Ideal.addf_def, Ideal.ofBits_def, Gnn.ofBits_zero]
  rfl

/-! ## Layer 0 -/

/-- The layer's square matrix: the slice of the stacked matrices, reshaped, read at `(k, q)`. -/
theorem cw0_at (k q : Fin 256) : val_main_v35 (F := Ideal) x7 (ix2 k q) = x7 (ix3 (0 : Fin 2) k q) :=
  (val_main_v35_apply x7 _).trans ((val_main_v34_apply x7 _).trans (congrArg x7 (funext fun a => Fin.ext (by
    have hk := k.isLt; have hq := q.isLt
    match a with
    | ⟨0, _⟩ => rfl
    | ⟨1, _⟩ => show (k.val * 256 + q.val) / 256 % 256 = k.val; omega
    | ⟨2, _⟩ => show (k.val * 256 + q.val) % 256 = q.val; omega))))

/-- The layer's bias row spread over the rows. -/
theorem cb0_at (p : Fin 50000) (q : Fin 256) : val_main_v53 (F := Ideal) x8 (ix2 p q) = x8 (ix2 (0 : Fin 2) q) :=
  (val_main_v53_apply x8 _).trans ((val_main_v52_apply x8 _).trans ((val_main_v51_apply x8 _).trans
    ((val_main_v50_apply x8 _).trans (congrArg x8 (funext fun a => Fin.ext (by
      have hq := q.isLt
      match a with
      | ⟨0, _⟩ => rfl
      | ⟨1, _⟩ => show q.val % 256 = q.val; omega))))))

/-- The input gates' weights, transposed for the product: entry `(k, cc)` is the stacked matrix's `(layer, cc, k)`. -/
theorem wih0_at (k : Fin 256) (cc : Fin 768) : val_main_v58 (F := Ideal) x9 (ix2 k cc) = x9 (ix3 (0 : Fin 2) cc k) :=
  (val_main_v58_apply x9 _).trans ((val_main_v57_apply x9 _).trans ((val_main_v56_apply x9 _).trans
    (congrArg x9 (funext fun a => Fin.ext (by
      have hk := k.isLt; have hc := cc.isLt
      match a with
      | ⟨0, _⟩ => rfl
      | ⟨1, _⟩ => show (cc.val * 256 + k.val) / 256 % 768 = cc.val; omega
      | ⟨2, _⟩ => show (cc.val * 256 + k.val) % 256 = k.val; omega)))))

/-- The state gates' weights, likewise. -/
theorem whh0_at (k : Fin 256) (cc : Fin 768) : val_main_v67 (F := Ideal) x10 (ix2 k cc) = x10 (ix3 (0 : Fin 2) cc k) :=
  (val_main_v67_apply x10 _).trans ((val_main_v66_apply x10 _).trans ((val_main_v65_apply x10 _).trans
    (congrArg x10 (funext fun a => Fin.ext (by
      have hk := k.isLt; have hc := cc.isLt
      match a with
      | ⟨0, _⟩ => rfl
      | ⟨1, _⟩ => show (cc.val * 256 + k.val) / 256 % 768 = cc.val; omega
      | ⟨2, _⟩ => show (cc.val * 256 + k.val) % 256 = k.val; omega)))))

/-- The two gate biases spread over the rows. -/
theorem bih0_at (p : Fin 50000) (cc : Fin 768) : val_main_v63 (F := Ideal) x11 (ix2 p cc) = x11 (ix2 (0 : Fin 2) cc) :=
  (val_main_v63_apply x11 _).trans ((val_main_v62_apply x11 _).trans ((val_main_v61_apply x11 _).trans
    ((val_main_v60_apply x11 _).trans (congrArg x11 (funext fun a => Fin.ext (by
      have hc := cc.isLt
      match a with
      | ⟨0, _⟩ => rfl
      | ⟨1, _⟩ => show cc.val % 768 = cc.val; omega))))))

theorem bhh0_at (p : Fin 50000) (cc : Fin 768) : val_main_v72 (F := Ideal) x12 (ix2 p cc) = x12 (ix2 (0 : Fin 2) cc) :=
  (val_main_v72_apply x12 _).trans ((val_main_v71_apply x12 _).trans ((val_main_v70_apply x12 _).trans
    ((val_main_v69_apply x12 _).trans (congrArg x12 (funext fun a => Fin.ext (by
      have hc := cc.isLt
      match a with
      | ⟨0, _⟩ => rfl
      | ⟨1, _⟩ => show cc.val % 768 = cc.val; omega))))))

/-- Every row projected by the layer's matrix. -/
theorem proj0_at (p : Fin 50000) (q : Fin 256) :
    val_main_v36 (F := Ideal) x0 x5 x6 x7 (ix2 p q) = Gnn.proj (H0 x0 x5 x6) (fun k q => (x7 (ix3 (0 : Fin 2) k q) : EReal)) p q := by
  have hl : ∀ k : Fin 256, lidx_main_v36 (ix2 p q) k = ix2 p k := fun k => funext fun a => Fin.ext (by match a with | ⟨0, _⟩ => rfl | ⟨1, _⟩ => rfl)
  have hr : ∀ k : Fin 256, ridx_main_v36 (ix2 p q) k = ix2 k q := fun k => funext fun a => Fin.ext (by match a with | ⟨0, _⟩ => rfl | ⟨1, _⟩ => rfl)
  rw [val_main_v36_apply]
  simp only [hl, hr, pre_at, cw0_at]
  rfl

/-- The message of edge `e`: the projected row of its source, scaled by the edge's weight. -/
theorem msg0_at (e : Fin 850000) (q : Fin 256) :
    val_main_v46 (F := Ideal) x0 x1 x5 x6 x7 (ix2 e q) = Gnn.proj (H0 x0 x5 x6) (fun k q => (x7 (ix3 (0 : Fin 2) k q) : EReal)) (src x1 e) q * nrm x1 e := by
  have hg : val_main_v43 (F := Ideal) x0 x1 x5 x6 x7 (ix2 e q) = val_main_v36 (F := Ideal) x0 x5 x6 x7 (ix2 (GatherRows.row 50000 (by decide) (val_main_v42 (F := Ideal) x1) e) q) := by
    unfold val_main_v43
    exact GatherRows.gather_rows_apply (by decide) _ rfl rfl rfl rfl rfl rfl _ _ (ix2 e q)
  have hw : val_main_v45 (F := Ideal) x1 (ix2 e q) = val_main_v28 (F := Ideal) x1 (ix1 e) :=
    (val_main_v45_apply x1 _).trans ((val_main_v44_apply x1 _).trans (congrArg (val_main_v28 (F := Ideal) x1)
      (funext fun a => Fin.ext (by match a with | ⟨0, _⟩ => rfl))))
  rw [val_main_v46_apply, hg, hw, proj0_at]
  rfl

/-- What node `p` receives: the messages of the edges whose target is `p`, summed. -/
theorem agg0_at (p : Fin 50000) (q : Fin 256) :
    val_main_v49 (F := Ideal) x0 x1 x5 x6 x7 (ix2 p q) = Gnn.aggregate (tgt x1) (src x1) (nrm x1) (Gnn.proj (H0 x0 x5 x6) (fun k q => (x7 (ix3 (0 : Fin 2) k q) : EReal))) p q := by
  unfold val_main_v49
  refine (ScatterRows.scatterAdd_rows_apply _ rfl rfl rfl rfl (val_main_v47 (F := Ideal)) (val_main_v48 (F := Ideal) x1)
    (val_main_v46 (F := Ideal) x0 x1 x5 x6 x7) p q).trans ?_
  rw [val_main_v47_apply, val_main_cst_7_apply]
  simp only [Ideal.ofBits_def, Gnn.ofBits_zero, zero_add, msg0_at]
  rfl

/-- The input of the cell: the aggregate plus the bias, clipped at zero. -/
theorem conv0_at (p : Fin 50000) (q : Fin 256) :
    val_main_v55 (F := Ideal) x0 x1 x5 x6 x7 x8 (ix2 p q) = (fun p k => Gnn.relu (Gnn.aggregate (tgt x1) (src x1) (nrm x1) (Gnn.proj (H0 x0 x5 x6) (fun k q => (x7 (ix3 (0 : Fin 2) k q) : EReal))) p k + (fun q => (x8 (ix2 (0 : Fin 2) q) : EReal)) k)) p q := by
  rw [val_main_v55_apply, val_main_v54_apply, agg0_at, cb0_at, val_main_call1_v0_apply, val_main_call1_cst_apply]
  simp only [Ideal.maximumf_def, Ideal.addf_def, Ideal.ofBits_def, Gnn.ofBits_zero]
  rfl

/-- The gate pre-activations of the cell's input and of the previous state, as functions of the row and the gate column. -/
def GI0 : Fin 50000 → Fin 768 → EReal := Gnn.gate (fun p k => Gnn.relu (Gnn.aggregate (tgt x1) (src x1) (nrm x1) (Gnn.proj (H0 x0 x5 x6) (fun k q => (x7 (ix3 (0 : Fin 2) k q) : EReal))) p k + (fun q => (x8 (ix2 (0 : Fin 2) q) : EReal)) k)) (fun cc k => (x9 (ix3 (0 : Fin 2) cc k) : EReal)) (fun cc => (x11 (ix2 (0 : Fin 2) cc) : EReal))
def GH0 : Fin 50000 → Fin 768 → EReal := Gnn.gate (fun p k => (x3 (ix2 p k) : EReal)) (fun cc k => (x10 (ix3 (0 : Fin 2) cc k) : EReal)) (fun cc => (x12 (ix2 (0 : Fin 2) cc) : EReal))

theorem gi0_at (p : Fin 50000) (cc : Fin 768) : val_main_v64 (F := Ideal) x0 x1 x5 x6 x7 x8 x9 x11 (ix2 p cc) = GI0 x0 x1 x5 x6 x7 x8 x9 x11 p cc := by
  have hl : ∀ k : Fin 256, lidx_main_v59 (ix2 p cc) k = ix2 p k := fun k => funext fun a => Fin.ext (by match a with | ⟨0, _⟩ => rfl | ⟨1, _⟩ => rfl)
  have hr : ∀ k : Fin 256, ridx_main_v59 (ix2 p cc) k = ix2 k cc := fun k => funext fun a => Fin.ext (by match a with | ⟨0, _⟩ => rfl | ⟨1, _⟩ => rfl)
  rw [val_main_v64_apply, val_main_v59_apply, bih0_at]
  simp only [hl, hr, conv0_at, wih0_at, Ideal.addf_def]
  unfold GI0
  rfl

theorem gh0_at (p : Fin 50000) (cc : Fin 768) : val_main_v73 (F := Ideal) x3 x10 x12 (ix2 p cc) = GH0 x3 x10 x12 p cc := by
  have hl : ∀ k : Fin 256, lidx_main_v68 (ix2 p cc) k = ix2 p k := fun k => funext fun a => Fin.ext (by match a with | ⟨0, _⟩ => rfl | ⟨1, _⟩ => rfl)
  have hr : ∀ k : Fin 256, ridx_main_v68 (ix2 p cc) k = ix2 k cc := fun k => funext fun a => Fin.ext (by match a with | ⟨0, _⟩ => rfl | ⟨1, _⟩ => rfl)
  rw [val_main_v73_apply, val_main_v68_apply, bhh0_at]
  simp only [hl, hr, whh0_at, Ideal.addf_def]
  unfold GH0
  rfl

/-- The reset gate: the logistic function, spelt `1 / (1 + exp (-·))`, of the two first blocks' sum. -/
theorem reset0_at (p : Fin 50000) (q : Fin 256) : val_main_v86 (F := Ideal) x0 x1 x3 x5 x6 x7 x8 x9 x10 x11 x12 (ix2 p q) = Ideal.logistic (GI0 x0 x1 x5 x6 x7 x8 x9 x11 p (Gnn.gR q) + GH0 x3 x10 x12 p (Gnn.gR q)) := by
  have ea : idx_main_v74 (ix2 p q) = ix2 p (Gnn.gR q) := funext fun a => Fin.ext (by match a with | ⟨0, _⟩ => rfl | ⟨1, _⟩ => rfl)
  have eb : idx_main_v77 (ix2 p q) = ix2 p (Gnn.gR q) := funext fun a => Fin.ext (by match a with | ⟨0, _⟩ => rfl | ⟨1, _⟩ => rfl)
  rw [val_main_v86_apply, val_main_v85_apply, val_main_cst_9_apply, val_main_v84_apply, val_main_v83_apply, val_main_cst_8_apply,
    val_main_v82_apply, val_main_v81_apply, val_main_v80_apply, val_main_v74_apply, val_main_v77_apply,
    ea, eb, gi0_at, gh0_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one, Ideal.logistic]

/-- The update gate: the same of the two second blocks. -/
theorem update0_at (p : Fin 50000) (q : Fin 256) : val_main_v93 (F := Ideal) x0 x1 x3 x5 x6 x7 x8 x9 x10 x11 x12 (ix2 p q) = Ideal.logistic (GI0 x0 x1 x5 x6 x7 x8 x9 x11 p (Gnn.gZ q) + GH0 x3 x10 x12 p (Gnn.gZ q)) := by
  have ea : idx_main_v75 (ix2 p q) = ix2 p (Gnn.gZ q) := funext fun a => Fin.ext (by match a with | ⟨0, _⟩ => rfl | ⟨1, _⟩ => rfl)
  have eb : idx_main_v78 (ix2 p q) = ix2 p (Gnn.gZ q) := funext fun a => Fin.ext (by match a with | ⟨0, _⟩ => rfl | ⟨1, _⟩ => rfl)
  rw [val_main_v93_apply, val_main_v92_apply, val_main_cst_11_apply, val_main_v91_apply, val_main_v90_apply, val_main_cst_10_apply,
    val_main_v89_apply, val_main_v88_apply, val_main_v87_apply, val_main_v75_apply, val_main_v78_apply,
    ea, eb, gi0_at, gh0_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one, Ideal.logistic]

/-- The candidate: `tanh` of the input's third block plus the reset gate times the state's third block. -/
theorem cand0_at (p : Fin 50000) (q : Fin 256) : val_main_v96 (F := Ideal) x0 x1 x3 x5 x6 x7 x8 x9 x10 x11 x12 (ix2 p q) = Ideal.tanh (GI0 x0 x1 x5 x6 x7 x8 x9 x11 p (Gnn.gN q) + Ideal.logistic (GI0 x0 x1 x5 x6 x7 x8 x9 x11 p (Gnn.gR q) + GH0 x3 x10 x12 p (Gnn.gR q)) * GH0 x3 x10 x12 p (Gnn.gN q)) := by
  have ea : idx_main_v76 (ix2 p q) = ix2 p (Gnn.gN q) := funext fun a => Fin.ext (by match a with | ⟨0, _⟩ => rfl | ⟨1, _⟩ => rfl)
  have eb : idx_main_v79 (ix2 p q) = ix2 p (Gnn.gN q) := funext fun a => Fin.ext (by match a with | ⟨0, _⟩ => rfl | ⟨1, _⟩ => rfl)
  rw [val_main_v96_apply, val_main_v95_apply, val_main_v76_apply, val_main_v94_apply, reset0_at,
    val_main_v79_apply, ea, eb, gi0_at, gh0_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one]

/-- The blend of the candidate and the previous state by the update gate. -/
theorem cell0_at (p : Fin 50000) (q : Fin 256) :
    val_main_v101 (F := Ideal) x0 x1 x3 x5 x6 x7 x8 x9 x10 x11 x12 (ix2 p q) = (1 - Ideal.logistic (GI0 x0 x1 x5 x6 x7 x8 x9 x11 p (Gnn.gZ q) + GH0 x3 x10 x12 p (Gnn.gZ q))) * Ideal.tanh (GI0 x0 x1 x5 x6 x7 x8 x9 x11 p (Gnn.gN q) + Ideal.logistic (GI0 x0 x1 x5 x6 x7 x8 x9 x11 p (Gnn.gR q) + GH0 x3 x10 x12 p (Gnn.gR q)) * GH0 x3 x10 x12 p (Gnn.gN q)) + Ideal.logistic (GI0 x0 x1 x5 x6 x7 x8 x9 x11 p (Gnn.gZ q) + GH0 x3 x10 x12 p (Gnn.gZ q)) * (x3 (ix2 p q) : EReal) := by
  rw [val_main_v101_apply, val_main_v99_apply, val_main_v100_apply, val_main_v98_apply, val_main_v97_apply,
    val_main_cst_12_apply, update0_at, cand0_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one]

/-- The layer: the cell on the clipped aggregate and the previous state. -/
theorem layer0_at (p : Fin 50000) (q : Fin 256) : val_main_v101 (F := Ideal) x0 x1 x3 x5 x6 x7 x8 x9 x10 x11 x12 (ix2 p q) = H1 x0 x1 x3 x5 x6 x7 x8 x9 x10 x11 x12 p q := by
  rw [cell0_at]
  show _ = Gnn.gruCell _ _ _ _ _ _ p q
  unfold Gnn.gruCell GI0 GH0
  rfl

/-! ## Layer 1 -/

/-- The layer's square matrix: the slice of the stacked matrices, reshaped, read at `(k, q)`. -/
theorem cw1_at (k q : Fin 256) : val_main_v103 (F := Ideal) x7 (ix2 k q) = x7 (ix3 (1 : Fin 2) k q) :=
  (val_main_v103_apply x7 _).trans ((val_main_v102_apply x7 _).trans (congrArg x7 (funext fun a => Fin.ext (by
    have hk := k.isLt; have hq := q.isLt
    match a with
    | ⟨0, _⟩ => rfl
    | ⟨1, _⟩ => show (k.val * 256 + q.val) / 256 % 256 = k.val; omega
    | ⟨2, _⟩ => show (k.val * 256 + q.val) % 256 = q.val; omega))))

/-- The layer's bias row spread over the rows. -/
theorem cb1_at (p : Fin 50000) (q : Fin 256) : val_main_v121 (F := Ideal) x8 (ix2 p q) = x8 (ix2 (1 : Fin 2) q) :=
  (val_main_v121_apply x8 _).trans ((val_main_v120_apply x8 _).trans ((val_main_v119_apply x8 _).trans
    ((val_main_v118_apply x8 _).trans (congrArg x8 (funext fun a => Fin.ext (by
      have hq := q.isLt
      match a with
      | ⟨0, _⟩ => rfl
      | ⟨1, _⟩ => show q.val % 256 = q.val; omega))))))

/-- The input gates' weights, transposed for the product: entry `(k, cc)` is the stacked matrix's `(layer, cc, k)`. -/
theorem wih1_at (k : Fin 256) (cc : Fin 768) : val_main_v126 (F := Ideal) x9 (ix2 k cc) = x9 (ix3 (1 : Fin 2) cc k) :=
  (val_main_v126_apply x9 _).trans ((val_main_v125_apply x9 _).trans ((val_main_v124_apply x9 _).trans
    (congrArg x9 (funext fun a => Fin.ext (by
      have hk := k.isLt; have hc := cc.isLt
      match a with
      | ⟨0, _⟩ => rfl
      | ⟨1, _⟩ => show (cc.val * 256 + k.val) / 256 % 768 = cc.val; omega
      | ⟨2, _⟩ => show (cc.val * 256 + k.val) % 256 = k.val; omega)))))

/-- The state gates' weights, likewise. -/
theorem whh1_at (k : Fin 256) (cc : Fin 768) : val_main_v135 (F := Ideal) x10 (ix2 k cc) = x10 (ix3 (1 : Fin 2) cc k) :=
  (val_main_v135_apply x10 _).trans ((val_main_v134_apply x10 _).trans ((val_main_v133_apply x10 _).trans
    (congrArg x10 (funext fun a => Fin.ext (by
      have hk := k.isLt; have hc := cc.isLt
      match a with
      | ⟨0, _⟩ => rfl
      | ⟨1, _⟩ => show (cc.val * 256 + k.val) / 256 % 768 = cc.val; omega
      | ⟨2, _⟩ => show (cc.val * 256 + k.val) % 256 = k.val; omega)))))

/-- The two gate biases spread over the rows. -/
theorem bih1_at (p : Fin 50000) (cc : Fin 768) : val_main_v131 (F := Ideal) x11 (ix2 p cc) = x11 (ix2 (1 : Fin 2) cc) :=
  (val_main_v131_apply x11 _).trans ((val_main_v130_apply x11 _).trans ((val_main_v129_apply x11 _).trans
    ((val_main_v128_apply x11 _).trans (congrArg x11 (funext fun a => Fin.ext (by
      have hc := cc.isLt
      match a with
      | ⟨0, _⟩ => rfl
      | ⟨1, _⟩ => show cc.val % 768 = cc.val; omega))))))

theorem bhh1_at (p : Fin 50000) (cc : Fin 768) : val_main_v140 (F := Ideal) x12 (ix2 p cc) = x12 (ix2 (1 : Fin 2) cc) :=
  (val_main_v140_apply x12 _).trans ((val_main_v139_apply x12 _).trans ((val_main_v138_apply x12 _).trans
    ((val_main_v137_apply x12 _).trans (congrArg x12 (funext fun a => Fin.ext (by
      have hc := cc.isLt
      match a with
      | ⟨0, _⟩ => rfl
      | ⟨1, _⟩ => show cc.val % 768 = cc.val; omega))))))

/-- Every row projected by the layer's matrix. -/
theorem proj1_at (p : Fin 50000) (q : Fin 256) :
    val_main_v104 (F := Ideal) x0 x1 x3 x5 x6 x7 x8 x9 x10 x11 x12 (ix2 p q) = Gnn.proj (H1 x0 x1 x3 x5 x6 x7 x8 x9 x10 x11 x12) (fun k q => (x7 (ix3 (1 : Fin 2) k q) : EReal)) p q := by
  have hl : ∀ k : Fin 256, lidx_main_v104 (ix2 p q) k = ix2 p k := fun k => funext fun a => Fin.ext (by match a with | ⟨0, _⟩ => rfl | ⟨1, _⟩ => rfl)
  have hr : ∀ k : Fin 256, ridx_main_v104 (ix2 p q) k = ix2 k q := fun k => funext fun a => Fin.ext (by match a with | ⟨0, _⟩ => rfl | ⟨1, _⟩ => rfl)
  rw [val_main_v104_apply]
  simp only [hl, hr, layer0_at, cw1_at]
  rfl

/-- The message of edge `e`: the projected row of its source, scaled by the edge's weight. -/
theorem msg1_at (e : Fin 850000) (q : Fin 256) :
    val_main_v114 (F := Ideal) x0 x1 x3 x5 x6 x7 x8 x9 x10 x11 x12 (ix2 e q) = Gnn.proj (H1 x0 x1 x3 x5 x6 x7 x8 x9 x10 x11 x12) (fun k q => (x7 (ix3 (1 : Fin 2) k q) : EReal)) (src x1 e) q * nrm x1 e := by
  have hg : val_main_v111 (F := Ideal) x0 x1 x3 x5 x6 x7 x8 x9 x10 x11 x12 (ix2 e q) = val_main_v104 (F := Ideal) x0 x1 x3 x5 x6 x7 x8 x9 x10 x11 x12 (ix2 (GatherRows.row 50000 (by decide) (val_main_v110 (F := Ideal) x1) e) q) := by
    unfold val_main_v111
    exact GatherRows.gather_rows_apply (by decide) _ rfl rfl rfl rfl rfl rfl _ _ (ix2 e q)
  have hw : val_main_v113 (F := Ideal) x1 (ix2 e q) = val_main_v28 (F := Ideal) x1 (ix1 e) :=
    (val_main_v113_apply x1 _).trans ((val_main_v112_apply x1 _).trans (congrArg (val_main_v28 (F := Ideal) x1)
      (funext fun a => Fin.ext (by match a with | ⟨0, _⟩ => rfl))))
  rw [val_main_v114_apply, hg, hw, proj1_at]
  rw [src_again]
  rfl

/-- What node `p` receives: the messages of the edges whose target is `p`, summed. -/
theorem agg1_at (p : Fin 50000) (q : Fin 256) :
    val_main_v117 (F := Ideal) x0 x1 x3 x5 x6 x7 x8 x9 x10 x11 x12 (ix2 p q) = Gnn.aggregate (tgt x1) (src x1) (nrm x1) (Gnn.proj (H1 x0 x1 x3 x5 x6 x7 x8 x9 x10 x11 x12) (fun k q => (x7 (ix3 (1 : Fin 2) k q) : EReal))) p q := by
  unfold val_main_v117
  refine (ScatterRows.scatterAdd_rows_apply _ rfl rfl rfl rfl (val_main_v115 (F := Ideal)) (val_main_v116 (F := Ideal) x1)
    (val_main_v114 (F := Ideal) x0 x1 x3 x5 x6 x7 x8 x9 x10 x11 x12) p q).trans ?_
  rw [val_main_v115_apply, val_main_cst_15_apply]
  rw [tgt_again]
  simp only [Ideal.ofBits_def, Gnn.ofBits_zero, zero_add, msg1_at]
  rfl

/-- The input of the cell: the aggregate plus the bias, clipped at zero. -/
theorem conv1_at (p : Fin 50000) (q : Fin 256) :
    val_main_v123 (F := Ideal) x0 x1 x3 x5 x6 x7 x8 x9 x10 x11 x12 (ix2 p q) = (fun p k => Gnn.relu (Gnn.aggregate (tgt x1) (src x1) (nrm x1) (Gnn.proj (H1 x0 x1 x3 x5 x6 x7 x8 x9 x10 x11 x12) (fun k q => (x7 (ix3 (1 : Fin 2) k q) : EReal))) p k + (fun q => (x8 (ix2 (1 : Fin 2) q) : EReal)) k)) p q := by
  rw [val_main_v123_apply, val_main_v122_apply, agg1_at, cb1_at, val_main_call2_v0_apply, val_main_call2_cst_apply]
  simp only [Ideal.maximumf_def, Ideal.addf_def, Ideal.ofBits_def, Gnn.ofBits_zero]
  rfl

/-- The gate pre-activations of the cell's input and of the previous state, as functions of the row and the gate column. -/
def GI1 : Fin 50000 → Fin 768 → EReal := Gnn.gate (fun p k => Gnn.relu (Gnn.aggregate (tgt x1) (src x1) (nrm x1) (Gnn.proj (H1 x0 x1 x3 x5 x6 x7 x8 x9 x10 x11 x12) (fun k q => (x7 (ix3 (1 : Fin 2) k q) : EReal))) p k + (fun q => (x8 (ix2 (1 : Fin 2) q) : EReal)) k)) (fun cc k => (x9 (ix3 (1 : Fin 2) cc k) : EReal)) (fun cc => (x11 (ix2 (1 : Fin 2) cc) : EReal))
def GH1 : Fin 50000 → Fin 768 → EReal := Gnn.gate (fun p k => (x4 (ix2 p k) : EReal)) (fun cc k => (x10 (ix3 (1 : Fin 2) cc k) : EReal)) (fun cc => (x12 (ix2 (1 : Fin 2) cc) : EReal))

theorem gi1_at (p : Fin 50000) (cc : Fin 768) : val_main_v132 (F := Ideal) x0 x1 x3 x5 x6 x7 x8 x9 x10 x11 x12 (ix2 p cc) = GI1 x0 x1 x3 x5 x6 x7 x8 x9 x10 x11 x12 p cc := by
  have hl : ∀ k : Fin 256, lidx_main_v127 (ix2 p cc) k = ix2 p k := fun k => funext fun a => Fin.ext (by match a with | ⟨0, _⟩ => rfl | ⟨1, _⟩ => rfl)
  have hr : ∀ k : Fin 256, ridx_main_v127 (ix2 p cc) k = ix2 k cc := fun k => funext fun a => Fin.ext (by match a with | ⟨0, _⟩ => rfl | ⟨1, _⟩ => rfl)
  rw [val_main_v132_apply, val_main_v127_apply, bih1_at]
  simp only [hl, hr, conv1_at, wih1_at, Ideal.addf_def]
  unfold GI1
  rfl

theorem gh1_at (p : Fin 50000) (cc : Fin 768) : val_main_v141 (F := Ideal) x4 x10 x12 (ix2 p cc) = GH1 x4 x10 x12 p cc := by
  have hl : ∀ k : Fin 256, lidx_main_v136 (ix2 p cc) k = ix2 p k := fun k => funext fun a => Fin.ext (by match a with | ⟨0, _⟩ => rfl | ⟨1, _⟩ => rfl)
  have hr : ∀ k : Fin 256, ridx_main_v136 (ix2 p cc) k = ix2 k cc := fun k => funext fun a => Fin.ext (by match a with | ⟨0, _⟩ => rfl | ⟨1, _⟩ => rfl)
  rw [val_main_v141_apply, val_main_v136_apply, bhh1_at]
  simp only [hl, hr, whh1_at, Ideal.addf_def]
  unfold GH1
  rfl

/-- The reset gate: the logistic function, spelt `1 / (1 + exp (-·))`, of the two first blocks' sum. -/
theorem reset1_at (p : Fin 50000) (q : Fin 256) : val_main_v154 (F := Ideal) x0 x1 x3 x4 x5 x6 x7 x8 x9 x10 x11 x12 (ix2 p q) = Ideal.logistic (GI1 x0 x1 x3 x5 x6 x7 x8 x9 x10 x11 x12 p (Gnn.gR q) + GH1 x4 x10 x12 p (Gnn.gR q)) := by
  have ea : idx_main_v142 (ix2 p q) = ix2 p (Gnn.gR q) := funext fun a => Fin.ext (by match a with | ⟨0, _⟩ => rfl | ⟨1, _⟩ => rfl)
  have eb : idx_main_v145 (ix2 p q) = ix2 p (Gnn.gR q) := funext fun a => Fin.ext (by match a with | ⟨0, _⟩ => rfl | ⟨1, _⟩ => rfl)
  rw [val_main_v154_apply, val_main_v153_apply, val_main_cst_17_apply, val_main_v152_apply, val_main_v151_apply, val_main_cst_16_apply,
    val_main_v150_apply, val_main_v149_apply, val_main_v148_apply, val_main_v142_apply, val_main_v145_apply,
    ea, eb, gi1_at, gh1_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one, Ideal.logistic]

/-- The update gate: the same of the two second blocks. -/
theorem update1_at (p : Fin 50000) (q : Fin 256) : val_main_v161 (F := Ideal) x0 x1 x3 x4 x5 x6 x7 x8 x9 x10 x11 x12 (ix2 p q) = Ideal.logistic (GI1 x0 x1 x3 x5 x6 x7 x8 x9 x10 x11 x12 p (Gnn.gZ q) + GH1 x4 x10 x12 p (Gnn.gZ q)) := by
  have ea : idx_main_v143 (ix2 p q) = ix2 p (Gnn.gZ q) := funext fun a => Fin.ext (by match a with | ⟨0, _⟩ => rfl | ⟨1, _⟩ => rfl)
  have eb : idx_main_v146 (ix2 p q) = ix2 p (Gnn.gZ q) := funext fun a => Fin.ext (by match a with | ⟨0, _⟩ => rfl | ⟨1, _⟩ => rfl)
  rw [val_main_v161_apply, val_main_v160_apply, val_main_cst_19_apply, val_main_v159_apply, val_main_v158_apply, val_main_cst_18_apply,
    val_main_v157_apply, val_main_v156_apply, val_main_v155_apply, val_main_v143_apply, val_main_v146_apply,
    ea, eb, gi1_at, gh1_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one, Ideal.logistic]

/-- The candidate: `tanh` of the input's third block plus the reset gate times the state's third block. -/
theorem cand1_at (p : Fin 50000) (q : Fin 256) : val_main_v164 (F := Ideal) x0 x1 x3 x4 x5 x6 x7 x8 x9 x10 x11 x12 (ix2 p q) = Ideal.tanh (GI1 x0 x1 x3 x5 x6 x7 x8 x9 x10 x11 x12 p (Gnn.gN q) + Ideal.logistic (GI1 x0 x1 x3 x5 x6 x7 x8 x9 x10 x11 x12 p (Gnn.gR q) + GH1 x4 x10 x12 p (Gnn.gR q)) * GH1 x4 x10 x12 p (Gnn.gN q)) := by
  have ea : idx_main_v144 (ix2 p q) = ix2 p (Gnn.gN q) := funext fun a => Fin.ext (by match a with | ⟨0, _⟩ => rfl | ⟨1, _⟩ => rfl)
  have eb : idx_main_v147 (ix2 p q) = ix2 p (Gnn.gN q) := funext fun a => Fin.ext (by match a with | ⟨0, _⟩ => rfl | ⟨1, _⟩ => rfl)
  rw [val_main_v164_apply, val_main_v163_apply, val_main_v144_apply, val_main_v162_apply, reset1_at,
    val_main_v147_apply, ea, eb, gi1_at, gh1_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one]

/-- The blend of the candidate and the previous state by the update gate. -/
theorem cell1_at (p : Fin 50000) (q : Fin 256) :
    val_main_v169 (F := Ideal) x0 x1 x3 x4 x5 x6 x7 x8 x9 x10 x11 x12 (ix2 p q) = (1 - Ideal.logistic (GI1 x0 x1 x3 x5 x6 x7 x8 x9 x10 x11 x12 p (Gnn.gZ q) + GH1 x4 x10 x12 p (Gnn.gZ q))) * Ideal.tanh (GI1 x0 x1 x3 x5 x6 x7 x8 x9 x10 x11 x12 p (Gnn.gN q) + Ideal.logistic (GI1 x0 x1 x3 x5 x6 x7 x8 x9 x10 x11 x12 p (Gnn.gR q) + GH1 x4 x10 x12 p (Gnn.gR q)) * GH1 x4 x10 x12 p (Gnn.gN q)) + Ideal.logistic (GI1 x0 x1 x3 x5 x6 x7 x8 x9 x10 x11 x12 p (Gnn.gZ q) + GH1 x4 x10 x12 p (Gnn.gZ q)) * (x4 (ix2 p q) : EReal) := by
  rw [val_main_v169_apply, val_main_v167_apply, val_main_v168_apply, val_main_v166_apply, val_main_v165_apply,
    val_main_cst_20_apply, update1_at, cand1_at]
  simp only [Ideal.addf_def, Ideal.subf_def, Ideal.mulf_def, Ideal.hostDivf_def, Ideal.hostNegf_def, Ideal.negf_def,
    Ideal.hostUnary_exp_def, Ideal.hostUnary_tanh_def, Ideal.ofBits_def, Gnn.ofBits_one]

/-- The layer: the cell on the clipped aggregate and the previous state. -/
theorem layer1_at (p : Fin 50000) (q : Fin 256) : val_main_v169 (F := Ideal) x0 x1 x3 x4 x5 x6 x7 x8 x9 x10 x11 x12 (ix2 p q) = H2 x0 x1 x3 x4 x5 x6 x7 x8 x9 x10 x11 x12 p q := by
  rw [cell1_at]
  show _ = Gnn.gruCell _ _ _ _ _ _ p q
  unfold Gnn.gruCell GI1 GH1
  rfl

/-! ## The score of a labelled edge -/

/-- The output bias spread over the rows. -/
theorem post_bias_at (e : Fin 200000) (cc : Fin 2) : val_main_v191 (F := Ideal) x14 (ix2 e cc) = x14 (ix1 cc) :=
  (val_main_v191_apply x14 _).trans ((val_main_v190_apply x14 _).trans (congrArg x14
    (funext fun a => Fin.ext (by match a with | ⟨0, _⟩ => rfl))))

/-- The Hadamard product of the two end rows. -/
theorem had_at (e : Fin 200000) (k : Fin 256) :
    val_main_v188 (F := Ideal) x0 x1 x2 x3 x4 x5 x6 x7 x8 x9 x10 x11 x12 (ix2 e k) = H2 x0 x1 x3 x4 x5 x6 x7 x8 x9 x10 x11 x12 (ia x2 e) k * H2 x0 x1 x3 x4 x5 x6 x7 x8 x9 x10 x11 x12 (ib x2 e) k := by
  have ha : val_main_v178 (F := Ideal) x0 x1 x2 x3 x4 x5 x6 x7 x8 x9 x10 x11 x12 (ix2 e k) = val_main_v169 (F := Ideal) x0 x1 x3 x4 x5 x6 x7 x8 x9 x10 x11 x12 (ix2 (ia x2 e) k) := by
    unfold val_main_v178
    exact GatherRows.gather_rows_apply (by decide) _ rfl rfl rfl rfl rfl rfl _ _ (ix2 e k)
  have hb : val_main_v187 (F := Ideal) x0 x1 x2 x3 x4 x5 x6 x7 x8 x9 x10 x11 x12 (ix2 e k) = val_main_v169 (F := Ideal) x0 x1 x3 x4 x5 x6 x7 x8 x9 x10 x11 x12 (ix2 (ib x2 e) k) := by
    unfold val_main_v187
    exact GatherRows.gather_rows_apply (by decide) _ rfl rfl rfl rfl rfl rfl _ _ (ix2 e k)
  rw [val_main_v188_apply, ha, hb, layer1_at, layer1_at]
  rfl

/-- One output column of a labelled edge: the Hadamard product against the column, plus the bias. -/
theorem out_at (e : Fin 200000) (cc : Fin 2) :
    val_main_v192 (F := Ideal) x0 x1 x2 x3 x4 x5 x6 x7 x8 x9 x10 x11 x12 x13 x14 (ix2 e cc)
      = (∑ k : Fin 256, (H2 x0 x1 x3 x4 x5 x6 x7 x8 x9 x10 x11 x12 (ia x2 e) k * H2 x0 x1 x3 x4 x5 x6 x7 x8 x9 x10 x11 x12 (ib x2 e) k) * (x13 (ix2 k cc) : EReal)) + (x14 (ix1 cc) : EReal) := by
  have hl : ∀ k : Fin 256, lidx_main_v189 (ix2 e cc) k = ix2 e k := fun k => funext fun a => Fin.ext (by match a with | ⟨0, _⟩ => rfl | ⟨1, _⟩ => rfl)
  have hr : ∀ k : Fin 256, ridx_main_v189 (ix2 e cc) k = ix2 k cc := fun k => funext fun a => Fin.ext (by match a with | ⟨0, _⟩ => rfl | ⟨1, _⟩ => rfl)
  rw [val_main_v192_apply, val_main_v189_apply, post_bias_at]
  simp only [hl, hr, had_at, Ideal.addf_def]

/-- THE REFERENCE'S RESULT over the argument arrays: the score of every labelled edge on the state after two layers. -/
theorem ref_value_args :
    val_main_v193 (F := Ideal) x0 x1 x2 x3 x4 x5 x6 x7 x8 x9 x10 x11 x12 x13 x14
      = fun i => Gnn.score (H2 x0 x1 x3 x4 x5 x6 x7 x8 x9 x10 x11 x12) (ia x2) (ib x2)
          (fun k cc => (x13 (ix2 k cc) : EReal)) (fun cc => (x14 (ix1 cc) : EReal)) (i 0) := by
  funext i
  obtain ⟨e, rfl⟩ : ∃ e : Fin 200000, i = ix1 e := ⟨i 0, eq_ix1 i⟩
  have hi : ∀ k : Fin 2, idx_main_v193 (ix1 e) k = ix2 e k := fun k => funext fun a => Fin.ext (by match a with | ⟨0, _⟩ => rfl | ⟨1, _⟩ => rfl)
  rw [val_main_v193_apply, val_main_cst_25_apply]
  simp only [hi, out_at, Ideal.ofBits_def, Gnn.ofBits_zero, zero_add]
  rfl

/-- THE REFERENCE'S RESULT as the network function: each layer projecting and then aggregating. -/
theorem ref_value :
    val_main_v193 (F := Ideal) x0 x1 x2 x3 x4 x5 x6 x7 x8 x9 x10 x11 x12 x13 x14 = fun i => Cert.Net.netPA x0 x1 x2 x3 x4 x5 x6 x7 x8 x9 x10 x11 x12 x13 x14 (i 0) :=
  (ref_value_args x0 x1 x2 x3 x4 x5 x6 x7 x8 x9 x10 x11 x12 x13 x14).trans rfl

end Cert.ReferenceIdeal.RefValue

end
-- ==== Proof.Claims.lean ====
/-
  The five claims of the certificate.

  The three frames: the word-level kernel and the idealized kernel run, terminate and keep their arguments by the
  launch theorem over their regions; the idealized reference by its run, read back operation by operation.
  `preserves`: the idealization rewrote nothing. `algebraic`: from memories that agree on the arguments, both idealized
  programs end with the same scores. The kernel's result is the network with each layer aggregating and then projecting
  (`Cert.Net.netAP`); the reference's is the network with each layer projecting and then aggregating (`Cert.Net.netPA`).
  The precondition makes every float argument a real number, the edge weights are then real, every layer keeps real data
  real, and on real data a projection distributes over the aggregation's sum: the two networks are one function.
-/
import proofs.«169681_j33285996544265_2_alg».proof.Defs
import proofs.«169681_j33285996544265_2_alg».proof.Proof.Gen.Kernel.Frame
import proofs.«169681_j33285996544265_2_alg».proof.Proof.Gen.KernelIdeal.Frame
import proofs.«169681_j33285996544265_2_alg».proof.Proof.Gen.ReferenceIdeal.Read
import proofs.«169681_j33285996544265_2_alg».proof.Proof.Gen.Pre_finite_inputs
import proofs.«169681_j33285996544265_2_alg».proof.Proof.KRun
import proofs.«169681_j33285996544265_2_alg».proof.Proof.KValue
import proofs.«169681_j33285996544265_2_alg».proof.Proof.KIndex
import proofs.«169681_j33285996544265_2_alg».proof.Proof.KIndexWgt
import proofs.«169681_j33285996544265_2_alg».proof.Proof.KPreReal
import proofs.«169681_j33285996544265_2_alg».proof.Proof.NrmReal
import proofs.«169681_j33285996544265_2_alg».proof.Proof.RefValue
import proofs.«169681_j33285996544265_2_alg».proof.Proof.Net

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The scores both programs end with, as a function of the kernel's launch memory. -/
def scores (m : (ℓ : Loc Cert.KernelIdeal.nD Cert.KernelIdeal.τ Cert.KernelIdeal.sig) → Buf (Elt Ideal) ℓ)
    (c : Dev Cert.KernelIdeal.nD) : Cert.KernelIdeal.S200000.Idx → EReal :=
  fun i => Cert.Net.netPA
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) (i 0)

theorem algebraic : Cert.algebraic_KernelIdeal_ReferenceIdeal := by
  intro m ρ m' ρ' hpre hagree
  refine ⟨fun c => scores m c, ?_, ?_⟩
  · refine (θ_run Cert.KernelIdeal.defs _ _).mono (fun r h c => ⟨(h c).1.trans ?_, (h c).2⟩)
      (Cert.KernelIdeal.KValue.run_result (F := Ideal) m ρ)
    funext i
    have hk := Cert.KernelIdeal.KValue.kernel_value m ρ c
      (Cert.KernelIdeal.KValue.dst_layer0 m ρ c) (Cert.KernelIdeal.KValue.dst_layer1 m ρ c)
      (Cert.KernelIdeal.KValue.src_layer0 m ρ c) (Cert.KernelIdeal.KValue.src_layer1 m ρ c)
      (Cert.KernelIdeal.KValue.wgt_layer0 m ρ c) (Cert.KernelIdeal.KValue.wgt_layer1 m ρ c)
      (Cert.KernelIdeal.KValue.end_a m ρ c) (Cert.KernelIdeal.KValue.end_b m ρ c) (i 0)
    have hnet := Cert.Net.netAP_eq_netPA
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
      (fun e => Cert.ReferenceIdeal.NrmReal.nrm_real _ e)
      (Cert.KernelIdeal.KValue.real_arg0 m hpre c) (Cert.KernelIdeal.KValue.real_arg5 m hpre c)
      (Cert.KernelIdeal.KValue.real_arg6 m hpre c) (Cert.KernelIdeal.KValue.real_arg7 m hpre c)
      (Cert.KernelIdeal.KValue.real_arg8 m hpre c) (Cert.KernelIdeal.KValue.real_arg3 m hpre c)
      (Cert.KernelIdeal.KValue.real_arg9 m hpre c) (Cert.KernelIdeal.KValue.real_arg10 m hpre c)
      (Cert.KernelIdeal.KValue.real_arg11 m hpre c) (Cert.KernelIdeal.KValue.real_arg12 m hpre c)
    calc (Cert.KernelIdeal.Gen.W9 m ρ c (Proc.devRef .tc Cert.KernelIdeal.main_v0) : Cert.KernelIdeal.S200000.Idx → EReal) i
        = (Cert.KernelIdeal.Gen.W9 m ρ c (Proc.devRef .tc Cert.KernelIdeal.main_v0) : Cert.KernelIdeal.S200000.Idx → EReal) (ix1 (i 0)) :=
          congrArg _ (eq_ix1 i)
      _ = _ := hk
      _ = scores m c i := congrFun hnet (i 0)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v193_eq m' c]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact Cert.ReferenceIdeal.RefValue.ref_value _ _ _ _ _ _ _ _ _ _ _ _ _ _ _

end Cert.Proof.Claims

end
-- ==== Proof.lean ====
/-
  The certificate: a two-layer message-passing network with GRU memory and edge scoring, as four kernels among host
  gathers and scatters, against its plain reference.

  The kernel aggregates each layer's rows over the edges and THEN projects them by the layer's square matrix inside the
  GRU kernel; the reference projects every row first and aggregates the projections. Over the extended reals the two
  orders agree where the data are real numbers, which the precondition (every float input finite) provides and every
  stage of the network preserves. The frames are the launch theorem over the kernel regions (kernel, idealized kernel)
  and the reference's run read back; the idealization rewrote no operation.
-/
import proofs.«169681_j33285996544265_2_alg».proof.Defs
import proofs.«169681_j33285996544265_2_alg».proof.Proof.Gen.Kernel
import proofs.«169681_j33285996544265_2_alg».proof.Proof.Gen.KernelIdeal
import proofs.«169681_j33285996544265_2_alg».proof.Proof.Gen.ReferenceIdeal
import proofs.«169681_j33285996544265_2_alg».proof.Proof.Gen.Pre_finite_inputs
import proofs.«169681_j33285996544265_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
